-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S4x16x65536x1 : Shape := ⟨4, ![4, 16, 65536, 1]⟩
abbrev S4x65536x16 : Shape := ⟨3, ![4, 65536, 16]⟩
abbrev S16x10 : Shape := ⟨2, ![16, 10]⟩
abbrev S16 : Shape := ⟨1, ![16]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S4x16x65536x1 : S_.BroadcastsInDim S4x16x65536x1 (![] : Fin 0 → Fin S4x16x65536x1.rank)
  reducesTo_S4x16x65536x1_S_d0_1_2_3 : S4x16x65536x1.ReducesTo [0, 1, 2, 3] S_
  bcast_S_S16x10 : S_.BroadcastsInDim S16x10 (![] : Fin 0 → Fin S16x10.rank)
  reducesTo_S16x10_S_d0_1 : S16x10.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S4x65536x3 .f32) (main_arg1 : FVec F S4x16x65536x1 .f32) (main_arg2 : IVec S4x65536x16 32) (main_arg3 : FVec F S16x10 .f32) (main_arg4 : FVec F S16 .f32) (main_arg5 : FVec F S16 .f32) (main_arg6 : FVec F S16 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S4x16x65536x1 .f32 := Host.absf main_arg1
  let main_cst_0 : FVec F S_ .f32 := constant S_ .f32 0x7F800000#32
  let main_v5 : FVec F S4x16x65536x1 .f32 := broadcastInDim S4x16x65536x1 ![] bcast_S_S4x16x65536x1 main_cst_0
  let main_v6 : IVec S4x16x65536x1 1 := cmpf .olt main_v4 main_v5
  let main_c_1 : IVec S_ 1 := constantI S_ 1 1#1
  let main_v7 : IVec S_ 1 := (fun x v => Host.reduce IntOp.andi x v reducesTo_S4x16x65536x1_S_d0_1_2_3 h_S_) main_v6 main_c_1
  let main_v8 : IVec S_ 1 := andi main_v3 main_v7
  let main_v9 : FVec F S16x10 .f32 := Host.absf main_arg3
  let main_cst_2 : FVec F S_ .f32 := constant S_ .f32 0x7F800000#32
  let main_v10 : FVec F S16x10 .f32 := broadcastInDim S16x10 ![] bcast_S_S16x10 main_cst_2
  let main_v11 : IVec S16x10 1 := cmpf .olt main_v9 main_v10
  let main_c_3 : IVec S_ 1 := constantI S_ 1 1#1
  let main_v12 : IVec S_ 1 := (fun x v => Host.reduce IntOp.andi x v reducesTo_S16x10_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S4x65536x3 : Shape := ⟨3, ![4, 65536, 3]⟩
abbrev S4x16x65536x1 : Shape := ⟨4, ![4, 16, 65536, 1]⟩
abbrev S4x65536x16 : Shape := ⟨3, ![4, 65536, 16]⟩
abbrev S16x10 : Shape := ⟨2, ![16, 10]⟩
abbrev S16 : Shape := ⟨1, ![16]⟩
abbrev S4x1048576 : Shape := ⟨2, ![4, 1048576]⟩
abbrev S4x3x65536 : Shape := ⟨3, ![4, 3, 65536]⟩
abbrev S4x16x65536 : Shape := ⟨3, ![4, 16, 65536]⟩
abbrev S_ : Shape := ⟨0, ![]⟩
abbrev S4x1048576x1 : Shape := ⟨3, ![4, 1048576, 1]⟩
abbrev S4x3x1048576 : Shape := ⟨3, ![4, 3, 1048576]⟩
abbrev S4x3x65536x16 : Shape := ⟨4, ![4, 3, 65536, 16]⟩
abbrev S4x16x1048576 : Shape := ⟨3, ![4, 16, 1048576]⟩
abbrev S16x1 : Shape := ⟨2, ![16, 1]⟩
abbrev S4x16x1 : Shape := ⟨3, ![4, 16, 1]⟩
abbrev S1x3x65536 : Shape := ⟨3, ![1, 3, 65536]⟩
abbrev S1x16x1 : Shape := ⟨3, ![1, 16, 1]⟩
abbrev S3x65536 : Shape := ⟨2, ![3, 65536]⟩
abbrev S65536 : Shape := ⟨1, ![65536]⟩
abbrev S1x65536 : Shape := ⟨2, ![1, 65536]⟩
abbrev S10x65536 : Shape := ⟨2, ![10, 65536]⟩
abbrev S16x65536 : Shape := ⟨2, ![16, 65536]⟩
abbrev S4x32x1048576 : Shape := ⟨3, ![4, 32, 1048576]⟩
abbrev S1x16x65536 : Shape := ⟨3, ![1, 16, 65536]⟩
abbrev S1x32x65536 : Shape := ⟨3, ![1, 32, 65536]⟩
abbrev S32x65536 : Shape := ⟨2, ![32, 65536]⟩
abbrev S4x32x65536x16 : Shape := ⟨4, ![4, 32, 65536, 16]⟩

abbrev nBuf : Space → Nat
  | .hbm => 52
  | .vmem => 26
  | .smem => 0
  | _ => 0

abbrev bufTy : (tb : Table) → Fin (tcTables nBuf tb) → BufTy
  | .hbm, ⟨0, _⟩ => ⟨S4x65536x3, .f32⟩
  | .hbm, ⟨1, _⟩ => ⟨S4x16x65536x1, .f32⟩
  | .hbm, ⟨2, _⟩ => ⟨S4x65536x16, .i32⟩
  | .hbm, ⟨3, _⟩ => ⟨S16x10, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S4x1048576, .i32⟩
  | .hbm, ⟨8, _⟩ => ⟨S4x3x65536, .f32⟩
  | .hbm, ⟨9, _⟩ => ⟨S4x16x65536, .f32⟩
  | .hbm, ⟨10, _⟩ => ⟨S_, .i32⟩
  | .hbm, ⟨11, _⟩ => ⟨S4x1048576, .i32⟩
  | .hbm, ⟨12, _⟩ => ⟨S4x1048576, .i1⟩
  | .hbm, ⟨13, _⟩ => ⟨S_, .i32⟩
  | .hbm, ⟨14, _⟩ => ⟨S4x1048576, .i32⟩
  | .hbm, ⟨15, _⟩ => ⟨S4x1048576, .i32⟩
  | .hbm, ⟨16, _⟩ => ⟨S4x1048576, .i32⟩
  | .hbm, ⟨17, _⟩ => ⟨S4x1048576x1, .i32⟩
  | .hbm, ⟨18, _⟩ => ⟨S4x3x1048576, .f32⟩
  | .hbm, ⟨19, _⟩ => ⟨S4x3x65536x16, .f32⟩
  | .hbm, ⟨20, _⟩ => ⟨S4x3x1048576, .f32⟩
  | .hbm, ⟨21, _⟩ => ⟨S_, .i32⟩
  | .hbm, ⟨22, _⟩ => ⟨S4x1048576, .i32⟩
  | .hbm, ⟨23, _⟩ => ⟨S4x1048576, .i1⟩
  | .hbm, ⟨24, _⟩ => ⟨S_, .i32⟩
  | .hbm, ⟨25, _⟩ => ⟨S4x1048576, .i32⟩
  | .hbm, ⟨26, _⟩ => ⟨S4x1048576, .i32⟩
  | .hbm, ⟨27, _⟩ => ⟨S4x1048576, .i32⟩
  | .hbm, ⟨28, _⟩ => ⟨S4x1048576x1, .i32⟩
  | .hbm, ⟨29, _⟩ => ⟨S4x16x1048576, .f32⟩
  | .hbm, ⟨30, _⟩ => ⟨S16x1, .f32⟩
  | .hbm, ⟨31, _⟩ => ⟨S16x1, .f32⟩
  | .hbm, ⟨32, _⟩ => ⟨S16x1, .f32⟩
  | .hbm, ⟨33, _⟩ => ⟨S4x16x1, .f32⟩
  | .hbm, ⟨34, _⟩ => ⟨S4x16x1, .f32⟩
  | .hbm, ⟨35, _⟩ => ⟨S_, .f32⟩
  | .hbm, ⟨36, _⟩ => ⟨S16x1, .f32⟩
  | .hbm, ⟨37, _⟩ => ⟨S_, .f32⟩
  | .hbm, ⟨38, _⟩ => ⟨S16x1, .f32⟩
  | .hbm, ⟨39, _⟩ => ⟨S_, .f32⟩
  | .hbm, ⟨40, _⟩ => ⟨S16x1, .f32⟩
  | .hbm, ⟨41, _⟩ => ⟨S16x1, .f32⟩
  | .hbm, ⟨42, _⟩ => ⟨S_, .f32⟩
  | .hbm, ⟨43, _⟩ => ⟨S16x1, .f32⟩
  | .hbm, ⟨44, _⟩ => ⟨S16x1, .f32⟩
  | .hbm, ⟨45, _⟩ => ⟨S16x1, .f32⟩
  | .hbm, ⟨46, _⟩ => ⟨S16x1, .f32⟩
  | .hbm, ⟨47, _⟩ => ⟨S_, .f32⟩
  | .hbm, ⟨48, _⟩ => ⟨S16x1, .f32⟩
  | .hbm, ⟨49, _⟩ => ⟨S16x1, .f32⟩
  | .hbm, ⟨50, _⟩ => ⟨S4x32x1048576, .f32⟩
  | .hbm, ⟨51, _⟩ => ⟨S4x32x65536x16, .f32⟩
  | .local _ .vmem, ⟨0, _⟩ => ⟨S1x3x65536, .f32⟩
  | .local _ .vmem, ⟨1, _⟩ => ⟨S1x3x65536, .f32⟩
  | .local _ .vmem, ⟨2, _⟩ => ⟨S1x3x65536, .f32⟩
  | .local _ .vmem, ⟨3, _⟩ => ⟨S1x3x65536, .f32⟩
  | .local _ .vmem, ⟨4, _⟩ => ⟨S16x10, .f32⟩
  | .local _ .vmem, ⟨5, _⟩ => ⟨S16x1, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S16x1, .f32⟩
  | .local _ .vmem, ⟨11, _⟩ => ⟨S16x1, .f32⟩
  | .local _ .vmem, ⟨12, _⟩ => ⟨S1x3x65536, .f32⟩
  | .local _ .vmem, ⟨13, _⟩ => ⟨S1x3x65536, .f32⟩
  | .local _ .vmem, ⟨14, _⟩ => ⟨S1x3x65536, .f32⟩
  | .local _ .vmem, ⟨15, _⟩ => ⟨S1x3x65536, .f32⟩
  | .local _ .vmem, ⟨16, _⟩ => ⟨S1x16x65536, .f32⟩
  | .local _ .vmem, ⟨17, _⟩ => ⟨S1x16x65536, .f32⟩
  | .local _ .vmem, ⟨18, _⟩ => ⟨S16x10, .f32⟩
  | .local _ .vmem, ⟨19, _⟩ => ⟨S16x1, .f32⟩
  | .local _ .vmem, ⟨20, _⟩ => ⟨S16x1, .f32⟩
  | .local _ .vmem, ⟨21, _⟩ => ⟨S16x1, .f32⟩
  | .local _ .vmem, ⟨22, _⟩ => ⟨S16x1, .f32⟩
  | .local _ .vmem, ⟨23, _⟩ => ⟨S16x1, .f32⟩
  | .local _ .vmem, ⟨24, _⟩ => ⟨S1x32x65536, .f32⟩
  | .local _ .vmem, ⟨25, _⟩ => ⟨S1x32x65536, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_cst : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_21 : BitVec 32 := 0#32
  let v36 : BitVec 1 := Scalar.cmpi .ne v35 c0_i32_21
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S16x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x32x65536 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  shapeCasts_S4x65536x16_S4x1048576 : S4x65536x16.ShapeCasts S4x1048576
  transposes_S4x65536x3_S4x3x65536_0_2_1 : S4x65536x3.Transposes [0, 2, 1] S4x3x65536
  shapeCasts_S4x16x65536x1_S4x16x65536 : S4x16x65536x1.ShapeCasts S4x16x65536
  bcast_S_S4x1048576 : S_.BroadcastsInDim S4x1048576 (![] : Fin 0 → Fin S4x1048576.rank)
  bcast_S4x1048576_S4x1048576x1_0_1 : S4x1048576.BroadcastsInDim S4x1048576x1 (![0, 1] : Fin 2 → Fin S4x1048576x1.rank)
  bcast_S4x3x65536_S4x3x65536x16_0_1_2 : S4x3x65536.BroadcastsInDim S4x3x65536x16 (![0, 1, 2] : Fin 3 → Fin S4x3x65536x16.rank)
  shapeCasts_S4x3x65536x16_S4x3x1048576 : S4x3x65536x16.ShapeCasts S4x3x1048576
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x3x65536_S1x3x65536_0_0_0 : ∀ a, (![0, 0, 0] : Fin 3 → Nat) a + S1x3x65536.size a ≤ S1x3x65536.size a
  h_S1x3x65536 : 0 < S1x3x65536.numel
  shapeCasts_S1x3x65536_S3x65536 : S1x3x65536.ShapeCasts S3x65536
  reduces_S3x65536_S65536 : S3x65536.Reduces [0] S65536
  shapeCasts_S65536_S1x65536 : S65536.ShapeCasts S1x65536
  concatenates_S1x65536_S3x65536_S3x65536_S3x65536_S10x65536_d0 : Shape.Concatenates [S1x65536, S3x65536, S3x65536, S3x65536] S10x65536 0
  inb_S16x10_S16x10_0_0 : ∀ a, (![0, 0] : Fin 2 → Nat) a + S16x10.size a ≤ S16x10.size a
  h_S16x10 : 0 < S16x10.numel
  broadcasts_S16x1_S16x65536 : S16x1.Broadcasts S16x65536
  reduces_S16x65536_S16 : S16x65536.Reduces [1] S16
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  reducesTo_S4x16x1_S16x1_d0 : S4x16x1.ReducesTo [0] S16x1
  h_S_ : 0 < S_.numel
  bcast_S_S16x1 : S_.BroadcastsInDim S16x1 (![] : Fin 0 → Fin S16x1.rank)
  inb_S1x16x65536_S1x16x65536_0_0_0 : ∀ a, (![0, 0, 0] : Fin 3 → Nat) a + S1x16x65536.size a ≤ S1x16x65536.size a
  h_S1x16x65536 : 0 < S1x16x65536.numel
  shapeCasts_S1x16x65536_S16x65536 : S1x16x65536.ShapeCasts S16x65536
  concatenates_S16x65536_S16x65536_S32x65536_d0 : Shape.Concatenates [S16x65536, S16x65536] S32x65536 0
  inb_S1x32x65536_S1x32x65536_0_0_0 : ∀ a, (![0, 0, 0] : Fin 3 → Nat) a + S1x32x65536.size a ≤ S1x32x65536.size a
  h_S1x32x65536 : 0 < S1x32x65536.numel
  shapeCasts_S1x32x65536_S32x65536 : S1x32x65536.ShapeCasts S32x65536
  shapeCasts_S32x65536_S1x32x65536 : S32x65536.ShapeCasts S1x32x65536
  shapeCasts_S4x32x1048576_S4x32x65536x16 : S4x32x1048576.ShapeCasts S4x32x65536x16
  gather_S4x3x65536_S4x1048576x1_S4x3x1048576_1_2_0_0_2_2_131_wf : GatherDims.WF S4x3x65536 S4x1048576x1 S4x3x1048576 [1] [2] [0] [2] [0] 2 ![1, 3, 1]
  gather_S4x16x65536_S4x1048576x1_S4x16x1048576_1_2_0_0_2_2_1161_wf : GatherDims.WF S4x16x65536 S4x1048576x1 S4x16x1048576 [1] [2] [0] [2] [0] 2 ![1, 16, 1]
  dot_S16x10_S10x65536_S16x65536_1_0_0_1_n_n_wf : DotDims.WF S16x10 S10x65536 S16x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S4x3x1048576.size a
  hwx0_0 : ∀ i : grid0.Coords, EltTy.bits .f32 = 32 ∨ (Rect.block (s := S4x3x1048576) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x65536.size a ≤ S4x3x1048576.size a
  hwx0_1 : ∀ i : grid0.Coords, EltTy.bits .f32 = 32 ∨ (Rect.block (s := S4x3x1048576) S1x3x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x10.size a ≤ S16x10.size a
  hwx0_2 : ∀ i : grid0.Coords, EltTy.bits .f32 = 32 ∨ (Rect.block (s := S16x10) S16x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S4x16x1.size a
  hwx0_4 : ∀ i : grid0.Coords, EltTy.bits .f32 = 32 ∨ (Rect.block (s := S4x16x1) S1x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S4x16x1.size a
  hwx0_5 : ∀ i : grid0.Coords, EltTy.bits .f32 = 32 ∨ (Rect.block (s := S4x16x1) S1x16x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x65536.size a ≤ S4x3x1048576.size a
  hwx1_0 : ∀ i : grid1.Coords, EltTy.bits .f32 = 32 ∨ (Rect.block (s := S4x3x1048576) S1x3x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x65536.size a ≤ S4x3x1048576.size a
  hwx1_1 : ∀ i : grid1.Coords, EltTy.bits .f32 = 32 ∨ (Rect.block (s := S4x3x1048576) S1x3x65536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x65536.size a ≤ S4x16x1048576.size a
  hwx1_2 : ∀ i : grid1.Coords, EltTy.bits .f32 = 32 ∨ (Rect.block (s := S4x16x1048576) S1x16x65536.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x10.size a ≤ S16x10.size a
  hwx1_3 : ∀ i : grid1.Coords, EltTy.bits .f32 = 32 ∨ (Rect.block (s := S16x10) S16x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x1.size a ≤ S16x1.size a
  hwx1_7 : ∀ i : grid1.Coords, EltTy.bits .f32 = 32 ∨ (Rect.block (s := S16x1) S16x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x1.size a ≤ S16x1.size a
  hwx1_8 : ∀ i : grid1.Coords, EltTy.bits .f32 = 32 ∨ (Rect.block (s := S16x1) S16x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x32x65536.size a ≤ S4x32x1048576.size a
  hwx1_9 : ∀ i : grid1.Coords, EltTy.bits .f32 = 32 ∨ (Rect.block (s := S4x32x1048576) S1x32x65536.size (cc1_transform_9 i) (hinb1_9 i)).WholeWords (EltTy.packing .f32)

variable [Facts₀]

def gather_S4x3x65536_S4x1048576x1_S4x3x1048576_1_2_0_0_2_2_131 : GatherDims S4x3x65536 S4x1048576x1 S4x3x1048576 where
  offsetDims := [1]
  collapsedSliceDims := [2]
  operandBatchingDims := [0]
  startIndicesBatchingDims := [0]
  startIndexMap := [2]
  indexVectorDim := 2
  sliceSizes := ![1, 3, 1]
  wf := gather_S4x3x65536_S4x1048576x1_S4x3x1048576_1_2_0_0_2_2_131_wf
def gather_S4x16x65536_S4x1048576x1_S4x16x1048576_1_2_0_0_2_2_1161 : GatherDims S4x16x65536 S4x1048576x1 S4x16x1048576 where
  offsetDims := [1]
  collapsedSliceDims := [2]
  operandBatchingDims := [0]
  startIndicesBatchingDims := [0]
  startIndexMap := [2]
  indexVectorDim := 2
  sliceSizes := ![1, 16, 1]
  wf := gather_S4x16x65536_S4x1048576x1_S4x16x1048576_1_2_0_0_2_2_1161_wf
def dot_S16x10_S10x65536_S16x65536_1_0_0_1_n_n : DotDims S16x10 S10x65536 S16x65536 where
  lhsContracting := [1]
  rhsContracting := [0]
  lhsNonContracting := [0]
  rhsNonContracting := [1]
  lhsBatch := []
  rhsBatch := []
  wf := dot_S16x10_S10x65536_S16x65536_1_0_0_1_n_n_wf

abbrev win0_0 : Pipeline.Window sig grid0 :=
  Pipeline.Window.ofSpec (Memref.whole main_v11) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x3x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S1x16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v11) S1x3x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x3x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x16x65536.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S16x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S16x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x32x65536.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4x65536x3 : Shape := ⟨3, ![4, 65536, 3]⟩
abbrev S4x16x65536x1 : Shape := ⟨4, ![4, 16, 65536, 1]⟩
abbrev S4x65536x16 : Shape := ⟨3, ![4, 65536, 16]⟩
abbrev S16x10 : Shape := ⟨2, ![16, 10]⟩
abbrev S16 : Shape := ⟨1, ![16]⟩
abbrev S_ : Shape := ⟨0, ![]⟩
abbrev S4x65536x16x1 : Shape := ⟨4, ![4, 65536, 16, 1]⟩
abbrev S4x65536x16x3 : Shape := ⟨4, ![4, 65536, 16, 3]⟩
abbrev S4x65536x1x3 : Shape := ⟨4, ![4, 65536, 1, 3]⟩
abbrev S4x65536x16x10 : Shape := ⟨4, ![4, 65536, 16, 10]⟩
abbrev S4x65536x16x16 : Shape := ⟨4, ![4, 65536, 16, 16]⟩
abbrev S1x1x1x16 : Shape := ⟨4, ![1, 1, 1, 16]⟩
abbrev S4x16x65536 : Shape := ⟨3, ![4, 16, 65536]⟩
abbrev S4x65536x16x32 : Shape := ⟨4, ![4, 65536, 16, 32]⟩
abbrev S4x32x65536x16 : Shape := ⟨4, ![4, 32, 65536, 16]⟩

abbrev nBuf : Space → Nat
  | .hbm => 89
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S4x16x65536x1, .f32⟩
  | .hbm, ⟨2, _⟩ => ⟨S4x65536x16, .i32⟩
  | .hbm, ⟨3, _⟩ => ⟨S16x10, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S_, .i32⟩
  | .hbm, ⟨8, _⟩ => ⟨S4x65536x16, .i32⟩
  | .hbm, ⟨9, _⟩ => ⟨S4x65536x16, .i1⟩
  | .hbm, ⟨10, _⟩ => ⟨S_, .i32⟩
  | .hbm, ⟨11, _⟩ => ⟨S4x65536x16, .i32⟩
  | .hbm, ⟨12, _⟩ => ⟨S4x65536x16, .i32⟩
  | .hbm, ⟨13, _⟩ => ⟨S4x65536x16, .i32⟩
  | .hbm, ⟨14, _⟩ => ⟨S4x65536x16x1, .i32⟩
  | .hbm, ⟨15, _⟩ => ⟨S4x65536x16x3, .f32⟩
  | .hbm, ⟨16, _⟩ => ⟨S4x65536x1x3, .f32⟩
  | .hbm, ⟨17, _⟩ => ⟨S4x65536x16x3, .f32⟩
  | .hbm, ⟨18, _⟩ => ⟨S4x65536x16x3, .f32⟩
  | .hbm, ⟨19, _⟩ => ⟨S4x65536x16x3, .f32⟩
  | .hbm, ⟨20, _⟩ => ⟨S_, .f32⟩
  | .hbm, ⟨21, _⟩ => ⟨S4x65536x16, .f32⟩
  | .hbm, ⟨22, _⟩ => ⟨S4x65536x16x1, .f32⟩
  | .hbm, ⟨23, _⟩ => ⟨S4x65536x16x1, .f32⟩
  | .hbm, ⟨24, _⟩ => ⟨S4x65536x16x10, .f32⟩
  | .hbm, ⟨25, _⟩ => ⟨S4x65536x16x16, .f32⟩
  | .hbm, ⟨26, _⟩ => ⟨S1x1x1x16, .f32⟩
  | .hbm, ⟨27, _⟩ => ⟨S4x65536x16x16, .f32⟩
  | .hbm, ⟨28, _⟩ => ⟨S4x65536x16x16, .f32⟩
  | .hbm, ⟨29, _⟩ => ⟨S_, .f32⟩
  | .hbm, ⟨30, _⟩ => ⟨S16, .f32⟩
  | .hbm, ⟨31, _⟩ => ⟨S1x1x1x16, .f32⟩
  | .hbm, ⟨32, _⟩ => ⟨S_, .f32⟩
  | .hbm, ⟨33, _⟩ => ⟨S1x1x1x16, .f32⟩
  | .hbm, ⟨34, _⟩ => ⟨S1x1x1x16, .f32⟩
  | .hbm, ⟨35, _⟩ => ⟨S_, .i32⟩
  | .hbm, ⟨36, _⟩ => ⟨S_, .f32⟩
  | .hbm, ⟨37, _⟩ => ⟨S16, .f32⟩
  | .hbm, ⟨38, _⟩ => ⟨S1x1x1x16, .f32⟩
  | .hbm, ⟨39, _⟩ => ⟨S_, .f32⟩
  | .hbm, ⟨40, _⟩ => ⟨S1x1x1x16, .f32⟩
  | .hbm, ⟨41, _⟩ => ⟨S1x1x1x16, .f32⟩
  | .hbm, ⟨42, _⟩ => ⟨S4x65536x16x16, .f32⟩
  | .hbm, ⟨43, _⟩ => ⟨S4x65536x16x16, .f32⟩
  | .hbm, ⟨44, _⟩ => ⟨S4x65536x16x16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16, .f32⟩
  | .hbm, ⟨50, _⟩ => ⟨S1x1x1x16, .f32⟩
  | .hbm, ⟨51, _⟩ => ⟨S1x1x1x16, .f32⟩
  | .hbm, ⟨52, _⟩ => ⟨S1x1x1x16, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S1x1x1x16, .f32⟩
  | .hbm, ⟨58, _⟩ => ⟨S1x1x1x16, .f32⟩
  | .hbm, ⟨59, _⟩ => ⟨S4x65536x16x16, .f32⟩
  | .hbm, ⟨60, _⟩ => ⟨S4x65536x16x16, .f32⟩
  | .hbm, ⟨61, _⟩ => ⟨S_, .f32⟩
  | .hbm, ⟨62, _⟩ => ⟨S1x1x1x16, .f32⟩
  | .hbm, ⟨63, _⟩ => ⟨S1x1x1x16, .f32⟩
  | .hbm, ⟨64, _⟩ => ⟨S1x1x1x16, .f32⟩
  | .hbm, ⟨65, _⟩ => ⟨S4x65536x16x16, .f32⟩
  | .hbm, ⟨66, _⟩ => ⟨S4x65536x16x16, .f32⟩
  | .hbm, ⟨67, _⟩ => ⟨S1x1x1x16, .f32⟩
  | .hbm, ⟨68, _⟩ => ⟨S4x65536x16x16, .f32⟩
  | .hbm, ⟨69, _⟩ => ⟨S4x65536x16x16, .f32⟩
  | .hbm, ⟨70, _⟩ => ⟨S1x1x1x16, .f32⟩
  | .hbm, ⟨71, _⟩ => ⟨S4x65536x16x16, .f32⟩
  | .hbm, ⟨72, _⟩ => ⟨S4x65536x16x16, .f32⟩
  | .hbm, ⟨73, _⟩ => ⟨S_, .f32⟩
  | .hbm, ⟨74, _⟩ => ⟨S4x65536x16x16, .f32⟩
  | .hbm, ⟨75, _⟩ => ⟨S4x65536x16x16, .f32⟩
  | .hbm, ⟨76, _⟩ => ⟨S4x16x65536, .f32⟩
  | .hbm, ⟨77, _⟩ => ⟨S4x65536x16, .f32⟩
  | .hbm, ⟨78, _⟩ => ⟨S_, .i32⟩
  | .hbm, ⟨79, _⟩ => ⟨S4x65536x16, .i32⟩
  | .hbm, ⟨80, _⟩ => ⟨S4x65536x16, .i1⟩
  | .hbm, ⟨81, _⟩ => ⟨S_, .i32⟩
  | .hbm, ⟨82, _⟩ => ⟨S4x65536x16, .i32⟩
  | .hbm, ⟨83, _⟩ => ⟨S4x65536x16, .i32⟩
  | .hbm, ⟨84, _⟩ => ⟨S4x65536x16, .i32⟩
  | .hbm, ⟨85, _⟩ => ⟨S4x65536x16x1, .i32⟩
  | .hbm, ⟨86, _⟩ => ⟨S4x65536x16x16, .f32⟩
  | .hbm, ⟨87, _⟩ => ⟨S4x65536x16x32, .f32⟩
  | .hbm, ⟨88, _⟩ => ⟨S4x32x65536x16, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_cst_3 : Ref sig .tc := ⟨.hbm, 53, rfl⟩
abbrev main_call0_v13 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_4 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_cst : Ref sig .tc := ⟨.hbm, 73, rfl⟩
abbrev main_call1_v0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_5 : Ref sig .tc := ⟨.hbm, 78, rfl⟩
abbrev main_v40 : Ref sig .tc := ⟨.hbm, 79, rfl⟩
abbrev main_v41 : Ref sig .tc := ⟨.hbm, 80, rfl⟩
abbrev main_c_6 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]

class Facts₀ : Prop where
  bcast_S_S4x65536x16 : S_.BroadcastsInDim S4x65536x16 (![] : Fin 0 → Fin S4x65536x16.rank)
  bcast_S4x65536x16_S4x65536x16x1_0_1_2 : S4x65536x16.BroadcastsInDim S4x65536x16x1 (![0, 1, 2] : Fin 3 → Fin S4x65536x16x1.rank)
  bcast_S4x65536x3_S4x65536x1x3_0_1_3 : S4x65536x3.BroadcastsInDim S4x65536x1x3 (![0, 1, 3] : Fin 3 → Fin S4x65536x1x3.rank)
  bcast_S4x65536x1x3_S4x65536x16x3_0_1_2_3 : S4x65536x1x3.BroadcastsInDim S4x65536x16x3 (![0, 1, 2, 3] : Fin 4 → Fin S4x65536x16x3.rank)
  reducesTo_S4x65536x16x3_S4x65536x16_d3 : S4x65536x16x3.ReducesTo [3] S4x65536x16
  h_S_ : 0 < S_.numel
  concatenates_S4x65536x16x1_S4x65536x16x3_S4x65536x16x3_S4x65536x16x3_S4x65536x16x10_d3 : Shape.Concatenates [S4x65536x16x1, S4x65536x16x3, S4x65536x16x3, S4x65536x16x3] S4x65536x16x10 3
  bcast_S16_S1x1x1x16_3 : S16.BroadcastsInDim S1x1x1x16 (![3] : Fin 1 → Fin S1x1x1x16.rank)
  bcast_S1x1x1x16_S4x65536x16x16_0_1_2_3 : S1x1x1x16.BroadcastsInDim S4x65536x16x16 (![0, 1, 2, 3] : Fin 4 → Fin S4x65536x16x16.rank)
  reducesTo_S4x65536x16x16_S16_d0_1_2 : S4x65536x16x16.ReducesTo [0, 1, 2] S16
  bcast_S_S1x1x1x16 : S_.BroadcastsInDim S1x1x1x16 (![] : Fin 0 → Fin S1x1x1x16.rank)
  bcast_S_S4x65536x16x16 : S_.BroadcastsInDim S4x65536x16x16 (![] : Fin 0 → Fin S4x65536x16x16.rank)
  shapeCasts_S4x16x65536x1_S4x16x65536 : S4x16x65536x1.ShapeCasts S4x16x65536
  transposes_S4x16x65536_S4x65536x16_0_2_1 : S4x16x65536.Transposes [0, 2, 1] S4x65536x16
  concatenates_S4x65536x16x16_S4x65536x16x16_S4x65536x16x32_d3 : Shape.Concatenates [S4x65536x16x16, S4x65536x16x16] S4x65536x16x32 3
  transposes_S4x65536x16x32_S4x32x65536x16_0_3_1_2 : S4x65536x16x32.Transposes [0, 3, 1, 2] S4x32x65536x16
  gather_S4x65536x3_S4x65536x16x1_S4x65536x16x3_3_1_0_0_1_3_113_wf : GatherDims.WF S4x65536x3 S4x65536x16x1 S4x65536x16x3 [3] [1] [0] [1] [0] 3 ![1, 1, 3]
  dot_S4x65536x16x10_S16x10_S4x65536x16x16_3_1_012_0_n_n_wf : DotDims.WF S4x65536x16x10 S16x10 S4x65536x16x16 [3] [1] [0, 1, 2] [0] [] []
  gather_S4x65536x16_S4x65536x16x1_S4x65536x16x16_3_1_0_0_1_3_1116_wf : GatherDims.WF S4x65536x16 S4x65536x16x1 S4x65536x16x16 [3] [1] [0] [1] [0] 3 ![1, 1, 16]

variable [Facts₀]

def gather_S4x65536x3_S4x65536x16x1_S4x65536x16x3_3_1_0_0_1_3_113 : GatherDims S4x65536x3 S4x65536x16x1 S4x65536x16x3 where
  offsetDims := [3]
  collapsedSliceDims := [1]
  operandBatchingDims := [0]
  startIndicesBatchingDims := [0]
  startIndexMap := [1]
  indexVectorDim := 3
  sliceSizes := ![1, 1, 3]
  wf := gather_S4x65536x3_S4x65536x16x1_S4x65536x16x3_3_1_0_0_1_3_113_wf
def dot_S4x65536x16x10_S16x10_S4x65536x16x16_3_1_012_0_n_n : DotDims S4x65536x16x10 S16x10 S4x65536x16x16 where
  lhsContracting := [3]
  rhsContracting := [1]
  lhsNonContracting := [0, 1, 2]
  rhsNonContracting := [0]
  lhsBatch := []
  rhsBatch := []
  wf := dot_S4x65536x16x10_S16x10_S4x65536x16x16_3_1_012_0_n_n_wf
def gather_S4x65536x16_S4x65536x16x1_S4x65536x16x16_3_1_0_0_1_3_1116 : GatherDims S4x65536x16 S4x65536x16x1 S4x65536x16x16 where
  offsetDims := [3]
  collapsedSliceDims := [1]
  operandBatchingDims := [0]
  startIndicesBatchingDims := [0]
  startIndexMap := [1]
  indexVectorDim := 3
  sliceSizes := ![1, 1, 16]
  wf := gather_S4x65536x16_S4x65536x16x1_S4x65536x16x16_3_1_0_0_1_3_1116_wf

class Facts : Prop extends Facts₀ where

variable [Facts]
-- ==== Proof.Kernel.Region0.lean ====
import proofs.«162062_j44212393345653_2_alg».proof.Proof.Gen.Kernel.Launch
import proofs.«162062_j44212393345653_2_alg».proof.Proof.Gen.Kernel.Skeleton
import proofs.«162062_j44212393345653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the accumulating pass, at the buffer contents `V` the region is entered with

The kernel of region 0 reads, at each grid point (batch, tile), one tile of the two coordinate arrays, the weights and
the bias column, and adds the tile's per-channel sum of the linear map, and of its square, into two scratch columns it
carries from tile to tile: it zeroes them at tile 0 and copies them into the two output blocks at tile 15. -/

/-! ## Whole-buffer accesses -/

/-- The zero offsets of a rank-2 access, spelt as a vector literal. -/
theorem off0_2 : (![0, 0] : Fin 2 → ℕ) = fun _ => 0 := by funext a; fin_cases a <;> rfl
/-- The zero offsets of a rank-3 access. -/
theorem off0_3 : (![0, 0, 0] : Fin 3 → ℕ) = fun _ => 0 := by funext a; fin_cases a <;> rfl

section Whole

variable {s : Shape} {e : EltTy}

/-- A load of the whole of a whole memref held at the raw contents that read `X` reads `X`. -/
theorem readAt_unread_whole {m : Memref sig .tc .vmem s e} (hm : m.IsWhole) (X : s.Idx → Elt F e)
    {off : Fin s.rank → ℕ} (h : off = fun _ => 0) {inb : ∀ a, off a + s.size a ≤ s.size a} :
    View.readAt (Elt F) m.view (Rect.unit off s.size inb).toLoadRect (hm.unread X) = X := by
  rw [View.readAt_eq_ld, hm.read_unread]; exact View.ld_unit_zero h inb X

/-- One store of the whole shape leaves its payload, whatever the buffer held. -/
theorem read_writes_whole1 (v : View sig .tc .vmem s e) (f : v.ty.Contents (Elt F))
    {off : Fin s.rank → ℕ} (h : off = fun _ => 0) {inb : ∀ a, off a + s.size a ≤ s.size a} (P : s.Idx → Elt F e) :
    v.read (Elt F) (v.writes (Elt F) f [⟨Rect.unit off s.size inb, P⟩]) = P := by
  rw [View.read_writes_eq_canon _ _ _ (fun y => ⟨_, List.mem_singleton_self _, View.mem_set_unit_zero h inb y⟩),
    View.canon_unit_zero h inb]

/-- A last store of the whole shape leaves its payload, whatever was stored before it. -/
theorem read_writes_whole_cons (v : View sig .tc .vmem s e) (f : v.ty.Contents (Elt F))
    {off : Fin s.rank → ℕ} (h : off = fun _ => 0) {inb : ∀ a, off a + s.size a ≤ s.size a} (P : s.Idx → Elt F e)
    (L : List (View.Piece (Elt F) s e)) :
    v.read (Elt F) (v.writes (Elt F) f (⟨Rect.unit off s.size inb, P⟩ :: L)) = P := by
  rw [View.read_writes_eq_canon _ _ _ (fun y => ⟨_, List.mem_cons_self, View.mem_set_unit_zero h inb y⟩),
    View.canon_cons_unit_zero h inb]

end Whole

/-! ## The body's two conditions over the grid -/

/-- The condition of the body's first conditional: the tile coordinate is 0 (the accumulators are reset). -/
abbrev cond0_first (i : grid0.Coords) : Prop :=
  Scalar.cmpi .ne (Scalar.extui (Scalar.cmpi .eq (BitVec.ofNat 32 (i 1).val) 0#32)) 0#32 = 1#1

/-- It holds at the points ≡ 0 (mod 16): decided over the grid. -/
theorem hcond0_first : ∀ t : Fin cfg0.N, cond0_first (grid0.coords t) ↔ t.val % 16 = 0 :=
  (by decide +kernel : ∀ t : Fin grid0.N, cond0_first (grid0.coords t) ↔ t.val % 16 = 0)

/-- The condition of the second conditional (the tile coordinate is 15: the accumulators are copied out) holds at the
    points ≡ 15 (mod 16). -/
theorem hcond0_last : ∀ t : Fin cfg0.N, k0_cond2 (grid0.coords t) = 1#1 ↔ t.val % 16 = 15 :=
  (by decide +kernel : ∀ t : Fin grid0.N, k0_cond2 (grid0.coords t) = 1#1 ↔ t.val % 16 = 15)

/-- Away from tile 15 the two output windows are idle, -/
theorem idleAt0_4 : ∀ t : Fin cfg0.N, t.val % 16 ≠ 15 → cfg0.idle 4 (grid0.coords t) = true :=
  (by decide +kernel : ∀ t : Fin grid0.N, t.val % 16 ≠ 15 → idle0 4 (grid0.coords t) = true)
theorem idleAt0_5 : ∀ t : Fin cfg0.N, t.val % 16 ≠ 15 → cfg0.idle 5 (grid0.coords t) = true :=
  (by decide +kernel : ∀ t : Fin grid0.N, t.val % 16 ≠ 15 → idle0 5 (grid0.coords t) = true)
/-- and not written back; -/
theorem noFlush0_4 (t : Fin cfg0.N) (h : t.val % 16 ≠ 15) : (cfg0.win 4).flush t = false := by
  cases hf : (cfg0.win 4).flush t
  · rfl
  · exact absurd ((flush0_4 t).mp hf) h
theorem noFlush0_5 (t : Fin cfg0.N) (h : t.val % 16 ≠ 15) : (cfg0.win 5).flush t = false := by
  cases hf : (cfg0.win 5).flush t
  · rfl
  · exact absurd ((flush0_5 t).mp hf) h
/-- at tile 15 they are live. -/
theorem liveAt0_4 : ∀ t : Fin cfg0.N, t.val % 16 = 15 → cfg0.idle 4 (grid0.coords t) = false :=
  (by decide +kernel : ∀ t : Fin grid0.N, t.val % 16 = 15 → idle0 4 (grid0.coords t) = false)
theorem liveAt0_5 : ∀ t : Fin cfg0.N, t.val % 16 = 15 → cfg0.idle 5 (grid0.coords t) = false :=
  (by decide +kernel : ∀ t : Fin grid0.N, t.val % 16 = 15 → idle0 5 (grid0.coords t) = false)

/-! ## The body's triple, per case of the two conditions -/

set_option maxHeartbeats 1000000 in
/-- Tile 0: the two accumulators, whatever they held, are zeroed and then take the tile's sums; the outputs' buffers
    are not touched. -/
theorem sound_kernel0_first (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : cond0_first i) (h2 : ¬ k0_cond2 i = 1#1)
    (x0 x1 : Vec F S1x3x65536 .f32) (x2 : Vec F S16x10 .f32) (x3 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay7 x0 x1 x2 x3 k0_pay4)
            ∗ owns (c : Thread nD τ) arg9 fullShare (k0_pay1 (k0_pay8 x0 x1 x2 x3 k0_pay5))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    sl_unfold_run_names
    rw [read_writes_whole_cons _ _ off0_2, View.readCov_unit_zero _ off0_2, readAt_unread_whole harg2 x0 off0_3, readAt_unread_whole harg3 x1 off0_3, readAt_unread_whole harg4 x2 off0_2, readAt_unread_whole harg5 x3 off0_2]
  iexists _; isplitr
  swap; · iexact H9
  ipureintro
  sl_unfold_run_names
  rw [read_writes_whole_cons _ _ off0_2, View.readCov_unit_zero _ off0_2, readAt_unread_whole harg2 x0 off0_3, readAt_unread_whole harg3 x1 off0_3, readAt_unread_whole harg4 x2 off0_2, readAt_unread_whole harg5 x3 off0_2]

set_option maxHeartbeats 1000000 in
/-- A tile strictly between 0 and 15: the accumulators take the tile's sums over what they held; the outputs' buffers
    are not touched. -/
theorem sound_kernel0_mid (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : ¬ cond0_first i) (h2 : ¬ k0_cond2 i = 1#1)
    (x0 x1 : Vec F S1x3x65536 .f32) (x2 : Vec F S16x10 .f32) (x3 : Vec F S16x1 .f32) (s0 s1 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay7 x0 x1 x2 x3 s0)
            ∗ owns (c : Thread nD τ) arg9 fullShare (k0_pay1 (k0_pay8 x0 x1 x2 x3 s1))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    rw [read_writes_whole1 _ _ off0_2, readAt_unread_whole harg2 x0 off0_3, readAt_unread_whole harg3 x1 off0_3, readAt_unread_whole harg4 x2 off0_2, readAt_unread_whole harg5 x3 off0_2, readAt_unread_whole harg8 s0 off0_2]
  iexists _; isplitr
  swap; · iexact H9
  ipureintro
  rw [read_writes_whole1 _ _ off0_2, readAt_unread_whole harg2 x0 off0_3, readAt_unread_whole harg3 x1 off0_3, readAt_unread_whole harg4 x2 off0_2, readAt_unread_whole harg5 x3 off0_2, readAt_unread_whole harg9 s1 off0_2]

set_option maxHeartbeats 1000000 in
/-- Tile 15: the accumulators take the tile's sums over what they held, and each is copied whole into its output's
    buffer, whatever that held. -/
theorem sound_kernel0_last (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : ¬ cond0_first i) (h2 : k0_cond2 i = 1#1)
    (x0 x1 : Vec F S1x3x65536 .f32) (x2 : Vec F S16x10 .f32) (x3 : Vec F S16x1 .f32) (s0 s1 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay7 x0 x1 x2 x3 s0))
            ∗ owns (c : Thread nD τ) arg7 fullShare (k0_pay3 (k0_pay1 (k0_pay8 x0 x1 x2 x3 s1)))
            ∗ owns (c : Thread nD τ) arg8 fullShare (k0_pay7 x0 x1 x2 x3 s0)
            ∗ owns (c : Thread nD τ) arg9 fullShare (k0_pay1 (k0_pay8 x0 x1 x2 x3 s1))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_whole1 _ _ off0_3, View.readCov_unit_zero _ off0_2, readAt_unread_whole harg2 x0 off0_3, readAt_unread_whole harg3 x1 off0_3, readAt_unread_whole harg4 x2 off0_2, readAt_unread_whole harg5 x3 off0_2, readAt_unread_whole harg8 s0 off0_2]
  isplitl [H7]
  · iexists _; isplitr
    swap; · iexact H7
    ipureintro
    sl_unfold_run_names
    rw [read_writes_whole1 _ _ off0_3, View.readCov_unit_zero _ off0_2, readAt_unread_whole harg2 x0 off0_3, readAt_unread_whole harg3 x1 off0_3, readAt_unread_whole harg4 x2 off0_2, readAt_unread_whole harg5 x3 off0_2, readAt_unread_whole harg9 s1 off0_2]
  isplitl [H8]
  · iexists _; isplitr
    swap; · iexact H8
    ipureintro
    sl_unfold_run_names
    rw [read_writes_whole1 _ _ off0_2, readAt_unread_whole harg2 x0 off0_3, readAt_unread_whole harg3 x1 off0_3, readAt_unread_whole harg4 x2 off0_2, readAt_unread_whole harg5 x3 off0_2, readAt_unread_whole harg8 s0 off0_2]
  iexists _; isplitr
  swap; · iexact H9
  ipureintro
  sl_unfold_run_names
  rw [read_writes_whole1 _ _ off0_2, readAt_unread_whole harg2 x0 off0_3, readAt_unread_whole harg3 x1 off0_3, readAt_unread_whole harg4 x2 off0_2, readAt_unread_whole harg5 x3 off0_2, readAt_unread_whole harg9 s1 off0_2]

/-! ## The proof data of region 0 -/

section Regions

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- One point's step of the two accumulators: each takes the tile's sum over what it held. -/
def step0 (c : Dev nD) (t : Fin cfg0.N) (s : Vec F S16x1 .f32 × Vec F S16x1 .f32) : Vec F S16x1 .f32 × Vec F S16x1 .f32 :=
  (k0_pay7 (iblk0 V c 0 t) (iblk0 V c 1 t) (iblk0 V c 2 t) (iblk0 V c 3 t) s.1,
   k0_pay1 (k0_pay8 (iblk0 V c 0 t) (iblk0 V c 1 t) (iblk0 V c 2 t) (iblk0 V c 3 t) s.2))

/-- THE ACCUMULATION: what the two scratch columns hold after the body at position `n` — at the first tile of a batch
    the step over the zero columns, else the step over what the point before left. -/
def acc0 (c : Dev nD) : (n : ℕ) → n < cfg0.N → Vec F S16x1 .f32 × Vec F S16x1 .f32
  | 0, hn => step0 V c ⟨0, hn⟩ (k0_pay4, k0_pay5)
  | n + 1, hn =>
    if (n + 1) % 16 = 0 then step0 V c ⟨n + 1, hn⟩ (k0_pay4, k0_pay5)
    else step0 V c ⟨n + 1, hn⟩ (acc0 c n (Nat.lt_of_succ_lt hn))

/-- At the first tile of a batch the accumulators restart from zero. -/
theorem acc0_first (c : Dev nD) (t : Fin cfg0.N) (h : t.val % 16 = 0) :
    acc0 V c t.val t.isLt = step0 V c t (k0_pay4, k0_pay5) := by
  obtain ⟨n, hn⟩ := t
  cases n with
  | zero => rfl
  | succ n => exact if_pos h

/-- At a later tile they continue from the point before. -/
theorem acc0_next (c : Dev nD) (t : Fin cfg0.N) (h : t.val % 16 ≠ 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod 16) h
  | succ n => exact if_neg h

/-- The two scratch columns the kernel carries between points, as memrefs. -/
abbrev sc0 : Memref sig .tc .vmem S16x1 .f32 := Memref.whole cc0_scratch0
abbrev sc1 : Memref sig .tc .vmem S16x1 .f32 := Memref.whole cc0_scratch1

/-- The core's other scoped buffers that are no staging buffer of this region (the other region's staging buffers),
    each whole at some contents: the region does not touch them. -/
def scRest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f))

/-- The class's invariant with the two scratch columns as memrefs owned at some contents. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ scRest0 (F := F) c) ∗ (∃ r, prngReg c r)) := by
  unfold Pipeline.ΦA scRest0; rw [scopedRest0_eq]; simp only [sc0, sc1, owns_whole]; try rfl

/-- The region's invariant before position `n`: before the first point the class's (every scratch at anything);
    afterwards the two scratch columns at what the point before left in them, the rest as the class holds it. -/
def Phi0 (c : Dev nD) : (n : ℕ) → n ≤ cfg0.N → sProp 𝕄
  | 0, _ => Pipeline.ΦA spec0 c
  | n + 1, hn => iprop((owns (c : Thread nD τ) sc0 fullShare (acc0 V c n hn).1 ∗ owns (c : Thread nD τ) sc1 fullShare (acc0 V c n hn).2 ∗ scRest0 (F := F) c) ∗ (∃ r, prngReg c r))

theorem Phi0_succ (c : Dev nD) (n : ℕ) (hn : n < cfg0.N) :
    Phi0 V c (n + 1) hn = iprop((owns (c : Thread nD τ) sc0 fullShare (acc0 V c n hn).1 ∗ owns (c : Thread nD τ) sc1 fullShare (acc0 V c n hn).2 ∗ scRest0 (F := F) c) ∗ (∃ r, prngReg c r)) := rfl

theorem Phi0_pos (c : Dev nD) (n : ℕ) (h : n ≤ cfg0.N) (hz : n ≠ 0) :
    Phi0 V c n h = iprop((owns (c : Thread nD τ) sc0 fullShare (acc0 V c (n - 1) (by omega)).1 ∗ owns (c : Thread nD τ) sc1 fullShare (acc0 V c (n - 1) (by omega)).2 ∗ scRest0 (F := F) c) ∗ (∃ r, prngReg c r)) := by
  cases n with
  | zero => exact absurd rfl hz
  | succ n => rfl

/-- Before any point the invariant holds the two scratch columns at some contents. -/
theorem Phi0_any (c : Dev nD) (n : ℕ) (h : n ≤ cfg0.N) :
    Phi0 V c n h ⊢ iprop(((∃ d, owns (c : Thread nD τ) sc0 fullShare d) ∗ (∃ d, owns (c : Thread nD τ) sc1 fullShare d) ∗ scRest0 (F := F) c) ∗ (∃ r, prngReg c r)) := by
  cases n with
  | zero => rw [show Phi0 V c 0 h = Pipeline.ΦA spec0 c from rfl, PhiA0_eq]
  | succ n =>
    rw [Phi0_succ]
    iintro ⟨⟨HS0, HS1, HR⟩, Hg⟩
    isplitl [HS0 HS1 HR]
    · isplitl [HS0]; · iexists _; iexact HS0
      isplitl [HS1]; · iexists _; iexact HS1
      iexact HR
    iexact Hg

/-- The proof data of pipeline 0 on core `c`: the arrays as the region finds them (`V`); after the body at point `t`
    each input's buffer at its block, and each output's at the copy of its accumulator (read at the points of tile 15
    only: elsewhere the window is idle and not written back); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, show Phi0 V c 0 (Nat.zero_le _) = Pipeline.ΦA spec0 c from rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl]
  exact (Phi0_any V c _ _).trans (by rw [PhiA0_eq])

/-! ## The body obligation, at a generic point -/

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point: the inputs' memrefs hold their blocks; the closed forms of the two conditions say which of
    the three cases the point is in; the invariant hands the body the two accumulators at what the point before left
    (at anything at a batch's first tile) and takes them back at this point's contents; away from tile 15 the outputs'
    buffers pass through untouched, at tile 15 they come back at the copies of the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 64 := lt_of_lt_of_eq t.isLt (show cfg0.N = 64 from N_0)
  rw [Phi0_castSucc V c t]
  by_cases h0 : t.val % 16 = 0
  · have h15 : t.val % 16 ≠ 15 := by omega
    have hc1 : cond0_first (grid0.coords t) := (hcond0_first t).mpr h0
    have hc2 : ¬ k0_cond2 (grid0.coords t) = 1#1 := fun h => h15 ((hcond0_last t).mp h)
    rw [Dat.leavesExact_idle (dat0 V c) 4 t (idleAt0_4 t h15) (noFlush0_4 t h15),
      Dat.leavesExact_idle (dat0 V c) 5 t (idleAt0_5 t h15) (noFlush0_5 t h15)]
    rw [acc0_first V c t h0]
    unfold step0; dsimp only
    iintro ⟨HΦ, Ho, ⟨%d0, H0⟩, ⟨%d1, H1⟩, ⟨%d2, H2⟩, ⟨%d3, H3⟩, H4, H5⟩
    ihave HΦ' := (Phi0_any V c t.val (Nat.le_of_lt t.isLt)) $$ HΦ
    icases HΦ' with ⟨⟨HS0, HS1, HR⟩, Hg⟩
    iapply (sound_kernel0_first c Set.univ (grid0.coords t) _ _ _ _ _ _ _ _ _ _ _ _ _ _ _ _ hc1 hc2
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    have hc1 : ¬ cond0_first (grid0.coords t) := fun h => h0 ((hcond0_first t).mp h)
    rw [Phi0_pos V c _ _ hz, acc0_next V c t h0]
    unfold step0; dsimp only
    by_cases h15 : t.val % 16 = 15
    · have hc2 : k0_cond2 (grid0.coords t) = 1#1 := (hcond0_last t).mpr h15
      rw [show (dat0 V c).leavesExact 4 t = owns (c : Thread nD τ) (st0_4 t) fullShare ((dat0 V c).after 4 t) from by
        unfold Dat.leavesExact; rw [liveAt0_4 t h15], after0_4]
      rw [show (dat0 V c).leavesExact 5 t = owns (c : Thread nD τ) (st0_5 t) fullShare ((dat0 V c).after 5 t) from by
        unfold Dat.leavesExact; rw [liveAt0_5 t h15], after0_5]
      rw [acc0_next V c t h0]
      unfold step0; dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (sound_kernel0_last c Set.univ (grid0.coords t) _ _ _ _ _ _ _ _ _ _ _ _ _ _ _ _ hc1 hc2
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k0_cond2 (grid0.coords t) = 1#1 := fun h => h15 ((hcond0_last t).mp h)
      rw [Dat.leavesExact_idle (dat0 V c) 4 t (idleAt0_4 t h15) (noFlush0_4 t h15),
        Dat.leavesExact_idle (dat0 V c) 5 t (idleAt0_5 t h15) (noFlush0_5 t h15)]
      iintro ⟨⟨⟨HS0, HS1, HR⟩, Hg⟩, Ho, ⟨%d0, H0⟩, ⟨%d1, H1⟩, ⟨%d2, H2⟩, ⟨%d3, H3⟩, H4, H5⟩
      iapply (sound_kernel0_mid c Set.univ (grid0.coords t) _ _ _ _ _ _ _ _ _ _ _ _ _ _ _ _ hc1 hc2
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.Kernel.Region1.lean ====
/- REGION 1 of @main: the normalising pass `cc1__main_kernel` (pipeline 1), at the contents `V` the TensorCore's
   buffers hold when the region is entered.

   The body reads nine whole input blocks — the two coordinate blocks, the gathered feature block, the weights, and the
   five columns (bias, mean, variance, scale, shift) — and stores the whole output block once. So what it leaves in the
   output window's buffer is one closed function of the nine input blocks at the point (`out1_9`), and what it finds in
   an input window's buffer is that window's block at the point, fetched there or not (the six small windows are fetched
   at the first point only; their block index never moves). This module states the blocks (`iblk1`), the body's triple
   (`sound_kernel1`), the proof data (`dat1`) and the body obligation (`body_obligation1`), for any float type. -/
import proofs.«162062_j44212393345653_2_alg».proof.Proof.Gen.Kernel.Launch
import proofs.«162062_j44212393345653_2_alg».proof.Proof.Gen.Kernel.Skeleton
import proofs.«162062_j44212393345653_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof data
    whose array is `V`'s (`hA`) and whose body leaves the block in place (`hafter`): an input not fetched at a point
    has the block index of the point before, so the buffer still holds this point's block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole buffer -/

abbrev rCoord : Rect S1x3x65536 := Rect.unit (s := S1x3x65536) ![0, 0, 0] S1x3x65536.size inb_S1x3x65536_S1x3x65536_0_0_0
abbrev rFeat : Rect S1x16x65536 := Rect.unit (s := S1x16x65536) ![0, 0, 0] S1x16x65536.size inb_S1x16x65536_S1x16x65536_0_0_0
abbrev rWeight : Rect S16x10 := Rect.unit (s := S16x10) ![0, 0] S16x10.size inb_S16x10_S16x10_0_0
abbrev rCol : Rect S16x1 := Rect.unit (s := S16x1) ![0, 0] S16x1.size inb_S16x1_S16x1_0_0
abbrev rOut : Rect S1x32x65536 := Rect.unit (s := S1x32x65536) ![0, 0, 0] S1x32x65536.size inb_S1x32x65536_S1x32x65536_0_0_0

/-! ## What the body leaves in the output window's buffer -/

/-- The output window's staging buffer after the body, from the nine input blocks: its one store, of the features
    beside the normalised, scaled, shifted and clamped linear layer of the geometric features. -/
def out1_9 (x0 x1 : Vec F S1x3x65536 .f32) (x2 : Vec F S1x16x65536 .f32) (x3 : Vec F S16x10 .f32) (x4 x5 x6 x7 x8 : Vec F S16x1 .f32) : Vec F S1x32x65536 .f32 :=
  View.canon [⟨rOut, k1_pay1 (k1_pay2 (View.ld x2 rFeat))
    (k1_pay3 (View.ld x0 rCoord) (View.ld x1 rCoord) (View.ld x3 rWeight) (View.ld x4 rCol) (View.ld x5 rCol) (View.ld x6 rCol) (View.ld x7 rCol))
    (View.ld x8 rCol)⟩]

/-- The one store is of the whole buffer, so it covers it. -/
theorem cover1_9 (p0 : Vec F S1x32x65536 .f32) (y : S1x32x65536.Idx) :
    ∃ pc ∈ ([⟨rOut, p0⟩] : List (View.Piece (Elt F) S1x32x65536 .f32)), y ∈ pc.1.set :=
  View.cover_of_tiled [⟨rOut, p0⟩] S1x32x65536.size (by rfl) y

/-! ## The body's triple -/

set_option maxHeartbeats 1000000 in
/-- The kernel body on whole staging memrefs, the inputs' at read contents `xW` and the output's at anything, runs to the
    continuation holding the inputs' as they were and the output's at `out1_9` of the inputs'. -/
theorem sound_kernel1 (c : Dev nD) (E : Set ℕ) (i : grid1.Coords) (arg2 : Memref sig .tc .vmem S1x3x65536 .f32) (harg2 : arg2.IsWhole) (arg3 : Memref sig .tc .vmem S1x3x65536 .f32) (harg3 : arg3.IsWhole) (arg4 : Memref sig .tc .vmem S1x16x65536 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1x32x65536 .f32) (harg11 : arg11.IsWhole)
    (x0 x1 : Vec F S1x3x65536 .f32) (x2 : Vec F S1x16x65536 .f32) (x3 : Vec F S16x10 .f32) (x4 x5 x6 x7 x8 : Vec F S16x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out1_9 x0 x1 x2 x3 x4 x5 x6 x7 x8)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
import proofs.«162062_j44212393345653_2_alg».proof.Proof.Gen.Kernel.Launch
import proofs.«162062_j44212393345653_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

/-!
# The whole program as five stretches

The program is: host operations that lay the inputs out flat (a transpose, two gathers by the
neighbour indices, a repeat), the accumulating pass over 64 tiles, host operations that turn the
accumulated sums into a mean and a variance per channel, the normalising pass over the same 64
tiles, and a final reshape.  Between two stretches a core's buffers hold a known valuation:
`W0` at launch, `W1` after the first host stretch, `W2` after the accumulating pass (its two
output arrays at what the pass's write-backs leave, every other buffer as before), `W3` after the
second host stretch, `W4` after the normalising pass, `W5` at the end.  Each pass is stated
through what its body leaves in every staging buffer at every tile (`aft0`, `aft1`) and the
invariant it keeps between tiles (`inv0`, `inv1`); this module needs of them only that the
invariant starts from, and ends in, the buffers no window stages together with the generator
register, and that the body meets its obligation at every tile.  The run then says: every fair
execution ends, and at the end every buffer that outlives a pass holds `W5`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core-by-core valuation of the TensorCore's buffers: what a pass finds when it is entered. -/
abbrev Entry (F : FTy → Type) [FloatOps F] : Type :=
  (c : Dev nD) → (b : Ref sig .tc) → Buf (Elt F) ((c : Thread nD τ).loc b)

/-- What a pass's body leaves in each window's staging buffer at each tile. -/
abbrev Aft (F : FTy → Type) [FloatOps F] (cfg : Cfg sig Λ₀) : Type :=
  Entry F → (c : Dev nD) → (w : Fin cfg.W) → Fin cfg.N → (cfg.win w).block.Idx → Elt F (cfg.win w).elt

/-- The invariant a pass keeps between tiles. -/
abbrev Inv (F : FTy → Type) [FloatOps F] (cfg : Cfg sig Λ₀) : Type :=
  Entry F → (c : Dev nD) → Fin (cfg.N + 1) → sProp (MT nD τ sig Unit (Elt F) ℕ (UR sig nD τ) ℕ)

variable (aft0 : Aft F cfg0) (inv0 : Inv F cfg0) (aft1 : Aft F cfg1) (inv1 : Inv F cfg1)

/-- The accumulating pass's proof data at entry contents `V`: the arrays as found, full shares,
    nothing owed to another core. -/
def pass0 (V : Entry F) (c : Dev nD) : Dat τ (Elt F) Unit ℕ (UR sig nD τ) ℕ cfg0 c where
  A w := V c (Pipeline.arrRef spec0 w)
  after := aft0 V c
  Φ := inv0 V c
  q _ := fullShare
  owed _ := 0

/-- The normalising pass's proof data at entry contents `V`. -/
def pass1 (V : Entry F) (c : Dev nD) : Dat τ (Elt F) Unit ℕ (UR sig nD τ) ℕ cfg1 c where
  A w := V c (Pipeline.arrRef spec1 w)
  after := aft1 V c
  Φ := inv1 V c
  q _ := fullShare
  owed _ := 0

/-- What this module asks of the two passes. -/
structure Passes : Prop where
  in0 : ∀ (V : Entry F) (c : Dev nD), (Pipeline.ΦA spec0 c : sProp 𝕄) ⊢ inv0 V c 0
  out0 : ∀ (V : Entry F) (c : Dev nD), inv0 V c (Fin.last cfg0.N) ⊢ (Pipeline.ΦA spec0 c : sProp 𝕄)
  body0 : ∀ (V : Entry F) (c : Dev nD), BodyObligation (pass0 aft0 inv0 V c) (defs₀ (F := F)) Variants.none () Set.univ
  in1 : ∀ (V : Entry F) (c : Dev nD), (Pipeline.ΦA spec1 c : sProp 𝕄) ⊢ inv1 V c 0
  out1 : ∀ (V : Entry F) (c : Dev nD), inv1 V c (Fin.last cfg1.N) ⊢ (Pipeline.ΦA spec1 c : sProp 𝕄)
  body1 : ∀ (V : Entry F) (c : Dev nD), BodyObligation (pass1 aft1 inv1 V c) (defs₀ (F := F)) Variants.none () Set.univ

variable (m : (ℓ : Loc nD τ sig) → Buf (Elt F) ℓ)

/-! ## The buffers between stretches -/

/-- At launch. -/
abbrev W0 : Dev nD → Valuation τ sig (Elt F) := fun c b => m (c, b)
/-- After the first host stretch. -/
abbrev W1 : Dev nD → Valuation τ sig (Elt F) := fun c => StableHlo.after hostOps0 (W0 m c)
abbrev E1 : Entry F := fun c b => W1 m c b
/-- After the accumulating pass. -/
def W2 (c : Dev nD) : Valuation τ sig (Elt F) :=
  Pipeline.withArrays spec0 c (W1 m c) fun w => (pass0 aft0 inv0 (E1 m) c).arrAt w cfg0.N
abbrev E2 : Entry F := fun c b => W2 aft0 inv0 m c b
/-- After the second host stretch. -/
abbrev W3 : Dev nD → Valuation τ sig (Elt F) := fun c => StableHlo.after hostOps1 (W2 aft0 inv0 m c)
abbrev E3 : Entry F := fun c b => W3 aft0 inv0 m c b
/-- After the normalising pass. -/
def W4 (c : Dev nD) : Valuation τ sig (Elt F) :=
  Pipeline.withArrays spec1 c (W3 aft0 inv0 m c) fun w => (pass1 aft1 inv1 (E3 aft0 inv0 m) c).arrAt w cfg1.N
abbrev E4 : Entry F := fun c b => W4 aft0 inv0 aft1 inv1 m c b
/-- At the end. -/
abbrev W5 : Dev nD → Valuation τ sig (Elt F) := fun c => StableHlo.after hostOps2 (W4 aft0 inv0 aft1 inv1 m c)

theorem W2_arr (c : Dev nD) (w : Fin cfg0.W) :
    W2 aft0 inv0 m c (Proc.devRef .tc (Pipeline.arrRef spec0 w)) = (pass0 aft0 inv0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 aft0 inv0 m c (Proc.devRef .tc b) = W1 m c (Proc.devRef .tc b) := by
  unfold W2; exact Pipeline.withArrays_of_ne spec0 c _ _ b hb
theorem W4_arr (c : Dev nD) (w : Fin cfg1.W) :
    W4 aft0 inv0 aft1 inv1 m c (Proc.devRef .tc (Pipeline.arrRef spec1 w))
      = (pass1 aft1 inv1 (E3 aft0 inv0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 aft0 inv0 aft1 inv1 m c (Proc.devRef .tc b) = W3 aft0 inv0 m c (Proc.devRef .tc b) := by
  unfold W4; exact Pipeline.withArrays_of_ne spec1 c _ _ b hb

theorem exit0 (c : Dev nD) (w : Fin cfg0.W) :
    (pass0 aft0 inv0 (E1 m) c).arrAt w cfg0.N = E2 aft0 inv0 m c (Pipeline.arrRef spec0 w) :=
  (W2_arr aft0 inv0 m c w).symm
theorem rest0 (c : Dev nD) : ∀ b, b ∉ Finset.univ.image (Pipeline.arrRef spec0) → E2 aft0 inv0 m c b = E1 m c b :=
  fun b hb => W2_of_ne aft0 inv0 m c b fun w e => hb (Finset.mem_image.mpr ⟨w, Finset.mem_univ _, e⟩)
theorem exit1 (c : Dev nD) (w : Fin cfg1.W) :
    (pass1 aft1 inv1 (E3 aft0 inv0 m) c).arrAt w cfg1.N = E4 aft0 inv0 aft1 inv1 m c (Pipeline.arrRef spec1 w) :=
  (W4_arr aft0 inv0 aft1 inv1 m c w).symm
theorem rest1 (c : Dev nD) :
    ∀ b, b ∉ Finset.univ.image (Pipeline.arrRef spec1) → E4 aft0 inv0 aft1 inv1 m c b = E3 aft0 inv0 m c b :=
  fun b hb => W4_of_ne aft0 inv0 aft1 inv1 m c b fun w e => hb (Finset.mem_image.mpr ⟨w, Finset.mem_univ _, e⟩)

/-! ## The passes' proof data as one family, and what rides along -/

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => pass0 aft0 inv0 (E1 m) c
  | ⟨1, _⟩ => fun c => pass1 aft1 inv1 (E3 aft0 inv0 m) c

abbrev 𝒱₀ : Variants := Variants.none
abbrev Lz : GSem nD τ sig → Finset Unit := fun _ => ∅
abbrev lvz : GSem nD τ sig → Unit → ℕ := fun _ _ => 0
/-- Beside the buffers through every stretch: the generator register at some state, and nothing owed. -/
abbrev Ride (c : Dev nD) : sProp 𝕄 :=
  iprop((∃ r, prngReg c r) ∗ ∃ W, owes (c : Thread nD τ) (0 : CellTallies nD τ sig Unit) W)

abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every buffer that outlives a pass at `W4`, the generator register. -/
abbrev Tend (c : Dev nD) : sProp 𝕄 :=
  iprop(StableHlo.held (c : Thread nD τ) (Pipeline.ucRefs τ sig) (W5 aft0 inv0 aft1 inv1 m c) ∗ ∃ r, prngReg c r)

set_option backward.isDefEq.respectTransparency.types false in
/-- The accumulating pass as a stretch: entered with every outliving buffer at `W1`, left with them at `W2`. -/
def stretch0 (hP : Passes aft0 inv0 aft1 inv1) : Pipeline.RegionSeg (pcfgs (F := F)) adm' (pdats aft0 inv0 aft1 inv1 m) () defs₀ 𝒱₀ Lz lvz 0 where
  win := launch0.win.to₀
  block_pos := launch0.block_pos
  stage_whole := launch0.stage_whole
  K := PEmpty
  osem k := k.elim
  ho := Pipeline.OwnSemFacts.none _
  hbody c := (hP.body0 (E1 m) c).loose
  hwaits := Pipeline.hwaits_of_owed_zero _ _ _ _ Lz lvz 0 fun _ _ => rfl
  pre c := iprop(StableHlo.held (c : Thread nD τ) (Pipeline.ucRefs τ sig) (W1 m c) ∗ Ride c)
  post c := iprop(StableHlo.held (c : Thread nD τ) (Pipeline.ucRefs τ sig) (W2 aft0 inv0 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats aft0 inv0 aft1 inv1 m) launch0.win launch0.arr_whole c
      ((pdats aft0 inv0 aft1 inv1 m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm' (F := F) 0).1
          ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h.trans (hP.in0 (E1 m) c)
  hout c := by
    rw [Pipeline.ownSems0_none]
    have h : (Pipeline.ΦA spec0 c : sProp 𝕄)
        ⊢ iprop((∃ r, prngReg c r) ∗ BI.emp
          ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hP.out0 (E1 m) c).trans h
  hexit c := by
    have hjoin := Pipeline.unscopedBufs_of_arrays (p := 0) (pcfgs (F := F)) adm' (Ix := Unit) (Name := ℕ) (U := UR sig nD τ) (Lvl := ℕ)
      launch0.win launch0.arr_whole c (pdats aft0 inv0 aft1 inv1 m) ((pdats aft0 inv0 aft1 inv1 m 0 c).share_full fun _ => rfl)
      (E1 m c) (E2 aft0 inv0 m c) ((pdats aft0 inv0 aft1 inv1 m 0 c).arrAt · cfg0.N) (exit0 aft0 inv0 m c) (rest0 aft0 inv0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising pass as a stretch: entered with every outliving buffer at `W3`, left with them at `W4`. -/
def stretch1 (hP : Passes aft0 inv0 aft1 inv1) : Pipeline.RegionSeg (pcfgs (F := F)) adm' (pdats aft0 inv0 aft1 inv1 m) () defs₀ 𝒱₀ Lz lvz 1 where
  win := launch1.win.to₀
  block_pos := launch1.block_pos
  stage_whole := launch1.stage_whole
  K := PEmpty
  osem k := k.elim
  ho := Pipeline.OwnSemFacts.none _
  hbody c := (hP.body1 (E3 aft0 inv0 m) c).loose
  hwaits := Pipeline.hwaits_of_owed_zero _ _ _ _ Lz lvz 1 fun _ _ => rfl
  pre c := iprop(StableHlo.held (c : Thread nD τ) (Pipeline.ucRefs τ sig) (W3 aft0 inv0 m c) ∗ Ride c)
  post c := iprop(StableHlo.held (c : Thread nD τ) (Pipeline.ucRefs τ sig) (W4 aft0 inv0 aft1 inv1 m c) ∗ Ride c)
  X c := iprop(∃ r, prngReg c r)
  Y c := iprop(∃ r, prngReg c r)
  Z c := Pipeline.unscopedRest (Ix := Unit) (Name := ℕ) (U := UR sig nD τ) (Lvl := ℕ) spec1 c (E3 aft0 inv0 m c)
  hentry c := by
    rw [Pipeline.ownSems0_none]
    have hsplit := Pipeline.arrays_of_unscopedBufs (p := 1) (pcfgs (F := F)) adm' (pdats aft0 inv0 aft1 inv1 m) launch1.win launch1.arr_whole c
      ((pdats aft0 inv0 aft1 inv1 m 1 c).share_full fun _ => rfl) (E3 aft0 inv0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm' (F := F) 1).1
          ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h.trans (hP.in1 (E3 aft0 inv0 m) c)
  hout c := by
    rw [Pipeline.ownSems0_none]
    have h : (Pipeline.ΦA spec1 c : sProp 𝕄)
        ⊢ iprop((∃ r, prngReg c r) ∗ BI.emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hP.out1 (E3 aft0 inv0 m) c).trans h
  hexit c := by
    have hjoin := Pipeline.unscopedBufs_of_arrays (p := 1) (pcfgs (F := F)) adm' (Ix := Unit) (Name := ℕ) (U := UR sig nD τ) (Lvl := ℕ)
      launch1.win launch1.arr_whole c (pdats aft0 inv0 aft1 inv1 m) ((pdats aft0 inv0 aft1 inv1 m 1 c).share_full fun _ => rfl)
      (E3 aft0 inv0 m c) (E4 aft0 inv0 aft1 inv1 m c) ((pdats aft0 inv0 aft1 inv1 m 1 c).arrAt · cfg1.N)
      (exit1 aft0 inv0 aft1 inv1 m c) (rest1 aft0 inv0 aft1 inv1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five stretches in order. -/
abbrev stretches (hP : Passes aft0 inv0 aft1 inv1) : List (Pipeline.Seg (pcfgs (F := F)) adm' (pdats aft0 inv0 aft1 inv1 m) () defs₀ 𝒱₀ Lz lvz) :=
  [ .host (hostStretch hostOps0 hostOps0_sub hostOps0_fresh (W0 m)),
    .region (stretch0 aft0 inv0 aft1 inv1 m hP),
    .host (hostStretch hostOps1 hostOps1_sub hostOps1_fresh (W2 aft0 inv0 m)),
    .region (stretch1 aft0 inv0 aft1 inv1 m hP),
    .host (hostStretch hostOps2 hostOps2_sub hostOps2_fresh (W4 aft0 inv0 aft1 inv1 m)) ]

theorem main_is_stretches (hP : Passes aft0 inv0 aft1 inv1) (c : Dev nD) : main (F := F) c = Pipeline.Seg.run (stretches aft0 inv0 aft1 inv1 m hP) :=
  (main_chain c).trans (by chain_rfl)

set_option backward.isDefEq.respectTransparency.types false in
/-- THE RUN: from any memory with zero counters every fair execution of the program ends, faulting
    nowhere, and at the end every buffer that outlives a pass holds `W5`. -/
theorem run_all (hP : Passes aft0 inv0 aft1 inv1) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 aft0 inv0 aft1 inv1 m c b) :=
  Pipeline.θ_run_regions_kit (pcfgs (F := F)) adm' (pdats aft0 inv0 aft1 inv1 m) () cellOf_inj emb₁ defs₀ 𝒱₀ Lz lvz m ρ main
    (stretches aft0 inv0 aft1 inv1 m hP)
    (fun c Q => by rw [main_is_stretches aft0 inv0 aft1 inv1 m hP c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := Tend aft0 inv0 aft1 inv1 m)
    (hch := ⟨fun _ => .rfl, fun _ => .rfl, fun _ => .rfl, fun _ => .rfl, fun _ => .rfl, fun c =>
      show (iprop(StableHlo.held (c : Thread nD τ) (Pipeline.ucRefs τ sig) (W5 aft0 inv0 aft1 inv1 m c) ∗ Ride c) : sProp 𝕄)
          ⊢ iprop(Tend aft0 inv0 aft1 inv1 m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 aft0 inv0 aft1 inv1 m c b)
    (hfin := fun c s' => by
      iintro ⟨⟨Hh, -⟩, HSI⟩
      unfold StableHlo.held
      imodintro
      iapply (pointsTo_read_all (Pipeline.ucRefs τ sig) (fun b => (((c : Thread nD τ)).1, b)) (W5 aft0 inv0 aft1 inv1 m c) s')
      isplitl [Hh] <;> iassumption)
    (hQ := fun s h c => h c)

end Cert.Kernel.Hand

end
-- ==== Proof.Kernel.Frame.lean ====
import proofs.«162062_j44212393345653_2_alg».proof.Proof.Kernel.Run

/-!
# The arguments end as launched

No host operation writes an argument array, and a pass changes only its output arrays: an array a
pass reads through an input window ends the pass as it entered it, and a buffer that is no array of
the pass is not touched.  So the valuation at the end, read at an argument, walks back through the
five stretches to the launch memory.  With the run this is the frame statement, at any float instance.
-/

set_option maxRecDepth 16384

noncomputable section

namespace Cert.Kernel.Hand

open Idealize.ShloMosaic Idealize.ShloMosaic.TcCoe
open Idealize.SL Idealize.SL.Sem
open Idealize.ShloMosaic.Pipeline (Dat Cfg)
open Cert.Kernel Cert.Kernel.Gen

variable {F : FTy → Type} [FloatOps F]
variable (aft0 : Aft F cfg0) (inv0 : Inv F cfg0) (aft1 : Aft F cfg1) (inv1 : Inv F cfg1)
variable (m : (ℓ : Loc nD τ sig) → Buf (Elt F) ℓ)

/-- A buffer that is no array of the accumulating pass is the same before and after it. -/
theorem pass0_other (c : Dev nD) (r : Ref sig .tc) (h : ∀ w, Pipeline.arrRef spec0 w ≠ r) :
    W2 aft0 inv0 m c (Proc.devRef .tc r) = W1 m c (Proc.devRef .tc r) := W2_of_ne aft0 inv0 m c r h
/-- An array the accumulating pass reads through an input window is the same before and after it. -/
theorem pass0_input (c : Dev nD) (w : Fin cfg0.W) (hw : (cfg0.win w).isOut = false) :
    W2 aft0 inv0 m c (Proc.devRef .tc (Pipeline.arrRef spec0 w)) = W1 m c (Proc.devRef .tc (Pipeline.arrRef spec0 w)) :=
  (W2_arr aft0 inv0 m c w).trans ((pass0 aft0 inv0 (E1 m) c).arrAt_in w hw _)
/-- A buffer that is no array of the normalising pass is the same before and after it. -/
theorem pass1_other (c : Dev nD) (r : Ref sig .tc) (h : ∀ w, Pipeline.arrRef spec1 w ≠ r) :
    W4 aft0 inv0 aft1 inv1 m c (Proc.devRef .tc r) = W3 aft0 inv0 m c (Proc.devRef .tc r) :=
  W4_of_ne aft0 inv0 aft1 inv1 m c r h
/-- An array the normalising pass reads through an input window is the same before and after it. -/
theorem pass1_input (c : Dev nD) (w : Fin cfg1.W) (hw : (cfg1.win w).isOut = false) :
    W4 aft0 inv0 aft1 inv1 m c (Proc.devRef .tc (Pipeline.arrRef spec1 w))
      = W3 aft0 inv0 m c (Proc.devRef .tc (Pipeline.arrRef spec1 w)) :=
  (W4_arr aft0 inv0 aft1 inv1 m c w).trans ((pass1 aft1 inv1 (E3 aft0 inv0 m) c).arrAt_in w hw _)

/-- An argument that neither pass names ends as launched. -/
theorem end_of_plain (c : Dev nD) (r : Ref sig .tc) (h2 : r ∉ hostOps2_W) (h1 : r ∉ hostOps1_W) (h0 : r ∉ hostOps0_W)
    (hp1 : ∀ w, Pipeline.arrRef spec1 w ≠ r) (hp0 : ∀ w, Pipeline.arrRef spec0 w ≠ r) :
    W5 aft0 inv0 aft1 inv1 m c (Proc.devRef .tc r) = m ((c : Thread nD τ).loc r) :=
  calc W5 aft0 inv0 aft1 inv1 m c (Proc.devRef .tc r)
    _ = W4 aft0 inv0 aft1 inv1 m c (Proc.devRef .tc r) := StableHlo.after_of_writes_sub hostOps2 _ hostOps2_writes h2
    _ = W3 aft0 inv0 m c (Proc.devRef .tc r) := pass1_other aft0 inv0 aft1 inv1 m c r hp1
    _ = W2 aft0 inv0 m c (Proc.devRef .tc r) := StableHlo.after_of_writes_sub hostOps1 _ hostOps1_writes h1
    _ = W1 m c (Proc.devRef .tc r) := pass0_other aft0 inv0 m c r hp0
    _ = W0 m c (Proc.devRef .tc r) := StableHlo.after_of_writes_sub hostOps0 _ hostOps0_writes h0
    _ = m ((c : Thread nD τ).loc r) := rfl

theorem end_arg0 (c : Dev nD) : W5 aft0 inv0 aft1 inv1 m c (Proc.devRef .tc main_arg0) = m ((c : Thread nD τ).loc main_arg0) :=
  end_of_plain aft0 inv0 aft1 inv1 m c main_arg0 (by decide) (by decide) (by decide) (by decide) (by decide)
theorem end_arg1 (c : Dev nD) : W5 aft0 inv0 aft1 inv1 m c (Proc.devRef .tc main_arg1) = m ((c : Thread nD τ).loc main_arg1) :=
  end_of_plain aft0 inv0 aft1 inv1 m c main_arg1 (by decide) (by decide) (by decide) (by decide) (by decide)
theorem end_arg2 (c : Dev nD) : W5 aft0 inv0 aft1 inv1 m c (Proc.devRef .tc main_arg2) = m ((c : Thread nD τ).loc main_arg2) :=
  end_of_plain aft0 inv0 aft1 inv1 m c main_arg2 (by decide) (by decide) (by decide) (by decide) (by decide)
/-- The weights are an input of both passes. -/
theorem end_arg3 (c : Dev nD) : W5 aft0 inv0 aft1 inv1 m c (Proc.devRef .tc main_arg3) = m ((c : Thread nD τ).loc main_arg3) :=
  calc W5 aft0 inv0 aft1 inv1 m c (Proc.devRef .tc main_arg3)
    _ = W4 aft0 inv0 aft1 inv1 m c (Proc.devRef .tc main_arg3) :=
        StableHlo.after_of_writes_sub hostOps2 _ hostOps2_writes (by decide)
    _ = W3 aft0 inv0 m c (Proc.devRef .tc main_arg3) := pass1_input aft0 inv0 aft1 inv1 m c 3 rfl
    _ = W2 aft0 inv0 m c (Proc.devRef .tc main_arg3) := StableHlo.after_of_writes_sub hostOps1 _ hostOps1_writes (by decide)
    _ = W1 m c (Proc.devRef .tc main_arg3) := pass0_input aft0 inv0 m c 2 rfl
    _ = W0 m c (Proc.devRef .tc main_arg3) := StableHlo.after_of_writes_sub hostOps0 _ hostOps0_writes (by decide)
    _ = m ((c : Thread nD τ).loc main_arg3) := rfl
theorem end_arg4 (c : Dev nD) : W5 aft0 inv0 aft1 inv1 m c (Proc.devRef .tc main_arg4) = m ((c : Thread nD τ).loc main_arg4) :=
  end_of_plain aft0 inv0 aft1 inv1 m c main_arg4 (by decide) (by decide) (by decide) (by decide) (by decide)
theorem end_arg5 (c : Dev nD) : W5 aft0 inv0 aft1 inv1 m c (Proc.devRef .tc main_arg5) = m ((c : Thread nD τ).loc main_arg5) :=
  end_of_plain aft0 inv0 aft1 inv1 m c main_arg5 (by decide) (by decide) (by decide) (by decide) (by decide)
theorem end_arg6 (c : Dev nD) : W5 aft0 inv0 aft1 inv1 m c (Proc.devRef .tc main_arg6) = m ((c : Thread nD τ).loc main_arg6) :=
  end_of_plain aft0 inv0 aft1 inv1 m c main_arg6 (by decide) (by decide) (by decide) (by decide) (by decide)

/-- The run with the result named and the arguments read back: every fair execution ends, the result
    buffer holds `W5`'s contents and every argument array is as launched. -/
theorem run_named (hP : Passes aft0 inv0 aft1 inv1) (ρ : Dev nD → PrngReg) :
    θ_run defs (onTc (τ := τ) (main (F := F))) ⟨m, fun _ => 0, ρ⟩ (fun r => ∀ c : Dev nD,
      r.2.mem ((c.tc : Thread nD τ).loc main_v34) = W5 aft0 inv0 aft1 inv1 m c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v34 (by decide)),
     (h c _ (mem_uc main_arg0 (by decide))).trans (end_arg0 aft0 inv0 aft1 inv1 m c),
     (h c _ (mem_uc main_arg1 (by decide))).trans (end_arg1 aft0 inv0 aft1 inv1 m c),
     (h c _ (mem_uc main_arg2 (by decide))).trans (end_arg2 aft0 inv0 aft1 inv1 m c),
     (h c _ (mem_uc main_arg3 (by decide))).trans (end_arg3 aft0 inv0 aft1 inv1 m c),
     (h c _ (mem_uc main_arg4 (by decide))).trans (end_arg4 aft0 inv0 aft1 inv1 m c),
     (h c _ (mem_uc main_arg5 (by decide))).trans (end_arg5 aft0 inv0 aft1 inv1 m c),
     (h c _ (mem_uc main_arg6 (by decide))).trans (end_arg6 aft0 inv0 aft1 inv1 m c)⟩)
    (run_all aft0 inv0 aft1 inv1 m hP ρ)

/-- The frame statement: the program runs to the end and leaves its argument arrays unchanged. -/
theorem frame_of_passes (hP : Passes aft0 inv0 aft1 inv1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_named aft0 inv0 aft1 inv1 m hP ρ)

end Cert.Kernel.Hand

end
-- ==== Proof.Kernel.Passes.lean ====
import proofs.«162062_j44212393345653_2_alg».proof.Proof.Kernel.Region0
import proofs.«162062_j44212393345653_2_alg».proof.Proof.Kernel.Region1
import proofs.«162062_j44212393345653_2_alg».proof.Proof.Kernel.Frame

/-!
# The two passes plugged into the run

The accumulating pass keeps, between tiles, its two running sums in scratch; the normalising pass
keeps nothing.  Each pass's record of what its body leaves and of the invariant it keeps is handed
to the run, which asks only that the invariant starts from and ends in the buffers no window stages
(with the generator register) and that the body meets its obligation at every tile.
-/

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg BodyObligation)
open Cert.Kernel Cert.Kernel.Gen

variable {F : FTy → Type} [FloatOps F]

/-- What the accumulating pass's body leaves in each staging buffer at each tile. -/
def leaves0 : Aft F cfg0 := fun V c => (dat0 V c).after
/-- The invariant the accumulating pass keeps: its two running sums in scratch. -/
def keeps0 : Inv F cfg0 := fun V c => (dat0 V c).Φ
/-- What the normalising pass's body leaves in each staging buffer at each tile. -/
def leaves1 : Aft F cfg1 := fun V c => (dat1 V c).after
/-- The invariant the normalising pass keeps: nothing of its own. -/
def keeps1 : Inv F cfg1 := fun V c => (dat1 V c).Φ

/-- The run's record of the accumulating pass is the pass's own. -/
theorem pass0_is (V : Entry F) (c : Dev nD) : pass0 leaves0 keeps0 V c = dat0 V c := rfl
/-- The run's record of the normalising pass is the pass's own. -/
theorem pass1_is (V : Entry F) (c : Dev nD) : pass1 leaves1 keeps1 V c = dat1 V c := rfl

theorem passes : Passes (F := F) leaves0 keeps0 leaves1 keeps1 where
  in0 V c := hin0 V c
  out0 V c := hout0 V c
  body0 V c := body_obligation0 V c
  in1 V c := .rfl
  out1 V c := .rfl
  body1 V c := body_obligation1 V c

variable (m : (ℓ : Loc nD τ sig) → Buf (Elt F) ℓ)

/-- The program runs to the end and leaves its argument arrays unchanged, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_passes leaves0 keeps0 leaves1 keeps1 m passes ρ

end Cert.Kernel.Hand

end
-- ==== Proof.KernelIdeal.Run.lean ====
import proofs.«162062_j44212393345653_2_alg».proof.Proof.Gen.KernelIdeal.Launch
import proofs.«162062_j44212393345653_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-!
# The whole program as five stretches

The program is: host operations that lay the inputs out flat (a transpose, two gathers by the
neighbour indices, a repeat), the accumulating pass over 64 tiles, host operations that turn the
accumulated sums into a mean and a variance per channel, the normalising pass over the same 64
tiles, and a final reshape.  Between two stretches a core's buffers hold a known valuation:
`W0` at launch, `W1` after the first host stretch, `W2` after the accumulating pass (its two
output arrays at what the pass's write-backs leave, every other buffer as before), `W3` after the
second host stretch, `W4` after the normalising pass, `W5` at the end.  Each pass is stated
through what its body leaves in every staging buffer at every tile (`aft0`, `aft1`) and the
invariant it keeps between tiles (`inv0`, `inv1`); this module needs of them only that the
invariant starts from, and ends in, the buffers no window stages together with the generator
register, and that the body meets its obligation at every tile.  The run then says: every fair
execution ends, and at the end every buffer that outlives a pass holds `W5`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core-by-core valuation of the TensorCore's buffers: what a pass finds when it is entered. -/
abbrev Entry (F : FTy → Type) [FloatOps F] : Type :=
  (c : Dev nD) → (b : Ref sig .tc) → Buf (Elt F) ((c : Thread nD τ).loc b)

/-- What a pass's body leaves in each window's staging buffer at each tile. -/
abbrev Aft (F : FTy → Type) [FloatOps F] (cfg : Cfg sig Λ₀) : Type :=
  Entry F → (c : Dev nD) → (w : Fin cfg.W) → Fin cfg.N → (cfg.win w).block.Idx → Elt F (cfg.win w).elt

/-- The invariant a pass keeps between tiles. -/
abbrev Inv (F : FTy → Type) [FloatOps F] (cfg : Cfg sig Λ₀) : Type :=
  Entry F → (c : Dev nD) → Fin (cfg.N + 1) → sProp (MT nD τ sig Unit (Elt F) ℕ (UR sig nD τ) ℕ)

variable (aft0 : Aft F cfg0) (inv0 : Inv F cfg0) (aft1 : Aft F cfg1) (inv1 : Inv F cfg1)

/-- The accumulating pass's proof data at entry contents `V`: the arrays as found, full shares,
    nothing owed to another core. -/
def pass0 (V : Entry F) (c : Dev nD) : Dat τ (Elt F) Unit ℕ (UR sig nD τ) ℕ cfg0 c where
  A w := V c (Pipeline.arrRef spec0 w)
  after := aft0 V c
  Φ := inv0 V c
  q _ := fullShare
  owed _ := 0

/-- The normalising pass's proof data at entry contents `V`. -/
def pass1 (V : Entry F) (c : Dev nD) : Dat τ (Elt F) Unit ℕ (UR sig nD τ) ℕ cfg1 c where
  A w := V c (Pipeline.arrRef spec1 w)
  after := aft1 V c
  Φ := inv1 V c
  q _ := fullShare
  owed _ := 0

/-- What this module asks of the two passes. -/
structure Passes : Prop where
  in0 : ∀ (V : Entry F) (c : Dev nD), (Pipeline.ΦA spec0 c : sProp 𝕄) ⊢ inv0 V c 0
  out0 : ∀ (V : Entry F) (c : Dev nD), inv0 V c (Fin.last cfg0.N) ⊢ (Pipeline.ΦA spec0 c : sProp 𝕄)
  body0 : ∀ (V : Entry F) (c : Dev nD), BodyObligation (pass0 aft0 inv0 V c) (defs₀ (F := F)) Variants.none () Set.univ
  in1 : ∀ (V : Entry F) (c : Dev nD), (Pipeline.ΦA spec1 c : sProp 𝕄) ⊢ inv1 V c 0
  out1 : ∀ (V : Entry F) (c : Dev nD), inv1 V c (Fin.last cfg1.N) ⊢ (Pipeline.ΦA spec1 c : sProp 𝕄)
  body1 : ∀ (V : Entry F) (c : Dev nD), BodyObligation (pass1 aft1 inv1 V c) (defs₀ (F := F)) Variants.none () Set.univ

variable (m : (ℓ : Loc nD τ sig) → Buf (Elt F) ℓ)

/-! ## The buffers between stretches -/

/-- At launch. -/
abbrev W0 : Dev nD → Valuation τ sig (Elt F) := fun c b => m (c, b)
/-- After the first host stretch. -/
abbrev W1 : Dev nD → Valuation τ sig (Elt F) := fun c => StableHlo.after hostOps0 (W0 m c)
abbrev E1 : Entry F := fun c b => W1 m c b
/-- After the accumulating pass. -/
def W2 (c : Dev nD) : Valuation τ sig (Elt F) :=
  Pipeline.withArrays spec0 c (W1 m c) fun w => (pass0 aft0 inv0 (E1 m) c).arrAt w cfg0.N
abbrev E2 : Entry F := fun c b => W2 aft0 inv0 m c b
/-- After the second host stretch. -/
abbrev W3 : Dev nD → Valuation τ sig (Elt F) := fun c => StableHlo.after hostOps1 (W2 aft0 inv0 m c)
abbrev E3 : Entry F := fun c b => W3 aft0 inv0 m c b
/-- After the normalising pass. -/
def W4 (c : Dev nD) : Valuation τ sig (Elt F) :=
  Pipeline.withArrays spec1 c (W3 aft0 inv0 m c) fun w => (pass1 aft1 inv1 (E3 aft0 inv0 m) c).arrAt w cfg1.N
abbrev E4 : Entry F := fun c b => W4 aft0 inv0 aft1 inv1 m c b
/-- At the end. -/
abbrev W5 : Dev nD → Valuation τ sig (Elt F) := fun c => StableHlo.after hostOps2 (W4 aft0 inv0 aft1 inv1 m c)

theorem W2_arr (c : Dev nD) (w : Fin cfg0.W) :
    W2 aft0 inv0 m c (Proc.devRef .tc (Pipeline.arrRef spec0 w)) = (pass0 aft0 inv0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 aft0 inv0 m c (Proc.devRef .tc b) = W1 m c (Proc.devRef .tc b) := by
  unfold W2; exact Pipeline.withArrays_of_ne spec0 c _ _ b hb
theorem W4_arr (c : Dev nD) (w : Fin cfg1.W) :
    W4 aft0 inv0 aft1 inv1 m c (Proc.devRef .tc (Pipeline.arrRef spec1 w))
      = (pass1 aft1 inv1 (E3 aft0 inv0 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 aft0 inv0 aft1 inv1 m c (Proc.devRef .tc b) = W3 aft0 inv0 m c (Proc.devRef .tc b) := by
  unfold W4; exact Pipeline.withArrays_of_ne spec1 c _ _ b hb

theorem exit0 (c : Dev nD) (w : Fin cfg0.W) :
    (pass0 aft0 inv0 (E1 m) c).arrAt w cfg0.N = E2 aft0 inv0 m c (Pipeline.arrRef spec0 w) :=
  (W2_arr aft0 inv0 m c w).symm
theorem rest0 (c : Dev nD) : ∀ b, b ∉ Finset.univ.image (Pipeline.arrRef spec0) → E2 aft0 inv0 m c b = E1 m c b :=
  fun b hb => W2_of_ne aft0 inv0 m c b fun w e => hb (Finset.mem_image.mpr ⟨w, Finset.mem_univ _, e⟩)
theorem exit1 (c : Dev nD) (w : Fin cfg1.W) :
    (pass1 aft1 inv1 (E3 aft0 inv0 m) c).arrAt w cfg1.N = E4 aft0 inv0 aft1 inv1 m c (Pipeline.arrRef spec1 w) :=
  (W4_arr aft0 inv0 aft1 inv1 m c w).symm
theorem rest1 (c : Dev nD) :
    ∀ b, b ∉ Finset.univ.image (Pipeline.arrRef spec1) → E4 aft0 inv0 aft1 inv1 m c b = E3 aft0 inv0 m c b :=
  fun b hb => W4_of_ne aft0 inv0 aft1 inv1 m c b fun w e => hb (Finset.mem_image.mpr ⟨w, Finset.mem_univ _, e⟩)

/-! ## The passes' proof data as one family, and what rides along -/

abbrev adm' : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm' p) c
  | ⟨0, _⟩ => fun c => pass0 aft0 inv0 (E1 m) c
  | ⟨1, _⟩ => fun c => pass1 aft1 inv1 (E3 aft0 inv0 m) c

abbrev 𝒱₀ : Variants := Variants.none
abbrev Lz : GSem nD τ sig → Finset Unit := fun _ => ∅
abbrev lvz : GSem nD τ sig → Unit → ℕ := fun _ _ => 0
/-- Beside the buffers through every stretch: the generator register at some state, and nothing owed. -/
abbrev Ride (c : Dev nD) : sProp 𝕄 :=
  iprop((∃ r, prngReg c r) ∗ ∃ W, owes (c : Thread nD τ) (0 : CellTallies nD τ sig Unit) W)

abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debt: every buffer that outlives a pass at `W4`, the generator register. -/
abbrev Tend (c : Dev nD) : sProp 𝕄 :=
  iprop(StableHlo.held (c : Thread nD τ) (Pipeline.ucRefs τ sig) (W5 aft0 inv0 aft1 inv1 m c) ∗ ∃ r, prngReg c r)

set_option backward.isDefEq.respectTransparency.types false in
/-- The accumulating pass as a stretch: entered with every outliving buffer at `W1`, left with them at `W2`. -/
def stretch0 (hP : Passes aft0 inv0 aft1 inv1) : Pipeline.RegionSeg (pcfgs (F := F)) adm' (pdats aft0 inv0 aft1 inv1 m) () defs₀ 𝒱₀ Lz lvz 0 where
  win := launch0.win.to₀
  block_pos := launch0.block_pos
  stage_whole := launch0.stage_whole
  K := PEmpty
  osem k := k.elim
  ho := Pipeline.OwnSemFacts.none _
  hbody c := (hP.body0 (E1 m) c).loose
  hwaits := Pipeline.hwaits_of_owed_zero _ _ _ _ Lz lvz 0 fun _ _ => rfl
  pre c := iprop(StableHlo.held (c : Thread nD τ) (Pipeline.ucRefs τ sig) (W1 m c) ∗ Ride c)
  post c := iprop(StableHlo.held (c : Thread nD τ) (Pipeline.ucRefs τ sig) (W2 aft0 inv0 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats aft0 inv0 aft1 inv1 m) launch0.win launch0.arr_whole c
      ((pdats aft0 inv0 aft1 inv1 m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm' (F := F) 0).1
          ∗ Pipeline.scopedRest (Ix := Unit) (Name := ℕ) (U := UR sig nD τ) (Lvl := ℕ) (Val := Elt F) spec0 c) : sProp 𝕄)
        ⊢ Pipeline.ΦA spec0 c := by
      unfold Pipeline.ΦA
      iintro ⟨Hp, -, Hr⟩
      isplitl [Hr]; · iexact Hr
      iexact Hp
    exact h.trans (hP.in0 (E1 m) c)
  hout c := by
    rw [Pipeline.ownSems0_none]
    have h : (Pipeline.ΦA spec0 c : sProp 𝕄)
        ⊢ iprop((∃ r, prngReg c r) ∗ BI.emp
          ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hP.out0 (E1 m) c).trans h
  hexit c := by
    have hjoin := Pipeline.unscopedBufs_of_arrays (p := 0) (pcfgs (F := F)) adm' (Ix := Unit) (Name := ℕ) (U := UR sig nD τ) (Lvl := ℕ)
      launch0.win launch0.arr_whole c (pdats aft0 inv0 aft1 inv1 m) ((pdats aft0 inv0 aft1 inv1 m 0 c).share_full fun _ => rfl)
      (E1 m c) (E2 aft0 inv0 m c) ((pdats aft0 inv0 aft1 inv1 m 0 c).arrAt · cfg0.N) (exit0 aft0 inv0 m c) (rest0 aft0 inv0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising pass as a stretch: entered with every outliving buffer at `W3`, left with them at `W4`. -/
def stretch1 (hP : Passes aft0 inv0 aft1 inv1) : Pipeline.RegionSeg (pcfgs (F := F)) adm' (pdats aft0 inv0 aft1 inv1 m) () defs₀ 𝒱₀ Lz lvz 1 where
  win := launch1.win.to₀
  block_pos := launch1.block_pos
  stage_whole := launch1.stage_whole
  K := PEmpty
  osem k := k.elim
  ho := Pipeline.OwnSemFacts.none _
  hbody c := (hP.body1 (E3 aft0 inv0 m) c).loose
  hwaits := Pipeline.hwaits_of_owed_zero _ _ _ _ Lz lvz 1 fun _ _ => rfl
  pre c := iprop(StableHlo.held (c : Thread nD τ) (Pipeline.ucRefs τ sig) (W3 aft0 inv0 m c) ∗ Ride c)
  post c := iprop(StableHlo.held (c : Thread nD τ) (Pipeline.ucRefs τ sig) (W4 aft0 inv0 aft1 inv1 m c) ∗ Ride c)
  X c := iprop(∃ r, prngReg c r)
  Y c := iprop(∃ r, prngReg c r)
  Z c := Pipeline.unscopedRest (Ix := Unit) (Name := ℕ) (U := UR sig nD τ) (Lvl := ℕ) spec1 c (E3 aft0 inv0 m c)
  hentry c := by
    rw [Pipeline.ownSems0_none]
    have hsplit := Pipeline.arrays_of_unscopedBufs (p := 1) (pcfgs (F := F)) adm' (pdats aft0 inv0 aft1 inv1 m) launch1.win launch1.arr_whole c
      ((pdats aft0 inv0 aft1 inv1 m 1 c).share_full fun _ => rfl) (E3 aft0 inv0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm' (F := F) 1).1
          ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact h.trans (hP.in1 (E3 aft0 inv0 m) c)
  hout c := by
    rw [Pipeline.ownSems0_none]
    have h : (Pipeline.ΦA spec1 c : sProp 𝕄)
        ⊢ iprop((∃ r, prngReg c r) ∗ BI.emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hP.out1 (E3 aft0 inv0 m) c).trans h
  hexit c := by
    have hjoin := Pipeline.unscopedBufs_of_arrays (p := 1) (pcfgs (F := F)) adm' (Ix := Unit) (Name := ℕ) (U := UR sig nD τ) (Lvl := ℕ)
      launch1.win launch1.arr_whole c (pdats aft0 inv0 aft1 inv1 m) ((pdats aft0 inv0 aft1 inv1 m 1 c).share_full fun _ => rfl)
      (E3 aft0 inv0 m c) (E4 aft0 inv0 aft1 inv1 m c) ((pdats aft0 inv0 aft1 inv1 m 1 c).arrAt · cfg1.N)
      (exit1 aft0 inv0 aft1 inv1 m c) (rest1 aft0 inv0 aft1 inv1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five stretches in order. -/
abbrev stretches (hP : Passes aft0 inv0 aft1 inv1) : List (Pipeline.Seg (pcfgs (F := F)) adm' (pdats aft0 inv0 aft1 inv1 m) () defs₀ 𝒱₀ Lz lvz) :=
  [ .host (hostStretch hostOps0 hostOps0_sub hostOps0_fresh (W0 m)),
    .region (stretch0 aft0 inv0 aft1 inv1 m hP),
    .host (hostStretch hostOps1 hostOps1_sub hostOps1_fresh (W2 aft0 inv0 m)),
    .region (stretch1 aft0 inv0 aft1 inv1 m hP),
    .host (hostStretch hostOps2 hostOps2_sub hostOps2_fresh (W4 aft0 inv0 aft1 inv1 m)) ]

theorem main_is_stretches (hP : Passes aft0 inv0 aft1 inv1) (c : Dev nD) : main (F := F) c = Pipeline.Seg.run (stretches aft0 inv0 aft1 inv1 m hP) :=
  (main_chain c).trans (by chain_rfl)

set_option backward.isDefEq.respectTransparency.types false in
/-- THE RUN: from any memory with zero counters every fair execution of the program ends, faulting
    nowhere, and at the end every buffer that outlives a pass holds `W5`. -/
theorem run_all (hP : Passes aft0 inv0 aft1 inv1) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 aft0 inv0 aft1 inv1 m c b) :=
  Pipeline.θ_run_regions_kit (pcfgs (F := F)) adm' (pdats aft0 inv0 aft1 inv1 m) () cellOf_inj emb₁ defs₀ 𝒱₀ Lz lvz m ρ main
    (stretches aft0 inv0 aft1 inv1 m hP)
    (fun c Q => by rw [main_is_stretches aft0 inv0 aft1 inv1 m hP c])
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := Tend aft0 inv0 aft1 inv1 m)
    (hch := ⟨fun _ => .rfl, fun _ => .rfl, fun _ => .rfl, fun _ => .rfl, fun _ => .rfl, fun c =>
      show (iprop(StableHlo.held (c : Thread nD τ) (Pipeline.ucRefs τ sig) (W5 aft0 inv0 aft1 inv1 m c) ∗ Ride c) : sProp 𝕄)
          ⊢ iprop(Tend aft0 inv0 aft1 inv1 m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 aft0 inv0 aft1 inv1 m c b)
    (hfin := fun c s' => by
      iintro ⟨⟨Hh, -⟩, HSI⟩
      unfold StableHlo.held
      imodintro
      iapply (pointsTo_read_all (Pipeline.ucRefs τ sig) (fun b => (((c : Thread nD τ)).1, b)) (W5 aft0 inv0 aft1 inv1 m c) s')
      isplitl [Hh] <;> iassumption)
    (hQ := fun s h c => h c)

end Cert.KernelIdeal.Hand

end
-- ==== Proof.KernelIdeal.Frame.lean ====
import proofs.«162062_j44212393345653_2_alg».proof.Proof.KernelIdeal.Run

/-!
# The arguments end as launched

No host operation writes an argument array, and a pass changes only its output arrays: an array a
pass reads through an input window ends the pass as it entered it, and a buffer that is no array of
the pass is not touched.  So the valuation at the end, read at an argument, walks back through the
five stretches to the launch memory.  With the run this is the frame statement, at any float instance.
-/

set_option maxRecDepth 16384

noncomputable section

namespace Cert.KernelIdeal.Hand

open Idealize.ShloMosaic Idealize.ShloMosaic.TcCoe
open Idealize.SL Idealize.SL.Sem
open Idealize.ShloMosaic.Pipeline (Dat Cfg)
open Cert.KernelIdeal Cert.KernelIdeal.Gen

variable {F : FTy → Type} [FloatOps F]
variable (aft0 : Aft F cfg0) (inv0 : Inv F cfg0) (aft1 : Aft F cfg1) (inv1 : Inv F cfg1)
variable (m : (ℓ : Loc nD τ sig) → Buf (Elt F) ℓ)

/-- A buffer that is no array of the accumulating pass is the same before and after it. -/
theorem pass0_other (c : Dev nD) (r : Ref sig .tc) (h : ∀ w, Pipeline.arrRef spec0 w ≠ r) :
    W2 aft0 inv0 m c (Proc.devRef .tc r) = W1 m c (Proc.devRef .tc r) := W2_of_ne aft0 inv0 m c r h
/-- An array the accumulating pass reads through an input window is the same before and after it. -/
theorem pass0_input (c : Dev nD) (w : Fin cfg0.W) (hw : (cfg0.win w).isOut = false) :
    W2 aft0 inv0 m c (Proc.devRef .tc (Pipeline.arrRef spec0 w)) = W1 m c (Proc.devRef .tc (Pipeline.arrRef spec0 w)) :=
  (W2_arr aft0 inv0 m c w).trans ((pass0 aft0 inv0 (E1 m) c).arrAt_in w hw _)
/-- A buffer that is no array of the normalising pass is the same before and after it. -/
theorem pass1_other (c : Dev nD) (r : Ref sig .tc) (h : ∀ w, Pipeline.arrRef spec1 w ≠ r) :
    W4 aft0 inv0 aft1 inv1 m c (Proc.devRef .tc r) = W3 aft0 inv0 m c (Proc.devRef .tc r) :=
  W4_of_ne aft0 inv0 aft1 inv1 m c r h
/-- An array the normalising pass reads through an input window is the same before and after it. -/
theorem pass1_input (c : Dev nD) (w : Fin cfg1.W) (hw : (cfg1.win w).isOut = false) :
    W4 aft0 inv0 aft1 inv1 m c (Proc.devRef .tc (Pipeline.arrRef spec1 w))
      = W3 aft0 inv0 m c (Proc.devRef .tc (Pipeline.arrRef spec1 w)) :=
  (W4_arr aft0 inv0 aft1 inv1 m c w).trans ((pass1 aft1 inv1 (E3 aft0 inv0 m) c).arrAt_in w hw _)

/-- An argument that neither pass names ends as launched. -/
theorem end_of_plain (c : Dev nD) (r : Ref sig .tc) (h2 : r ∉ hostOps2_W) (h1 : r ∉ hostOps1_W) (h0 : r ∉ hostOps0_W)
    (hp1 : ∀ w, Pipeline.arrRef spec1 w ≠ r) (hp0 : ∀ w, Pipeline.arrRef spec0 w ≠ r) :
    W5 aft0 inv0 aft1 inv1 m c (Proc.devRef .tc r) = m ((c : Thread nD τ).loc r) :=
  calc W5 aft0 inv0 aft1 inv1 m c (Proc.devRef .tc r)
    _ = W4 aft0 inv0 aft1 inv1 m c (Proc.devRef .tc r) := StableHlo.after_of_writes_sub hostOps2 _ hostOps2_writes h2
    _ = W3 aft0 inv0 m c (Proc.devRef .tc r) := pass1_other aft0 inv0 aft1 inv1 m c r hp1
    _ = W2 aft0 inv0 m c (Proc.devRef .tc r) := StableHlo.after_of_writes_sub hostOps1 _ hostOps1_writes h1
    _ = W1 m c (Proc.devRef .tc r) := pass0_other aft0 inv0 m c r hp0
    _ = W0 m c (Proc.devRef .tc r) := StableHlo.after_of_writes_sub hostOps0 _ hostOps0_writes h0
    _ = m ((c : Thread nD τ).loc r) := rfl

theorem end_arg0 (c : Dev nD) : W5 aft0 inv0 aft1 inv1 m c (Proc.devRef .tc main_arg0) = m ((c : Thread nD τ).loc main_arg0) :=
  end_of_plain aft0 inv0 aft1 inv1 m c main_arg0 (by decide) (by decide) (by decide) (by decide) (by decide)
theorem end_arg1 (c : Dev nD) : W5 aft0 inv0 aft1 inv1 m c (Proc.devRef .tc main_arg1) = m ((c : Thread nD τ).loc main_arg1) :=
  end_of_plain aft0 inv0 aft1 inv1 m c main_arg1 (by decide) (by decide) (by decide) (by decide) (by decide)
theorem end_arg2 (c : Dev nD) : W5 aft0 inv0 aft1 inv1 m c (Proc.devRef .tc main_arg2) = m ((c : Thread nD τ).loc main_arg2) :=
  end_of_plain aft0 inv0 aft1 inv1 m c main_arg2 (by decide) (by decide) (by decide) (by decide) (by decide)
/-- The weights are an input of both passes. -/
theorem end_arg3 (c : Dev nD) : W5 aft0 inv0 aft1 inv1 m c (Proc.devRef .tc main_arg3) = m ((c : Thread nD τ).loc main_arg3) :=
  calc W5 aft0 inv0 aft1 inv1 m c (Proc.devRef .tc main_arg3)
    _ = W4 aft0 inv0 aft1 inv1 m c (Proc.devRef .tc main_arg3) :=
        StableHlo.after_of_writes_sub hostOps2 _ hostOps2_writes (by decide)
    _ = W3 aft0 inv0 m c (Proc.devRef .tc main_arg3) := pass1_input aft0 inv0 aft1 inv1 m c 3 rfl
    _ = W2 aft0 inv0 m c (Proc.devRef .tc main_arg3) := StableHlo.after_of_writes_sub hostOps1 _ hostOps1_writes (by decide)
    _ = W1 m c (Proc.devRef .tc main_arg3) := pass0_input aft0 inv0 m c 2 rfl
    _ = W0 m c (Proc.devRef .tc main_arg3) := StableHlo.after_of_writes_sub hostOps0 _ hostOps0_writes (by decide)
    _ = m ((c : Thread nD τ).loc main_arg3) := rfl
theorem end_arg4 (c : Dev nD) : W5 aft0 inv0 aft1 inv1 m c (Proc.devRef .tc main_arg4) = m ((c : Thread nD τ).loc main_arg4) :=
  end_of_plain aft0 inv0 aft1 inv1 m c main_arg4 (by decide) (by decide) (by decide) (by decide) (by decide)
theorem end_arg5 (c : Dev nD) : W5 aft0 inv0 aft1 inv1 m c (Proc.devRef .tc main_arg5) = m ((c : Thread nD τ).loc main_arg5) :=
  end_of_plain aft0 inv0 aft1 inv1 m c main_arg5 (by decide) (by decide) (by decide) (by decide) (by decide)
theorem end_arg6 (c : Dev nD) : W5 aft0 inv0 aft1 inv1 m c (Proc.devRef .tc main_arg6) = m ((c : Thread nD τ).loc main_arg6) :=
  end_of_plain aft0 inv0 aft1 inv1 m c main_arg6 (by decide) (by decide) (by decide) (by decide) (by decide)

/-- The run with the result named and the arguments read back: every fair execution ends, the result
    buffer holds `W5`'s contents and every argument array is as launched. -/
theorem run_named (hP : Passes aft0 inv0 aft1 inv1) (ρ : Dev nD → PrngReg) :
    θ_run defs (onTc (τ := τ) (main (F := F))) ⟨m, fun _ => 0, ρ⟩ (fun r => ∀ c : Dev nD,
      r.2.mem ((c.tc : Thread nD τ).loc main_v34) = W5 aft0 inv0 aft1 inv1 m c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v34 (by decide)),
     (h c _ (mem_uc main_arg0 (by decide))).trans (end_arg0 aft0 inv0 aft1 inv1 m c),
     (h c _ (mem_uc main_arg1 (by decide))).trans (end_arg1 aft0 inv0 aft1 inv1 m c),
     (h c _ (mem_uc main_arg2 (by decide))).trans (end_arg2 aft0 inv0 aft1 inv1 m c),
     (h c _ (mem_uc main_arg3 (by decide))).trans (end_arg3 aft0 inv0 aft1 inv1 m c),
     (h c _ (mem_uc main_arg4 (by decide))).trans (end_arg4 aft0 inv0 aft1 inv1 m c),
     (h c _ (mem_uc main_arg5 (by decide))).trans (end_arg5 aft0 inv0 aft1 inv1 m c),
     (h c _ (mem_uc main_arg6 (by decide))).trans (end_arg6 aft0 inv0 aft1 inv1 m c)⟩)
    (run_all aft0 inv0 aft1 inv1 m hP ρ)

/-- The frame statement: the program runs to the end and leaves its argument arrays unchanged. -/
theorem frame_of_passes (hP : Passes aft0 inv0 aft1 inv1) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_named aft0 inv0 aft1 inv1 m hP ρ)

end Cert.KernelIdeal.Hand

end
-- ==== Proof.Neighbour.lean ====
import Idealize.ShloMosaic.PureOps
import Idealize.ShloMosaic.Lib.ValueIdx

/-!
# The neighbour position an index word denotes

An index word is a signed 32-bit integer.  A negative word counts from the end: 65536 is added to it.
The word is then read as a signed integer and clamped into the range of positions, 0 … 65535.
-/

namespace Cert.Neighbour

open Idealize.ShloMosaic Idealize.ShloMosaic.ValueIdx

/-- The word with 65536 added when it is negative as a signed integer. -/
def wrap (v : BitVec 32) : BitVec 32 := if v.toInt < 0 then v + 65536#32 else v

/-- The word read as a signed integer and clamped to a position in 0 … 65535. -/
def clamp (v : BitVec 32) : Fin 65536 := ⟨min v.toInt.toNat 65535, by omega⟩

/-- The position of the `k`-th neighbour of point `n` in batch `b`, from the array of index words. -/
def nbOf (a2 : IVec ⟨3, ![4, 65536, 16]⟩ 32) (b : Fin 4) (n : Fin 65536) (k : Fin 16) : Fin 65536 :=
  clamp (wrap (a2 (ix3 b n k)))

/-- Written as a signed comparison with zero, an addition and a select, the wrapped word is `wrap`. -/
theorem select_eq_wrap (v : BitVec 32) :
    Scalar.select (IntOp.cmpi .slt v 0#32) (IntOp.addi v 65536#32) v = wrap v := by
  unfold wrap Scalar.select IntOp.cmpi IntOp.addi
  by_cases h : v.toInt < 0
  · have hs : v.slt 0#32 = true := by simp [BitVec.slt, h]
    simp [hs, h]
  · have hs : v.slt 0#32 = false := by simp [BitVec.slt, h]
    simp [hs, h]

/-- The value of a clamped word. -/
theorem clamp_val (v : BitVec 32) : (clamp v).val = min v.toInt.toNat 65535 := rfl

end Cert.Neighbour
-- ==== Proof.Consts.lean ====
import Idealize.ShloMosaic.PureOps.Ideal

/-!
# The float literals of the two programs, as extended reals

At the ideal float instance a 32-bit pattern denotes the extended real it encodes.  The count of
(batch, point, neighbour) triples, 2²² = 4194304, is spelled `0x4A800000`.
-/

noncomputable section

namespace Cert.Consts

open Idealize.ShloMosaic

/-- `+0.0` denotes `0`. -/
theorem ofBits_zero : Ideal.ofBits .f32 0x00000000#32 = 0 := by
  simp [Ideal.ofBits, Ideal.ieee]

/-- `0x4A800000` denotes the real number 4194304 = 2²². -/
theorem ofBits_cnt : Ideal.ofBits .f32 0x4A800000#32 = ((4194304 : ℝ) : EReal) := by
  simp [Ideal.ofBits, Ideal.ieee, -EReal.coe_mul]; norm_num

/-- The count is positive. -/
theorem cnt_pos : (0 : EReal) < Ideal.ofBits .f32 0x4A800000#32 := by
  rw [ofBits_cnt]; exact_mod_cast (by norm_num : (0 : ℝ) < 4194304)

end Cert.Consts

end
-- ==== Proof.KernelIdeal.HostGlue.lean ====
/- THE HOST OPERATIONS OF @main READ AT AN INDEX, at the ideal float instance (a float is an extended real, every
   operation exact).

   @main is three stretches of plain host operations around two kernel launches.  For the buffers' contents `W` before a
   stretch (arbitrary), this module says what the stretch's result buffers hold afterwards, entry by entry, as functions of
   what `W` holds at the stretch's inputs:

   * the first stretch transposes the coordinates, repeats each point's coordinates once per neighbour, gathers the
     neighbours' coordinates and features at the positions the index words denote (a negative word counts from the end;
     the word is then clamped into range), and reads the three parameter vectors as columns;
   * the middle stretch adds the two partial sums over the batches, divides by the count, and forms the variance
     `max (E[x²] − mean², 0)`;
   * the last stretch regroups the flat position axis as (point, neighbour). -/
import proofs.«162062_j44212393345653_2_alg».proof.Proof.Gen.KernelIdeal.Launch
import proofs.«162062_j44212393345653_2_alg».proof.Proof.Gen.KernelIdeal.Regions
import proofs.«162062_j44212393345653_2_alg».proof.Proof.Neighbour
import proofs.«162062_j44212393345653_2_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Glue

open Idealize.ShloMosaic Idealize.ShloMosaic.TcCoe Idealize.ShloMosaic.ValueIdx Idealize.ShloMosaic.StableHlo
open Cert.KernelIdeal Cert.KernelIdeal.Gen
open scoped BigOperators

variable (W : Valuation τ sig (Elt Ideal))

/-! ## The last stretch: the result regrouped as (point, neighbour) -/

/-- The result array regrouped: entry (b, ch, n, k) is the flat entry (b, ch, 16 n + k). -/
theorem glue2_out (b : Fin 4) (ch : Fin 32) (n : Fin 65536) (k : Fin 16) :
    (StableHlo.after (hostOps2 (F := Ideal)) W (Proc.devRef .tc main_v34) : S4x32x65536x16.Idx → EReal) (ix4 b ch n k)
      = (W (Proc.devRef .tc main_v33) : S4x32x1048576.Idx → EReal) (ix3 b ch ⟨16 * n.val + k.val, by omega⟩) := by
  have e : (StableHlo.after (hostOps2 (F := Ideal)) W (Proc.devRef .tc main_v34) : S4x32x65536x16.Idx → EReal)
      = shapeCast S4x32x65536x16 (W (Proc.devRef .tc main_v33) : S4x32x1048576.Idx → EReal)
          Facts₀.shapeCasts_S4x32x1048576_S4x32x65536x16 := by
    dsimp only [hostOps2]; after_results; rfl
  rw [e]
  refine shapeCast_apply (s := S4x32x1048576) (t := S4x32x65536x16) _ _ _ _ ?_
  rw [Shape.rowMajor_val_three, Shape.rowMajor_val_four]
  show (b.val * 32 + ch.val) * 1048576 + (16 * n.val + k.val) = ((b.val * 32 + ch.val) * 65536 + n.val) * 16 + k.val
  omega

/-! ## The first stretch: the three columns, and what it does not write -/

/-- A vector of 16 entries read as a column. -/
theorem col_apply (x : S16.Idx → EReal) (h : S16.ShapeCasts S16x1) (o : Fin 16) :
    shapeCast S16x1 x h (ix2 o (0 : Fin 1)) = x (ix1 o) := by
  refine shapeCast_apply (s := S16) (t := S16x1) _ _ _ _ ?_
  rw [Shape.rowMajor_val_one, Shape.rowMajor_val_two]
  show o.val = o.val * 1 + 0
  omega

theorem glue0_bias (o : Fin 16) :
    (StableHlo.after (hostOps0 (F := Ideal)) W (Proc.devRef .tc main_v19) : S16x1.Idx → EReal) (ix2 o (0 : Fin 1))
      = (W (Proc.devRef .tc main_arg4) : S16.Idx → EReal) (ix1 o) := by
  have e : (StableHlo.after (hostOps0 (F := Ideal)) W (Proc.devRef .tc main_v19) : S16x1.Idx → EReal)
      = shapeCast S16x1 (W (Proc.devRef .tc main_arg4) : S16.Idx → EReal) Facts₀.shapeCasts_S16_S16x1 := by
    dsimp only [hostOps0]; after_results; rfl
  rw [e]; exact col_apply _ _ o

theorem glue0_gamma (o : Fin 16) :
    (StableHlo.after (hostOps0 (F := Ideal)) W (Proc.devRef .tc main_v20) : S16x1.Idx → EReal) (ix2 o (0 : Fin 1))
      = (W (Proc.devRef .tc main_arg5) : S16.Idx → EReal) (ix1 o) := by
  have e : (StableHlo.after (hostOps0 (F := Ideal)) W (Proc.devRef .tc main_v20) : S16x1.Idx → EReal)
      = shapeCast S16x1 (W (Proc.devRef .tc main_arg5) : S16.Idx → EReal) Facts₀.shapeCasts_S16_S16x1 := by
    dsimp only [hostOps0]; after_results; rfl
  rw [e]; exact col_apply _ _ o

theorem glue0_beta (o : Fin 16) :
    (StableHlo.after (hostOps0 (F := Ideal)) W (Proc.devRef .tc main_v21) : S16x1.Idx → EReal) (ix2 o (0 : Fin 1))
      = (W (Proc.devRef .tc main_arg6) : S16.Idx → EReal) (ix1 o) := by
  have e : (StableHlo.after (hostOps0 (F := Ideal)) W (Proc.devRef .tc main_v21) : S16x1.Idx → EReal)
      = shapeCast S16x1 (W (Proc.devRef .tc main_arg6) : S16.Idx → EReal) Facts₀.shapeCasts_S16_S16x1 := by
    dsimp only [hostOps0]; after_results; rfl
  rw [e]; exact col_apply _ _ o

/-- The first stretch writes none of the references outside its list of results. -/
theorem glue0_keep_of (r : Ref sig .tc) (h : r ∉ hostOps0_W) :
    StableHlo.after (hostOps0 (F := Ideal)) W (Proc.devRef .tc r) = W (Proc.devRef .tc r) :=
  StableHlo.after_of_writes_sub hostOps0 W hostOps0_writes h

/-- The weights are not written. -/
theorem glue0_keep :
    StableHlo.after (hostOps0 (F := Ideal)) W (Proc.devRef .tc main_arg3) = W (Proc.devRef .tc main_arg3) :=
  glue0_keep_of W main_arg3 (by decide)

/-- The second stretch writes none of the references outside its list of results. -/
theorem glue1_keep (r : Ref sig .tc) (h : r ∉ hostOps1_W) :
    StableHlo.after (hostOps1 (F := Ideal)) W (Proc.devRef .tc r) = W (Proc.devRef .tc r) :=
  StableHlo.after_of_writes_sub hostOps1 W hostOps1_writes h

/-- The last stretch writes only its result. -/
theorem glue2_keep (r : Ref sig .tc) (h : r ∉ hostOps2_W) :
    StableHlo.after (hostOps2 (F := Ideal)) W (Proc.devRef .tc r) = W (Proc.devRef .tc r) :=
  StableHlo.after_of_writes_sub hostOps2 W hostOps2_writes h

/-! ## The middle stretch: the two moments -/

/-- The host's sum over the four batches of a [4, 16, 1] array, read at a column entry. -/
theorem sum4_apply (x : S4x16x1.Idx → EReal) (init : EReal) (o : Fin 16) :
    Ideal.hostReduceAdd Facts₀.reducesTo_S4x16x1_S16x1_d0 x init (ix2 o (0 : Fin 1))
      = init + ∑ b : Fin 4, x (ix3 b o (0 : Fin 1)) := by
  have h : S4x16x1.Reduces [0] S16x1 := by decide
  rw [Ideal.hostReduceAdd_single Facts₀.reducesTo_S4x16x1_S16x1_d0 h]
  refine congrArg _ (Finset.sum_congr rfl fun k _ => congrArg x ?_)
  funext a
  refine Fin.ext ?_
  match a with
  | ⟨0, _⟩ => rfl
  | ⟨1, _⟩ => rfl
  | ⟨2, _⟩ => rfl

/-- The mean column: the first partial sums added over the batches, divided by the count. -/
theorem glue1_mean (o : Fin 16) :
    (StableHlo.after (hostOps1 (F := Ideal)) W (Proc.devRef .tc main_v26) : S16x1.Idx → EReal) (ix2 o (0 : Fin 1))
      = Ideal.div (∑ b : Fin 4, (W (Proc.devRef .tc main_v22_0) : S4x16x1.Idx → EReal) (ix3 b o (0 : Fin 1)))
          (Ideal.ofBits .f32 0x4A800000#32) := by
  have e : (StableHlo.after (hostOps1 (F := Ideal)) W (Proc.devRef .tc main_v26) : S16x1.Idx → EReal)
      = Host.divf (F := Ideal) (φ := .f32)
          (Host.reduceAdd (W (Proc.devRef .tc main_v22_0) : S4x16x1.Idx → EReal) (constant (F := Ideal) S_ .f32 0x00000000#32)
            Facts₀.reducesTo_S4x16x1_S16x1_d0 Facts₀.h_S_)
          (broadcastInDim S16x1 ![] Facts₀.bcast_S_S16x1 (constant (F := Ideal) S_ .f32 0x4A800000#32)) := by
    dsimp only [hostOps1]; after_results
  rw [e]
  show Ideal.div (Ideal.hostReduceAdd Facts₀.reducesTo_S4x16x1_S16x1_d0 _ (Ideal.ofBits .f32 0x00000000#32) (ix2 o (0 : Fin 1)))
      (Ideal.ofBits .f32 0x4A800000#32) = _
  rw [sum4_apply, Cert.Consts.ofBits_zero, zero_add]

/-- The variance column: the second partial sums added over the batches and divided by the count, less the square of
    the mean, and not below zero. -/
theorem glue1_var (o : Fin 16) :
    (StableHlo.after (hostOps1 (F := Ideal)) W (Proc.devRef .tc main_v32) : S16x1.Idx → EReal) (ix2 o (0 : Fin 1))
      = max (Ideal.div (∑ b : Fin 4, (W (Proc.devRef .tc main_v22_1) : S4x16x1.Idx → EReal) (ix3 b o (0 : Fin 1)))
              (Ideal.ofBits .f32 0x4A800000#32)
            - Ideal.div (∑ b : Fin 4, (W (Proc.devRef .tc main_v22_0) : S4x16x1.Idx → EReal) (ix3 b o (0 : Fin 1)))
                (Ideal.ofBits .f32 0x4A800000#32)
              * Ideal.div (∑ b : Fin 4, (W (Proc.devRef .tc main_v22_0) : S4x16x1.Idx → EReal) (ix3 b o (0 : Fin 1)))
                (Ideal.ofBits .f32 0x4A800000#32)) 0 := by
  have e : (StableHlo.after (hostOps1 (F := Ideal)) W (Proc.devRef .tc main_v32) : S16x1.Idx → EReal)
      = maximumf (F := Ideal) (φ := .f32)
          (subf
            (Host.divf (F := Ideal) (φ := .f32)
              (Host.reduceAdd (W (Proc.devRef .tc main_v22_1) : S4x16x1.Idx → EReal) (constant (F := Ideal) S_ .f32 0x00000000#32)
                Facts₀.reducesTo_S4x16x1_S16x1_d0 Facts₀.h_S_)
              (broadcastInDim S16x1 ![] Facts₀.bcast_S_S16x1 (constant (F := Ideal) S_ .f32 0x4A800000#32)))
            (mulf
              (Host.divf (F := Ideal) (φ := .f32)
                (Host.reduceAdd (W (Proc.devRef .tc main_v22_0) : S4x16x1.Idx → EReal) (constant (F := Ideal) S_ .f32 0x00000000#32)
                  Facts₀.reducesTo_S4x16x1_S16x1_d0 Facts₀.h_S_)
                (broadcastInDim S16x1 ![] Facts₀.bcast_S_S16x1 (constant (F := Ideal) S_ .f32 0x4A800000#32)))
              (Host.divf (F := Ideal) (φ := .f32)
                (Host.reduceAdd (W (Proc.devRef .tc main_v22_0) : S4x16x1.Idx → EReal) (constant (F := Ideal) S_ .f32 0x00000000#32)
                  Facts₀.reducesTo_S4x16x1_S16x1_d0 Facts₀.h_S_)
                (broadcastInDim S16x1 ![] Facts₀.bcast_S_S16x1 (constant (F := Ideal) S_ .f32 0x4A800000#32)))))
          (broadcastInDim S16x1 ![] Facts₀.bcast_S_S16x1 (constant (F := Ideal) S_ .f32 0x00000000#32)) := by
    dsimp only [hostOps1]; after_results
  rw [e]
  show max (Ideal.div (Ideal.hostReduceAdd Facts₀.reducesTo_S4x16x1_S16x1_d0 _ (Ideal.ofBits .f32 0x00000000#32) (ix2 o (0 : Fin 1)))
        (Ideal.ofBits .f32 0x4A800000#32)
      - Ideal.div (Ideal.hostReduceAdd Facts₀.reducesTo_S4x16x1_S16x1_d0 _ (Ideal.ofBits .f32 0x00000000#32) (ix2 o (0 : Fin 1)))
          (Ideal.ofBits .f32 0x4A800000#32)
        * Ideal.div (Ideal.hostReduceAdd Facts₀.reducesTo_S4x16x1_S16x1_d0 _ (Ideal.ofBits .f32 0x00000000#32) (ix2 o (0 : Fin 1)))
          (Ideal.ofBits .f32 0x4A800000#32))
      (Ideal.ofBits .f32 0x00000000#32) = _
  rw [sum4_apply, sum4_apply, Cert.Consts.ofBits_zero, zero_add, zero_add]

/-! ## The first stretch: the points' own coordinates, once per neighbour -/

/-- Flat position m of the repeated coordinates holds the coordinates of point m / 16. -/
theorem glue0_ext (b : Fin 4) (d : Fin 3) (m : Fin 1048576) :
    (StableHlo.after (hostOps0 (F := Ideal)) W (Proc.devRef .tc main_v11) : S4x3x1048576.Idx → EReal) (ix3 b d m)
      = (W (Proc.devRef .tc main_arg0) : S4x65536x3.Idx → EReal) (ix3 b (⟨m.val / 16, by omega⟩ : Fin 65536) d) := by
  have e : (StableHlo.after (hostOps0 (F := Ideal)) W (Proc.devRef .tc main_v11) : S4x3x1048576.Idx → EReal)
      = shapeCast S4x3x1048576
          (broadcastInDim S4x3x65536x16 ![0, 1, 2] Facts₀.bcast_S4x3x65536_S4x3x65536x16_0_1_2
            (transpose S4x3x65536 [0, 2, 1] (W (Proc.devRef .tc main_arg0) : S4x65536x3.Idx → EReal)
              Facts₀.transposes_S4x65536x3_S4x3x65536_0_2_1))
          Facts₀.shapeCasts_S4x3x65536x16_S4x3x1048576 := by
    dsimp only [hostOps0]; after_results; all_goals rfl
  rw [e]
  refine (shapeCast_apply (s := S4x3x65536x16) (t := S4x3x1048576) _ _ _
    (ix4 b d (⟨m.val / 16, by omega⟩ : Fin 65536) (⟨m.val % 16, by omega⟩ : Fin 16)) ?_).trans ?_
  · rw [Shape.rowMajor_val_four, Shape.rowMajor_val_three]
    show ((b.val * 3 + d.val) * 65536 + m.val / 16) * 16 + m.val % 16 = (b.val * 3 + d.val) * 1048576 + m.val
    omega
  refine (broadcastInDim_apply (s := S4x3x65536) (t := S4x3x65536x16) _ _ _ _
    (ix3 b d (⟨m.val / 16, by omega⟩ : Fin 65536)) fun a => ?_).trans ?_
  · match a with
    | ⟨0, _⟩ => rfl
    | ⟨1, _⟩ => rfl
    | ⟨2, _⟩ => rfl
  exact transpose_ix3_021_apply _ _ b d (⟨m.val / 16, by omega⟩ : Fin 65536)

/-! ## The gather of the neighbours -/

section Gather
variable {α : Type}

/-- The dimension numbers of a gather of one position per (batch, flat position) out of a [4, C, 65536] operand:
    the batch axis paired, the channel axis whole, the position axis indexed. -/
abbrev nbDims (C : Nat)
    (wf : GatherDims.WF (⟨3, ![4, C, 65536]⟩ : Shape) ⟨3, ![4, 1048576, 1]⟩ ⟨3, ![4, C, 1048576]⟩ [1] [2] [0] [2] [0] 2 ![1, C, 1]) :
    GatherDims ⟨3, ![4, C, 65536]⟩ ⟨3, ![4, 1048576, 1]⟩ ⟨3, ![4, C, 1048576]⟩ where
  offsetDims := [1]
  collapsedSliceDims := [2]
  operandBatchingDims := [0]
  startIndicesBatchingDims := [0]
  startIndexMap := [2]
  indexVectorDim := 2
  sliceSizes := ![1, C, 1]
  wf := wf

variable {C : Nat}
  (wf : GatherDims.WF (⟨3, ![4, C, 65536]⟩ : Shape) ⟨3, ![4, 1048576, 1]⟩ ⟨3, ![4, C, 1048576]⟩ [1] [2] [0] [2] [0] 2 ![1, C, 1])
  (idx : IVec ⟨3, ![4, 1048576, 1]⟩ 32) (b : Fin 4) (d : Fin C) (m : Fin 1048576)

/-- On the batch axis the operand index is the result's batch. -/
theorem nbDims_coord0 :
    (nbDims C wf).start (ix3 b d m) idx (0 : Fin 3) + (nbDims C wf).batchCoord (ix3 b d m) (0 : Fin 3)
      + (nbDims C wf).offCoord (ix3 b d m) (0 : Fin 3) = b.val := by
  rw [GatherDims.start_batching _ _ _ _ (show (0 : Fin 3) ∈ (nbDims C wf).operandBatchingDims from List.mem_singleton.mpr rfl),
    GatherDims.offCoord_eq_zero _ _ _ (fun h => ((GatherDims.mem_sKept _ _).mp h).2
      (show (0 : Fin 3) ∈ (nbDims C wf).operandBatchingDims from List.mem_singleton.mpr rfl))]
  unfold GatherDims.batchCoord
  rw [dif_pos (show (0 : Fin 3) ∈ (nbDims C wf).operandBatchingDims from List.mem_singleton.mpr rfl), Nat.zero_add, Nat.add_zero]
  rfl

/-- On the channel axis the operand index is the result's channel. -/
theorem nbDims_coord1 :
    (nbDims C wf).start (ix3 b d m) idx (1 : Fin 3) + (nbDims C wf).batchCoord (ix3 b d m) (1 : Fin 3)
      + (nbDims C wf).offCoord (ix3 b d m) (1 : Fin 3) = d.val := by
  rw [GatherDims.batchCoord_eq_zero _ _ _ (by decide : (1 : Fin 3) ∉ ([0] : List (Fin 3)))]
  unfold GatherDims.start
  rw [dif_neg (by decide : (1 : Fin 3) ∉ ([2] : List (Fin 3)))]
  unfold GatherDims.offCoord
  rw [dif_pos (show (1 : Fin 3) ∈ (nbDims C wf).sKept from (GatherDims.mem_sKept _ _).mpr
      ⟨(by decide : (1 : Fin 3) ∉ ([2] : List (Fin 3))), (by decide : (1 : Fin 3) ∉ ([0] : List (Fin 3)))⟩)]
  simp only [Nat.zero_add]
  rfl

/-- On the position axis the operand index is the index word read signed and clamped. -/
theorem nbDims_coord2 :
    (nbDims C wf).start (ix3 b d m) idx (2 : Fin 3) + (nbDims C wf).batchCoord (ix3 b d m) (2 : Fin 3)
      + (nbDims C wf).offCoord (ix3 b d m) (2 : Fin 3) = (Cert.Neighbour.clamp (idx (ix3 b m (0 : Fin 1)))).val := by
  rw [GatherDims.batchCoord_eq_zero _ _ _ (by decide : (2 : Fin 3) ∉ ([0] : List (Fin 3))),
    GatherDims.offCoord_eq_zero _ _ _ (fun h => ((GatherDims.mem_sKept _ _).mp h).1
      (show (2 : Fin 3) ∈ (nbDims C wf).collapsedSliceDims from List.mem_singleton.mpr rfl))]
  simp only [Nat.add_zero]
  unfold GatherDims.start
  rw [dif_pos (show (2 : Fin 3) ∈ (nbDims C wf).startIndexMap from List.mem_singleton.mpr rfl)]
  have hsi : (nbDims C wf).siIdx (ix3 b d m) ⟨List.idxOf (2 : Fin 3) (nbDims C wf).startIndexMap,
      List.idxOf_lt_length_iff.2 (List.mem_singleton.mpr rfl)⟩ = ix3 b m (0 : Fin 1) := by
    funext c; refine Fin.ext ?_
    match c with
    | ⟨0, _⟩ => rfl
    | ⟨1, _⟩ => rfl
    | ⟨2, _⟩ => rfl
  rw [hsi]
  rfl

/-- The operand index of result entry (b, d, m): batch b, channel d, the position the index word at (b, m) denotes. -/
theorem nbDims_operandIdx :
    (nbDims C wf).operandIdx (ix3 b d m) idx = ix3 b d (Cert.Neighbour.clamp (idx (ix3 b m (0 : Fin 1)))) := by
  funext a
  refine Fin.ext ?_
  match a with
  | ⟨0, _⟩ => exact nbDims_coord0 wf idx b d m
  | ⟨1, _⟩ => exact nbDims_coord1 wf idx b d m
  | ⟨2, _⟩ => exact nbDims_coord2 wf idx b d m

/-- The gather read at (b, d, m). -/
theorem nbDims_gather_apply (x : (⟨3, ![4, C, 65536]⟩ : Shape).Idx → α) :
    Host.gather (nbDims C wf) x idx (ix3 b d m) = x (ix3 b d (Cert.Neighbour.clamp (idx (ix3 b m (0 : Fin 1))))) := by
  unfold Host.gather
  rw [nbDims_operandIdx]

end Gather

/-! ## The first stretch: the neighbours' coordinates and features -/

/-- The gathers' start indices: the index words regrouped flat, each word with 65536 added when negative, and a trailing
    unit axis. -/
abbrev startIdx (a2 : IVec S4x65536x16 32) : IVec S4x1048576x1 32 :=
  broadcastInDim S4x1048576x1 ![0, 1] Facts₀.bcast_S4x1048576_S4x1048576x1_0_1
    (select
      (cmpi .slt (shapeCast S4x1048576 a2 Facts₀.shapeCasts_S4x65536x16_S4x1048576)
        (broadcastInDim S4x1048576 ![] Facts₀.bcast_S_S4x1048576 (constantI S_ 32 0#32)))
      (addi (shapeCast S4x1048576 a2 Facts₀.shapeCasts_S4x65536x16_S4x1048576)
        (broadcastInDim S4x1048576 ![] Facts₀.bcast_S_S4x1048576 (constantI S_ 32 65536#32)))
      (shapeCast S4x1048576 a2 Facts₀.shapeCasts_S4x65536x16_S4x1048576))

/-- Start index (b, m, 0) is the wrapped word of neighbour m % 16 of point m / 16. -/
theorem startIdx_apply (a2 : IVec S4x65536x16 32) (b : Fin 4) (m : Fin 1048576) :
    startIdx a2 (ix3 b m (0 : Fin 1))
      = Cert.Neighbour.wrap (a2 (ix3 b (⟨m.val / 16, by omega⟩ : Fin 65536) (⟨m.val % 16, by omega⟩ : Fin 16))) := by
  refine (broadcastInDim_apply (s := S4x1048576) (t := S4x1048576x1) _ _ _ _ (ix2 b m) fun a => ?_).trans ?_
  · match a with
    | ⟨0, _⟩ => rfl
    | ⟨1, _⟩ => rfl
  have hv : shapeCast S4x1048576 a2 Facts₀.shapeCasts_S4x65536x16_S4x1048576 (ix2 b m)
      = a2 (ix3 b (⟨m.val / 16, by omega⟩ : Fin 65536) (⟨m.val % 16, by omega⟩ : Fin 16)) := by
    refine shapeCast_apply (s := S4x65536x16) (t := S4x1048576) _ _ _ _ ?_
    rw [Shape.rowMajor_val_three, Shape.rowMajor_val_two]
    show (b.val * 65536 + m.val / 16) * 16 + m.val % 16 = b.val * 1048576 + m.val
    omega
  show Scalar.select (IntOp.cmpi .slt (shapeCast S4x1048576 a2 Facts₀.shapeCasts_S4x65536x16_S4x1048576 (ix2 b m)) 0#32)
      (IntOp.addi (shapeCast S4x1048576 a2 Facts₀.shapeCasts_S4x65536x16_S4x1048576 (ix2 b m)) 65536#32)
      (shapeCast S4x1048576 a2 Facts₀.shapeCasts_S4x65536x16_S4x1048576 (ix2 b m)) = _
  rw [hv, Cert.Neighbour.select_eq_wrap]

/-- The position the start index at (b, m, 0) denotes is the neighbour's position. -/
theorem clamp_startIdx (a2 : IVec S4x65536x16 32) (b : Fin 4) (m : Fin 1048576) :
    Cert.Neighbour.clamp (startIdx a2 (ix3 b m (0 : Fin 1)))
      = Cert.Neighbour.nbOf a2 b (⟨m.val / 16, by omega⟩ : Fin 65536) (⟨m.val % 16, by omega⟩ : Fin 16) := by
  rw [startIdx_apply]; rfl

/-- Flat position m of the gathered coordinates holds the coordinates of neighbour m % 16 of point m / 16. -/
theorem glue0_nbr (b : Fin 4) (d : Fin 3) (m : Fin 1048576) :
    (StableHlo.after (hostOps0 (F := Ideal)) W (Proc.devRef .tc main_v9) : S4x3x1048576.Idx → EReal) (ix3 b d m)
      = (W (Proc.devRef .tc main_arg0) : S4x65536x3.Idx → EReal)
          (ix3 b (Cert.Neighbour.nbOf (W (Proc.devRef .tc main_arg2) : IVec S4x65536x16 32) b
            (⟨m.val / 16, by omega⟩ : Fin 65536) (⟨m.val % 16, by omega⟩ : Fin 16)) d) := by
  have e : (StableHlo.after (hostOps0 (F := Ideal)) W (Proc.devRef .tc main_v9) : S4x3x1048576.Idx → EReal)
      = Host.gather (nbDims 3 Facts₀.gather_S4x3x65536_S4x1048576x1_S4x3x1048576_1_2_0_0_2_2_131_wf)
          (transpose S4x3x65536 [0, 2, 1] (W (Proc.devRef .tc main_arg0) : S4x65536x3.Idx → EReal)
            Facts₀.transposes_S4x65536x3_S4x3x65536_0_2_1)
          (startIdx (W (Proc.devRef .tc main_arg2) : IVec S4x65536x16 32)) := by
    dsimp only [hostOps0]; after_results; all_goals rfl
  rw [e, nbDims_gather_apply, clamp_startIdx]
  exact transpose_ix3_021_apply _ _ b d _

/-- Flat position m of the gathered features holds the features of neighbour m % 16 of point m / 16. -/
theorem glue0_feat (b : Fin 4) (o : Fin 16) (m : Fin 1048576) :
    (StableHlo.after (hostOps0 (F := Ideal)) W (Proc.devRef .tc main_v18) : S4x16x1048576.Idx → EReal) (ix3 b o m)
      = (W (Proc.devRef .tc main_arg1) : S4x16x65536x1.Idx → EReal)
          (ix4 b o (Cert.Neighbour.nbOf (W (Proc.devRef .tc main_arg2) : IVec S4x65536x16 32) b
            (⟨m.val / 16, by omega⟩ : Fin 65536) (⟨m.val % 16, by omega⟩ : Fin 16)) (0 : Fin 1)) := by
  have e : (StableHlo.after (hostOps0 (F := Ideal)) W (Proc.devRef .tc main_v18) : S4x16x1048576.Idx → EReal)
      = Host.gather (nbDims 16 Facts₀.gather_S4x16x65536_S4x1048576x1_S4x16x1048576_1_2_0_0_2_2_1161_wf)
          (shapeCast S4x16x65536 (W (Proc.devRef .tc main_arg1) : S4x16x65536x1.Idx → EReal)
            Facts₀.shapeCasts_S4x16x65536x1_S4x16x65536)
          (startIdx (W (Proc.devRef .tc main_arg2) : IVec S4x65536x16 32)) := by
    dsimp only [hostOps0]; after_results; all_goals rfl
  rw [e, nbDims_gather_apply, clamp_startIdx]
  refine shapeCast_apply (s := S4x16x65536x1) (t := S4x16x65536) _ _ _ _ ?_
  rw [Shape.rowMajor_val_four, Shape.rowMajor_val_three]
  generalize Cert.Neighbour.nbOf (W (Proc.devRef .tc main_arg2) : IVec S4x65536x16 32) b
    (⟨m.val / 16, by omega⟩ : Fin 65536) (⟨m.val % 16, by omega⟩ : Fin 16) = n
  show ((b.val * 16 + o.val) * 65536 + n.val) * 1 + 0 = (b.val * 16 + o.val) * 65536 + n.val
  omega

end Cert.KernelIdeal.Glue
end
-- ==== Proof.Spec.lean ====
import Idealize.ShloMosaic.PureOps.Ideal

/-!
# The function both programs compute

A point cloud of 4 batches of 65536 points with 3 coordinates each; every point `n` of batch `b` has 16
neighbours, the `k`-th at position `nb b n k`.  For the pair (point, neighbour) the ten *relative features*
are: the distance between the two, the three coordinate differences, the point's coordinates, the
neighbour's coordinates.  A linear map `w` (16 × 10) with bias `bi` takes them to 16 channels, `x`.
Each channel is then normalised with the mean and the variance of that channel over every
(batch, point, neighbour) triple — 4 · 65536 · 16 = 2²² of them —, scaled by `ga`, shifted by `be`, and
cut below at zero.  The result has 32 channels per triple: the neighbour's own 16 features `fe`, then
the 16 normalised ones.

The variance is written in two ways: the mean of the squared deviations (`varDev`), and the mean of
the squares less the square of the mean, cut below at zero (`varSq`).  They agree when every `x` is a
real number; `out` takes the variance as a parameter so that both readings are one definition.

Everything is over the extended reals with the ideal float instance's operations: `Ideal.div`,
`Ideal.sqrt`, `Ideal.rsqrt`; the two literals are kept as the binary patterns the programs spell.
-/

noncomputable section

namespace Cert.Spec

open Idealize.ShloMosaic

/-- The number of (batch, point, neighbour) triples, 2²², as the programs spell it. -/
abbrev cnt : EReal := Ideal.ofBits .f32 0x4A800000#32
/-- The regulariser added to the variance, as the programs spell it (the float nearest 10⁻⁶). -/
abbrev eps : EReal := Ideal.ofBits .f32 0x358637BD#32

variable (co : Fin 4 → Fin 65536 → Fin 3 → EReal) (fe : Fin 4 → Fin 16 → Fin 65536 → EReal)
  (nb : Fin 4 → Fin 65536 → Fin 16 → Fin 65536)
  (w : Fin 16 → Fin 10 → EReal) (bi ga be : Fin 16 → EReal)

/-- Coordinate `d` of point `n` less that of its `k`-th neighbour. -/
def rel (b : Fin 4) (n : Fin 65536) (k : Fin 16) (d : Fin 3) : EReal := co b n d - co b (nb b n k) d

/-- The distance from point `n` to its `k`-th neighbour. -/
def dist (b : Fin 4) (n : Fin 65536) (k : Fin 16) : EReal :=
  Ideal.sqrt (∑ d : Fin 3, rel co nb b n k d * rel co nb b n k d)

/-- The ten relative features of the pair: distance, differences, the point, the neighbour. -/
def feat (b : Fin 4) (n : Fin 65536) (k : Fin 16) (c : Fin 10) : EReal :=
  if c.val = 0 then dist co nb b n k
  else if h : c.val < 4 then rel co nb b n k ⟨c.val - 1, by omega⟩
  else if h' : c.val < 7 then co b n ⟨c.val - 4, by omega⟩
  else co b (nb b n k) ⟨c.val - 7, by omega⟩

/-- Channel `o` of the linear map of the pair's features. -/
def x (b : Fin 4) (n : Fin 65536) (k : Fin 16) (o : Fin 16) : EReal :=
  (∑ c : Fin 10, w o c * feat co nb b n k c) + bi o

/-- The mean of channel `o` over all triples. -/
def mean (o : Fin 16) : EReal :=
  Ideal.div (∑ p : Fin 4 × Fin 65536 × Fin 16, x co nb w bi p.1 p.2.1 p.2.2 o) cnt

/-- The variance of channel `o` as the mean squared deviation. -/
def varDev (o : Fin 16) : EReal :=
  Ideal.div (∑ p : Fin 4 × Fin 65536 × Fin 16,
    (x co nb w bi p.1 p.2.1 p.2.2 o - mean co nb w bi o) * (x co nb w bi p.1 p.2.1 p.2.2 o - mean co nb w bi o)) cnt

/-- The variance of channel `o` as the mean of the squares less the squared mean, cut below at zero. -/
def varSq (o : Fin 16) : EReal :=
  max (Ideal.div (∑ p : Fin 4 × Fin 65536 × Fin 16,
      x co nb w bi p.1 p.2.1 p.2.2 o * x co nb w bi p.1 p.2.1 p.2.2 o) cnt
    - mean co nb w bi o * mean co nb w bi o) 0

/-- Channel `o` normalised with the variance `var`, scaled, shifted and cut below at zero. -/
def norm (var : Fin 16 → EReal) (b : Fin 4) (n : Fin 65536) (k : Fin 16) (o : Fin 16) : EReal :=
  max ((x co nb w bi b n k o - mean co nb w bi o) * Ideal.rsqrt (var o + eps) * ga o + be o) 0

/-- The result at (batch, channel, point, neighbour): the neighbour's features in channels 0–15, the
    normalised channels in 16–31. -/
def out (var : Fin 16 → EReal) (b : Fin 4) (ch : Fin 32) (n : Fin 65536) (k : Fin 16) : EReal :=
  if h : ch.val < 16 then fe b ⟨ch.val, h⟩ (nb b n k)
  else norm co nb w bi ga be var b n k ⟨ch.val - 16, by omega⟩

end Cert.Spec

end
-- ==== Proof.KSpec.lean ====
import Idealize.ShloMosaic.PureOps.Ideal

/-!
# The kernel's arithmetic on flat positions

The kernel programs work on arrays whose last axis is the flat position `m = 16 · n + k` of a
(point, neighbour) pair, 1048576 positions per batch, channel before position.  Given the point
coordinates `e b d m` and the neighbour coordinates `g b d m` laid out that way, the ten features of
position `m` and the 16 channels of their linear image are the functions below; the two passes over
the data (the one that accumulates sums, the one that normalises) both compute `lin`.
-/

noncomputable section

namespace Cert.KSpec

open Idealize.ShloMosaic

variable (e g : Fin 4 → Fin 3 → Fin 1048576 → EReal) (w : Fin 16 → Fin 10 → EReal) (bi : Fin 16 → EReal)

/-- Feature `c` of flat position `m`: the distance, the three differences, the point, the neighbour. -/
def feat (b : Fin 4) (c : Fin 10) (m : Fin 1048576) : EReal :=
  if c.val = 0 then Ideal.sqrt (∑ d : Fin 3, (e b d m - g b d m) * (e b d m - g b d m))
  else if h : c.val < 4 then e b ⟨c.val - 1, by omega⟩ m - g b ⟨c.val - 1, by omega⟩ m
  else if h' : c.val < 7 then e b ⟨c.val - 4, by omega⟩ m
  else g b ⟨c.val - 7, by omega⟩ m

/-- Channel `o` of the linear image of position `m`'s features. -/
def lin (b : Fin 4) (o : Fin 16) (m : Fin 1048576) : EReal :=
  (∑ c : Fin 10, w o c * feat e g b c m) + bi o

/-- Channel `o` of position `m` normalised with mean `mu` and variance `va`, scaled by `ga`, shifted by
    `be`, cut below at zero. -/
def normed (mu va ga be : Fin 16 → EReal) (b : Fin 4) (o : Fin 16) (m : Fin 1048576) : EReal :=
  max ((lin e g w bi b o m - mu o) * Ideal.rsqrt (va o + Ideal.ofBits .f32 0x358637BD#32) * ga o + be o) 0

/-- What the normalising pass writes at (batch, channel, position): the gathered features `f` in
    channels 0–15, the normalised channels in 16–31. -/
def outFlat (f : Fin 4 → Fin 16 → Fin 1048576 → EReal) (mu va ga be : Fin 16 → EReal)
    (b : Fin 4) (ch : Fin 32) (m : Fin 1048576) : EReal :=
  if h : ch.val < 16 then f b ⟨ch.val, h⟩ m
  else normed e g w bi mu va ga be b ⟨ch.val - 16, by omega⟩ m

end Cert.KSpec

end
-- ==== Proof.KBridge.lean ====
import proofs.«162062_j44212393345653_2_alg».proof.Proof.Spec
import proofs.«162062_j44212393345653_2_alg».proof.Proof.KSpec
import Mathlib.Algebra.BigOperators.Fin
import Mathlib.Logic.Equiv.Fin.Basic

/-!
# Flat positions are (point, neighbour) pairs

The kernel programs index a (point, neighbour) pair by its flat position `16 · n + k`.  When the
flat arrays hold, at that position, the point's coordinates, its `k`-th neighbour's coordinates and
that neighbour's features, the kernel's arithmetic at the position is the specification's at the
pair; and a sum over all 1048576 positions of a batch is the sum over the 65536 · 16 pairs.  So
the mean and the variance the kernel programs form from their accumulated sums are the
specification's `mean` and `varSq`, and what the normalising pass writes is `out` read with `varSq`.
No finiteness is used: sums over the extended reals may be re-indexed freely.
-/

noncomputable section

namespace Cert.KBridge

open Idealize.ShloMosaic

/-- The flat position of neighbour `k` of point `n`. -/
def flat (n : Fin 65536) (k : Fin 16) : Fin 1048576 := ⟨16 * n.val + k.val, by omega⟩

/-- Positions and pairs correspond one to one. -/
def pairs : Fin 65536 × Fin 16 ≃ Fin 1048576 where
  toFun p := flat p.1 p.2
  invFun m := (⟨m.val / 16, by omega⟩, ⟨m.val % 16, by omega⟩)
  left_inv p := by
    obtain ⟨n, k⟩ := p
    simp only [flat]
    refine Prod.ext (Fin.ext ?_) (Fin.ext ?_) <;> simp only <;> omega
  right_inv m := by
    simp only [flat]
    exact Fin.ext (by simp only; omega)

/-- A sum over batches and flat positions is the sum over (batch, point, neighbour) triples. -/
theorem sum_flat {M : Type*} [AddCommMonoid M] (f : Fin 4 → Fin 1048576 → M) :
    (∑ b : Fin 4, ∑ m : Fin 1048576, f b m) = ∑ p : Fin 4 × Fin 65536 × Fin 16, f p.1 (flat p.2.1 p.2.2) := by
  rw [Fintype.sum_prod_type]
  refine Finset.sum_congr rfl fun b _ => ?_
  exact (Fintype.sum_equiv pairs (fun p => f b (flat p.1 p.2)) (fun m => f b m) fun p => rfl).symm

variable (e g : Fin 4 → Fin 3 → Fin 1048576 → EReal) (f : Fin 4 → Fin 16 → Fin 1048576 → EReal)
  (co : Fin 4 → Fin 65536 → Fin 3 → EReal) (fe : Fin 4 → Fin 16 → Fin 65536 → EReal)
  (nb : Fin 4 → Fin 65536 → Fin 16 → Fin 65536)
  (w : Fin 16 → Fin 10 → EReal) (bi ga be : Fin 16 → EReal)
  (he : ∀ b n k d, e b d (flat n k) = co b n d)
  (hg : ∀ b n k d, g b d (flat n k) = co b (nb b n k) d)
  (hf : ∀ b o n k, f b o (flat n k) = fe b o (nb b n k))

include he hg in
theorem feat_eq (b : Fin 4) (n : Fin 65536) (k : Fin 16) (c : Fin 10) :
    Cert.KSpec.feat e g b c (flat n k) = Cert.Spec.feat co nb b n k c := by
  unfold Cert.KSpec.feat Cert.Spec.feat Cert.Spec.dist Cert.Spec.rel
  simp only [he, hg]

include he hg in
theorem lin_eq (b : Fin 4) (n : Fin 65536) (k : Fin 16) (o : Fin 16) :
    Cert.KSpec.lin e g w bi b o (flat n k) = Cert.Spec.x co nb w bi b n k o := by
  unfold Cert.KSpec.lin Cert.Spec.x
  simp only [feat_eq e g co nb he hg]

/-- The mean the kernel programs form from the accumulated sums. -/
def kMean (o : Fin 16) : EReal :=
  Ideal.div (∑ b : Fin 4, ∑ m : Fin 1048576, Cert.KSpec.lin e g w bi b o m) Cert.Spec.cnt

/-- The variance the kernel programs form from the accumulated sums of squares. -/
def kVar (o : Fin 16) : EReal :=
  max (Ideal.div (∑ b : Fin 4, ∑ m : Fin 1048576, Cert.KSpec.lin e g w bi b o m * Cert.KSpec.lin e g w bi b o m) Cert.Spec.cnt
    - kMean e g w bi o * kMean e g w bi o) 0

include he hg in
theorem kMean_eq (o : Fin 16) : kMean e g w bi o = Cert.Spec.mean co nb w bi o := by
  unfold kMean Cert.Spec.mean
  rw [sum_flat]
  simp only [lin_eq e g co nb w bi he hg]

include he hg in
theorem kVar_eq (o : Fin 16) : kVar e g w bi o = Cert.Spec.varSq co nb w bi o := by
  unfold kVar Cert.Spec.varSq
  rw [kMean_eq e g co nb w bi he hg, sum_flat]
  simp only [lin_eq e g co nb w bi he hg]

include he hg hf in
/-- What the normalising pass writes at a pair's flat position is the specification read with `varSq`. -/
theorem outFlat_eq (b : Fin 4) (ch : Fin 32) (n : Fin 65536) (k : Fin 16) :
    Cert.KSpec.outFlat e g w bi f (kMean e g w bi) (kVar e g w bi) ga be b ch (flat n k)
      = Cert.Spec.out co fe nb w bi ga be (Cert.Spec.varSq co nb w bi) b ch n k := by
  unfold Cert.KSpec.outFlat Cert.Spec.out Cert.KSpec.normed Cert.Spec.norm
  simp only [hf, lin_eq e g co nb w bi he hg, kMean_eq e g co nb w bi he hg, kVar_eq e g co nb w bi he hg]

end Cert.KBridge

end
-- ==== Proof.KernelIdeal.Value.lean ====
import proofs.«162062_j44212393345653_2_alg».proof.Proof.KernelIdeal.Frame
import proofs.«162062_j44212393345653_2_alg».proof.Proof.KernelIdeal.HostGlue
import proofs.«162062_j44212393345653_2_alg».proof.Proof.KBridge

/-!
# What the kernel program's result holds

Read at (batch, channel, point, neighbour), the result buffer at the end of the run is the
specification's `out`, with the variance read as the mean of the squares less the squared mean cut
below at zero.  The chain: the last reshape regroups flat positions as (point, neighbour); the
normalising pass writes, at a flat position, the gathered features and the normalised channels of
its input arrays; of those, the coordinates, neighbour coordinates, features, weights, bias, scale
and shift are what the first host stretch laid out from the arguments (no later stretch changes
them), and the mean and variance are what the second host stretch forms from the two arrays of
sums the accumulating pass leaves — each the sum over a batch's flat positions of the linear image,
or of its square.  What each pass leaves in its output arrays is taken here as a hypothesis.
-/

set_option maxRecDepth 16384

noncomputable section

namespace Cert.KernelIdeal.Val

open Idealize.ShloMosaic Idealize.ShloMosaic.TcCoe Idealize.ShloMosaic.ValueIdx Idealize.ShloMosaic.StableHlo
open Idealize.SL Idealize.SL.Sem
open Idealize.ShloMosaic.Pipeline (Dat Cfg)
open Cert.KernelIdeal Cert.KernelIdeal.Gen Cert.KernelIdeal.Hand Cert.KernelIdeal.Glue Cert.KBridge

variable (aft0 : Aft Ideal cfg0) (inv0 : Inv Ideal cfg0) (aft1 : Aft Ideal cfg1) (inv1 : Inv Ideal cfg1)
variable (m : (ℓ : Loc nD τ sig) → Buf (Elt Ideal) ℓ) (c : Dev nD)

/-! ## The arguments as functions of coordinates -/

def co (b : Fin 4) (n : Fin 65536) (d : Fin 3) : EReal :=
  (W0 m c (Proc.devRef .tc main_arg0) : S4x65536x3.Idx → EReal) (ix3 b n d)
def fe (b : Fin 4) (o : Fin 16) (n : Fin 65536) : EReal :=
  (W0 m c (Proc.devRef .tc main_arg1) : S4x16x65536x1.Idx → EReal) (ix4 b o n (0 : Fin 1))
def nb : Fin 4 → Fin 65536 → Fin 16 → Fin 65536 :=
  Cert.Neighbour.nbOf (W0 m c (Proc.devRef .tc main_arg2))
def wt (o : Fin 16) (k : Fin 10) : EReal := (W0 m c (Proc.devRef .tc main_arg3) : S16x10.Idx → EReal) (ix2 o k)
def bi (o : Fin 16) : EReal := (W0 m c (Proc.devRef .tc main_arg4) : S16.Idx → EReal) (ix1 o)
def ga (o : Fin 16) : EReal := (W0 m c (Proc.devRef .tc main_arg5) : S16.Idx → EReal) (ix1 o)
def be (o : Fin 16) : EReal := (W0 m c (Proc.devRef .tc main_arg6) : S16.Idx → EReal) (ix1 o)

/-! ## The flat arrays the first host stretch lays out -/

def eF (b : Fin 4) (d : Fin 3) (p : Fin 1048576) : EReal :=
  (W1 m c (Proc.devRef .tc main_v11) : S4x3x1048576.Idx → EReal) (ix3 b d p)
def gF (b : Fin 4) (d : Fin 3) (p : Fin 1048576) : EReal :=
  (W1 m c (Proc.devRef .tc main_v9) : S4x3x1048576.Idx → EReal) (ix3 b d p)
def fF (b : Fin 4) (o : Fin 16) (p : Fin 1048576) : EReal :=
  (W1 m c (Proc.devRef .tc main_v18) : S4x16x1048576.Idx → EReal) (ix3 b o p)
def wF (o : Fin 16) (k : Fin 10) : EReal := (W1 m c (Proc.devRef .tc main_arg3) : S16x10.Idx → EReal) (ix2 o k)
def biF (o : Fin 16) : EReal := (W1 m c (Proc.devRef .tc main_v19) : S16x1.Idx → EReal) (ix2 o (0 : Fin 1))
def gaF (o : Fin 16) : EReal := (W1 m c (Proc.devRef .tc main_v20) : S16x1.Idx → EReal) (ix2 o (0 : Fin 1))
def beF (o : Fin 16) : EReal := (W1 m c (Proc.devRef .tc main_v21) : S16x1.Idx → EReal) (ix2 o (0 : Fin 1))

theorem point_of_flat (n : Fin 65536) (k : Fin 16) (h : (flat n k).val / 16 < 65536) :
    (⟨(flat n k).val / 16, h⟩ : Fin 65536) = n := Fin.ext (by simp only [flat]; omega)
theorem nbr_of_flat (n : Fin 65536) (k : Fin 16) (h : (flat n k).val % 16 < 16) :
    (⟨(flat n k).val % 16, h⟩ : Fin 16) = k := Fin.ext (by simp only [flat]; omega)

theorem wF_eq : wF m c = wt m c := by
  funext o k; unfold wF wt; rw [show W1 m c = StableHlo.after (hostOps0 (F := Ideal)) (W0 m c) from rfl, glue0_keep]
theorem biF_eq : biF m c = bi m c := by
  funext o; unfold biF bi; exact glue0_bias (W0 m c) o
theorem gaF_eq : gaF m c = ga m c := by
  funext o; unfold gaF ga; exact glue0_gamma (W0 m c) o
theorem beF_eq : beF m c = be m c := by
  funext o; unfold beF be; exact glue0_beta (W0 m c) o

theorem eF_flat (b : Fin 4) (n : Fin 65536) (k : Fin 16) (d : Fin 3) : eF m c b d (flat n k) = co m c b n d := by
  unfold eF co
  rw [show W1 m c = StableHlo.after (hostOps0 (F := Ideal)) (W0 m c) from rfl, glue0_ext, point_of_flat]
theorem gF_flat (b : Fin 4) (n : Fin 65536) (k : Fin 16) (d : Fin 3) :
    gF m c b d (flat n k) = co m c b (nb m c b n k) d := by
  unfold gF co nb
  rw [show W1 m c = StableHlo.after (hostOps0 (F := Ideal)) (W0 m c) from rfl, glue0_nbr, point_of_flat, nbr_of_flat]
theorem fF_flat (b : Fin 4) (o : Fin 16) (n : Fin 65536) (k : Fin 16) :
    fF m c b o (flat n k) = fe m c b o (nb m c b n k) := by
  unfold fF fe nb
  rw [show W1 m c = StableHlo.after (hostOps0 (F := Ideal)) (W0 m c) from rfl, glue0_feat, point_of_flat, nbr_of_flat]

/-! ## Nothing between the first host stretch and the normalising pass changes those arrays -/

/-- An input array of the accumulating pass that the second host stretch does not write. -/
theorem at3_input (w : Fin cfg0.W) (hw : (cfg0.win w).isOut = false) (h1 : Pipeline.arrRef spec0 w ∉ hostOps1_W) :
    W3 aft0 inv0 m c (Proc.devRef .tc (Pipeline.arrRef spec0 w)) = W1 m c (Proc.devRef .tc (Pipeline.arrRef spec0 w)) :=
  (glue1_keep (W2 aft0 inv0 m c) _ h1).trans (pass0_input aft0 inv0 m c w hw)
/-- A buffer that is no array of the accumulating pass and that the second host stretch does not write. -/
theorem at3_other (r : Ref sig .tc) (h0 : ∀ w, Pipeline.arrRef spec0 w ≠ r) (h1 : r ∉ hostOps1_W) :
    W3 aft0 inv0 m c (Proc.devRef .tc r) = W1 m c (Proc.devRef .tc r) :=
  (glue1_keep (W2 aft0 inv0 m c) r h1).trans (pass0_other aft0 inv0 m c r h0)

/-! ## The result -/

/-- What the two passes leave in their output arrays, in the words of the flat arithmetic. -/
structure Leaves : Prop where
  sums : ∀ (b : Fin 4) (o : Fin 16),
    ((pass0 aft0 inv0 (E1 m) c).arrAt 4 cfg0.N : S4x16x1.Idx → EReal) (ix3 b o (0 : Fin 1))
      = ∑ p : Fin 1048576, Cert.KSpec.lin (eF m c) (gF m c) (wF m c) (biF m c) b o p
  squares : ∀ (b : Fin 4) (o : Fin 16),
    ((pass0 aft0 inv0 (E1 m) c).arrAt 5 cfg0.N : S4x16x1.Idx → EReal) (ix3 b o (0 : Fin 1))
      = ∑ p : Fin 1048576, Cert.KSpec.lin (eF m c) (gF m c) (wF m c) (biF m c) b o p
          * Cert.KSpec.lin (eF m c) (gF m c) (wF m c) (biF m c) b o p
  normed : ∀ (b : Fin 4) (ch : Fin 32) (p : Fin 1048576),
    ((pass1 aft1 inv1 (E3 aft0 inv0 m) c).arrAt 9 cfg1.N : S4x32x1048576.Idx → EReal) (ix3 b ch p)
      = Cert.KSpec.outFlat
          (fun b d p => (W3 aft0 inv0 m c (Proc.devRef .tc main_v11) : S4x3x1048576.Idx → EReal) (ix3 b d p))
          (fun b d p => (W3 aft0 inv0 m c (Proc.devRef .tc main_v9) : S4x3x1048576.Idx → EReal) (ix3 b d p))
          (fun o k => (W3 aft0 inv0 m c (Proc.devRef .tc main_arg3) : S16x10.Idx → EReal) (ix2 o k))
          (fun o => (W3 aft0 inv0 m c (Proc.devRef .tc main_v19) : S16x1.Idx → EReal) (ix2 o (0 : Fin 1)))
          (fun b o p => (W3 aft0 inv0 m c (Proc.devRef .tc main_v18) : S4x16x1048576.Idx → EReal) (ix3 b o p))
          (fun o => (W3 aft0 inv0 m c (Proc.devRef .tc main_v26) : S16x1.Idx → EReal) (ix2 o (0 : Fin 1)))
          (fun o => (W3 aft0 inv0 m c (Proc.devRef .tc main_v32) : S16x1.Idx → EReal) (ix2 o (0 : Fin 1)))
          (fun o => (W3 aft0 inv0 m c (Proc.devRef .tc main_v20) : S16x1.Idx → EReal) (ix2 o (0 : Fin 1)))
          (fun o => (W3 aft0 inv0 m c (Proc.devRef .tc main_v21) : S16x1.Idx → EReal) (ix2 o (0 : Fin 1)))
          b ch p

variable (hL : Leaves aft0 inv0 aft1 inv1 m c)

include hL in
/-- The mean the second host stretch forms is the flat arithmetic's. -/
theorem mean_at3 (o : Fin 16) :
    (W3 aft0 inv0 m c (Proc.devRef .tc main_v26) : S16x1.Idx → EReal) (ix2 o (0 : Fin 1))
      = kMean (eF m c) (gF m c) (wF m c) (biF m c) o := by
  rw [show W3 aft0 inv0 m c = StableHlo.after (hostOps1 (F := Ideal)) (W2 aft0 inv0 m c) from rfl, glue1_mean]
  unfold kMean
  refine congrArg (fun s => Ideal.div s Cert.Spec.cnt) ?_
  refine Finset.sum_congr rfl fun b _ => ?_
  rw [show (W2 aft0 inv0 m c (Proc.devRef .tc main_v22_0) : S4x16x1.Idx → EReal)
      = ((pass0 aft0 inv0 (E1 m) c).arrAt 4 cfg0.N : S4x16x1.Idx → EReal) from W2_arr aft0 inv0 m c 4]
  exact hL.sums b o

include hL in
/-- The variance the second host stretch forms is the flat arithmetic's. -/
theorem var_at3 (o : Fin 16) :
    (W3 aft0 inv0 m c (Proc.devRef .tc main_v32) : S16x1.Idx → EReal) (ix2 o (0 : Fin 1))
      = kVar (eF m c) (gF m c) (wF m c) (biF m c) o := by
  rw [show W3 aft0 inv0 m c = StableHlo.after (hostOps1 (F := Ideal)) (W2 aft0 inv0 m c) from rfl, glue1_var]
  unfold kVar kMean
  have h4 : ∀ b : Fin 4, (W2 aft0 inv0 m c (Proc.devRef .tc main_v22_0) : S4x16x1.Idx → EReal) (ix3 b o (0 : Fin 1))
      = ∑ p : Fin 1048576, Cert.KSpec.lin (eF m c) (gF m c) (wF m c) (biF m c) b o p := fun b => by
    rw [show (W2 aft0 inv0 m c (Proc.devRef .tc main_v22_0) : S4x16x1.Idx → EReal)
      = ((pass0 aft0 inv0 (E1 m) c).arrAt 4 cfg0.N : S4x16x1.Idx → EReal) from W2_arr aft0 inv0 m c 4]
    exact hL.sums b o
  have h5 : ∀ b : Fin 4, (W2 aft0 inv0 m c (Proc.devRef .tc main_v22_1) : S4x16x1.Idx → EReal) (ix3 b o (0 : Fin 1))
      = ∑ p : Fin 1048576, Cert.KSpec.lin (eF m c) (gF m c) (wF m c) (biF m c) b o p
          * Cert.KSpec.lin (eF m c) (gF m c) (wF m c) (biF m c) b o p := fun b => by
    rw [show (W2 aft0 inv0 m c (Proc.devRef .tc main_v22_1) : S4x16x1.Idx → EReal)
      = ((pass0 aft0 inv0 (E1 m) c).arrAt 5 cfg0.N : S4x16x1.Idx → EReal) from W2_arr aft0 inv0 m c 5]
    exact hL.squares b o
  simp only [h4, h5]

include hL in
/-- THE RESULT: at (batch, channel, point, neighbour) the result buffer holds the specification's value,
    the variance read as the mean of the squares less the squared mean, cut below at zero. -/
theorem result_at (b : Fin 4) (ch : Fin 32) (n : Fin 65536) (k : Fin 16) :
    (W5 aft0 inv0 aft1 inv1 m c (Proc.devRef .tc main_v34) : S4x32x65536x16.Idx → EReal) (ix4 b ch n k)
      = Cert.Spec.out (co m c) (fe m c) (nb m c) (wt m c) (bi m c) (ga m c) (be m c)
          (Cert.Spec.varSq (co m c) (nb m c) (wt m c) (bi m c)) b ch n k := by
  rw [show W5 aft0 inv0 aft1 inv1 m c = StableHlo.after (hostOps2 (F := Ideal)) (W4 aft0 inv0 aft1 inv1 m c) from rfl,
    glue2_out]
  rw [show (W4 aft0 inv0 aft1 inv1 m c (Proc.devRef .tc main_v33) : S4x32x1048576.Idx → EReal)
      = ((pass1 aft1 inv1 (E3 aft0 inv0 m) c).arrAt 9 cfg1.N : S4x32x1048576.Idx → EReal)
      from W4_arr aft0 inv0 aft1 inv1 m c 9]
  rw [show (⟨16 * n.val + k.val, by omega⟩ : Fin 1048576) = flat n k from rfl, hL.normed]
  have e11 : W3 aft0 inv0 m c (Proc.devRef .tc main_v11) = W1 m c (Proc.devRef .tc main_v11) :=
    at3_input aft0 inv0 m c 0 rfl (by decide)
  have e9 : W3 aft0 inv0 m c (Proc.devRef .tc main_v9) = W1 m c (Proc.devRef .tc main_v9) :=
    at3_input aft0 inv0 m c 1 rfl (by decide)
  have e3 : W3 aft0 inv0 m c (Proc.devRef .tc main_arg3) = W1 m c (Proc.devRef .tc main_arg3) :=
    at3_input aft0 inv0 m c 2 rfl (by decide)
  have e19 : W3 aft0 inv0 m c (Proc.devRef .tc main_v19) = W1 m c (Proc.devRef .tc main_v19) :=
    at3_input aft0 inv0 m c 3 rfl (by decide)
  have e18 : W3 aft0 inv0 m c (Proc.devRef .tc main_v18) = W1 m c (Proc.devRef .tc main_v18) :=
    at3_other aft0 inv0 m c main_v18 (by decide) (by decide)
  have e20 : W3 aft0 inv0 m c (Proc.devRef .tc main_v20) = W1 m c (Proc.devRef .tc main_v20) :=
    at3_other aft0 inv0 m c main_v20 (by decide) (by decide)
  have e21 : W3 aft0 inv0 m c (Proc.devRef .tc main_v21) = W1 m c (Proc.devRef .tc main_v21) :=
    at3_other aft0 inv0 m c main_v21 (by decide) (by decide)
  simp only [e11, e9, e3, e19, e18, e20, e21, mean_at3 aft0 inv0 aft1 inv1 m c hL, var_at3 aft0 inv0 aft1 inv1 m c hL]
  have hout := outFlat_eq (eF m c) (gF m c) (fF m c) (co m c) (fe m c) (nb m c) (wt m c) (bi m c) (ga m c) (be m c)
    (fun b n k d => eF_flat m c b n k d) (fun b n k d => gF_flat m c b n k d) (fun b o n k => fF_flat m c b o n k) b ch n k
  rw [← wF_eq m c, ← biF_eq m c, ← gaF_eq m c, ← beF_eq m c] at hout ⊢
  exact hout

end Cert.KernelIdeal.Val

end
-- ==== Proof.KernelIdeal.Region0.lean ====
import proofs.«162062_j44212393345653_2_alg».proof.Proof.Gen.KernelIdeal.Launch
import proofs.«162062_j44212393345653_2_alg».proof.Proof.Gen.KernelIdeal.Skeleton
import proofs.«162062_j44212393345653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the accumulating pass, at the buffer contents `V` the region is entered with

The kernel of region 0 reads, at each grid point (batch, tile), one tile of the two coordinate arrays, the weights and
the bias column, and adds the tile's per-channel sum of the linear map, and of its square, into two scratch columns it
carries from tile to tile: it zeroes them at tile 0 and copies them into the two output blocks at tile 15. -/

/-! ## Whole-buffer accesses -/

/-- The zero offsets of a rank-2 access, spelt as a vector literal. -/
theorem off0_2 : (![0, 0] : Fin 2 → ℕ) = fun _ => 0 := by funext a; fin_cases a <;> rfl
/-- The zero offsets of a rank-3 access. -/
theorem off0_3 : (![0, 0, 0] : Fin 3 → ℕ) = fun _ => 0 := by funext a; fin_cases a <;> rfl

section Whole

variable {s : Shape} {e : EltTy}

/-- A load of the whole of a whole memref held at the raw contents that read `X` reads `X`. -/
theorem readAt_unread_whole {m : Memref sig .tc .vmem s e} (hm : m.IsWhole) (X : s.Idx → Elt F e)
    {off : Fin s.rank → ℕ} (h : off = fun _ => 0) {inb : ∀ a, off a + s.size a ≤ s.size a} :
    View.readAt (Elt F) m.view (Rect.unit off s.size inb).toLoadRect (hm.unread X) = X := by
  rw [View.readAt_eq_ld, hm.read_unread]; exact View.ld_unit_zero h inb X

/-- One store of the whole shape leaves its payload, whatever the buffer held. -/
theorem read_writes_whole1 (v : View sig .tc .vmem s e) (f : v.ty.Contents (Elt F))
    {off : Fin s.rank → ℕ} (h : off = fun _ => 0) {inb : ∀ a, off a + s.size a ≤ s.size a} (P : s.Idx → Elt F e) :
    v.read (Elt F) (v.writes (Elt F) f [⟨Rect.unit off s.size inb, P⟩]) = P := by
  rw [View.read_writes_eq_canon _ _ _ (fun y => ⟨_, List.mem_singleton_self _, View.mem_set_unit_zero h inb y⟩),
    View.canon_unit_zero h inb]

/-- A last store of the whole shape leaves its payload, whatever was stored before it. -/
theorem read_writes_whole_cons (v : View sig .tc .vmem s e) (f : v.ty.Contents (Elt F))
    {off : Fin s.rank → ℕ} (h : off = fun _ => 0) {inb : ∀ a, off a + s.size a ≤ s.size a} (P : s.Idx → Elt F e)
    (L : List (View.Piece (Elt F) s e)) :
    v.read (Elt F) (v.writes (Elt F) f (⟨Rect.unit off s.size inb, P⟩ :: L)) = P := by
  rw [View.read_writes_eq_canon _ _ _ (fun y => ⟨_, List.mem_cons_self, View.mem_set_unit_zero h inb y⟩),
    View.canon_cons_unit_zero h inb]

end Whole

/-! ## The body's two conditions over the grid -/

/-- The condition of the body's first conditional: the tile coordinate is 0 (the accumulators are reset). -/
abbrev cond0_first (i : grid0.Coords) : Prop :=
  Scalar.cmpi .ne (Scalar.extui (Scalar.cmpi .eq (BitVec.ofNat 32 (i 1).val) 0#32)) 0#32 = 1#1

/-- It holds at the points ≡ 0 (mod 16): decided over the grid. -/
theorem hcond0_first : ∀ t : Fin cfg0.N, cond0_first (grid0.coords t) ↔ t.val % 16 = 0 :=
  (by decide +kernel : ∀ t : Fin grid0.N, cond0_first (grid0.coords t) ↔ t.val % 16 = 0)

/-- The condition of the second conditional (the tile coordinate is 15: the accumulators are copied out) holds at the
    points ≡ 15 (mod 16). -/
theorem hcond0_last : ∀ t : Fin cfg0.N, k0_cond2 (grid0.coords t) = 1#1 ↔ t.val % 16 = 15 :=
  (by decide +kernel : ∀ t : Fin grid0.N, k0_cond2 (grid0.coords t) = 1#1 ↔ t.val % 16 = 15)

/-- Away from tile 15 the two output windows are idle, -/
theorem idleAt0_4 : ∀ t : Fin cfg0.N, t.val % 16 ≠ 15 → cfg0.idle 4 (grid0.coords t) = true :=
  (by decide +kernel : ∀ t : Fin grid0.N, t.val % 16 ≠ 15 → idle0 4 (grid0.coords t) = true)
theorem idleAt0_5 : ∀ t : Fin cfg0.N, t.val % 16 ≠ 15 → cfg0.idle 5 (grid0.coords t) = true :=
  (by decide +kernel : ∀ t : Fin grid0.N, t.val % 16 ≠ 15 → idle0 5 (grid0.coords t) = true)
/-- and not written back; -/
theorem noFlush0_4 (t : Fin cfg0.N) (h : t.val % 16 ≠ 15) : (cfg0.win 4).flush t = false := by
  cases hf : (cfg0.win 4).flush t
  · rfl
  · exact absurd ((flush0_4 t).mp hf) h
theorem noFlush0_5 (t : Fin cfg0.N) (h : t.val % 16 ≠ 15) : (cfg0.win 5).flush t = false := by
  cases hf : (cfg0.win 5).flush t
  · rfl
  · exact absurd ((flush0_5 t).mp hf) h
/-- at tile 15 they are live. -/
theorem liveAt0_4 : ∀ t : Fin cfg0.N, t.val % 16 = 15 → cfg0.idle 4 (grid0.coords t) = false :=
  (by decide +kernel : ∀ t : Fin grid0.N, t.val % 16 = 15 → idle0 4 (grid0.coords t) = false)
theorem liveAt0_5 : ∀ t : Fin cfg0.N, t.val % 16 = 15 → cfg0.idle 5 (grid0.coords t) = false :=
  (by decide +kernel : ∀ t : Fin grid0.N, t.val % 16 = 15 → idle0 5 (grid0.coords t) = false)

/-! ## The body's triple, per case of the two conditions -/

set_option maxHeartbeats 1000000 in
/-- Tile 0: the two accumulators, whatever they held, are zeroed and then take the tile's sums; the outputs' buffers
    are not touched. -/
theorem sound_kernel0_first (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : cond0_first i) (h2 : ¬ k0_cond2 i = 1#1)
    (x0 x1 : Vec F S1x3x65536 .f32) (x2 : Vec F S16x10 .f32) (x3 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay7 x0 x1 x2 x3 k0_pay4)
            ∗ owns (c : Thread nD τ) arg9 fullShare (k0_pay1 (k0_pay8 x0 x1 x2 x3 k0_pay5))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    sl_unfold_run_names
    rw [read_writes_whole_cons _ _ off0_2, View.readCov_unit_zero _ off0_2, readAt_unread_whole harg2 x0 off0_3, readAt_unread_whole harg3 x1 off0_3, readAt_unread_whole harg4 x2 off0_2, readAt_unread_whole harg5 x3 off0_2]
  iexists _; isplitr
  swap; · iexact H9
  ipureintro
  sl_unfold_run_names
  rw [read_writes_whole_cons _ _ off0_2, View.readCov_unit_zero _ off0_2, readAt_unread_whole harg2 x0 off0_3, readAt_unread_whole harg3 x1 off0_3, readAt_unread_whole harg4 x2 off0_2, readAt_unread_whole harg5 x3 off0_2]

set_option maxHeartbeats 1000000 in
/-- A tile strictly between 0 and 15: the accumulators take the tile's sums over what they held; the outputs' buffers
    are not touched. -/
theorem sound_kernel0_mid (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : ¬ cond0_first i) (h2 : ¬ k0_cond2 i = 1#1)
    (x0 x1 : Vec F S1x3x65536 .f32) (x2 : Vec F S16x10 .f32) (x3 : Vec F S16x1 .f32) (s0 s1 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg8 fullShare (k0_pay7 x0 x1 x2 x3 s0)
            ∗ owns (c : Thread nD τ) arg9 fullShare (k0_pay1 (k0_pay8 x0 x1 x2 x3 s1))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    rw [read_writes_whole1 _ _ off0_2, readAt_unread_whole harg2 x0 off0_3, readAt_unread_whole harg3 x1 off0_3, readAt_unread_whole harg4 x2 off0_2, readAt_unread_whole harg5 x3 off0_2, readAt_unread_whole harg8 s0 off0_2]
  iexists _; isplitr
  swap; · iexact H9
  ipureintro
  rw [read_writes_whole1 _ _ off0_2, readAt_unread_whole harg2 x0 off0_3, readAt_unread_whole harg3 x1 off0_3, readAt_unread_whole harg4 x2 off0_2, readAt_unread_whole harg5 x3 off0_2, readAt_unread_whole harg9 s1 off0_2]

set_option maxHeartbeats 1000000 in
/-- Tile 15: the accumulators take the tile's sums over what they held, and each is copied whole into its output's
    buffer, whatever that held. -/
theorem sound_kernel0_last (c : Dev nD) (E : Set ℕ) (i : grid0.Coords)
    (arg2 : Memref sig .tc .vmem S1x3x65536 .f32) (harg2 : arg2.IsWhole) (arg3 : Memref sig .tc .vmem S1x3x65536 .f32) (harg3 : arg3.IsWhole)
    (arg4 : Memref sig .tc .vmem S16x10 .f32) (harg4 : arg4.IsWhole) (arg5 : Memref sig .tc .vmem S16x1 .f32) (harg5 : arg5.IsWhole)
    (arg6 : Memref sig .tc .vmem S1x16x1 .f32) (harg6 : arg6.IsWhole) (arg7 : Memref sig .tc .vmem S1x16x1 .f32) (harg7 : arg7.IsWhole)
    (arg8 : Memref sig .tc .vmem S16x1 .f32) (harg8 : arg8.IsWhole) (arg9 : Memref sig .tc .vmem S16x1 .f32) (harg9 : arg9.IsWhole)
    (h1 : ¬ cond0_first i) (h2 : k0_cond2 i = 1#1)
    (x0 x1 : Vec F S1x3x65536 .f32) (x2 : Vec F S16x10 .f32) (x3 : Vec F S16x1 .f32) (s0 s1 : Vec F S16x1 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay7 x0 x1 x2 x3 s0))
            ∗ owns (c : Thread nD τ) arg7 fullShare (k0_pay3 (k0_pay1 (k0_pay8 x0 x1 x2 x3 s1)))
            ∗ owns (c : Thread nD τ) arg8 fullShare (k0_pay7 x0 x1 x2 x3 s0)
            ∗ owns (c : Thread nD τ) arg9 fullShare (k0_pay1 (k0_pay8 x0 x1 x2 x3 s1))) -∗ K ⟨⟩))
      ⊢ wp frame (wpE (defs₀ (F := F)) Variants.none c none) E
          (cc0__stats_kernel i arg2 harg2 arg3 harg3 arg4 harg4 arg5 harg5 arg6 harg6 arg7 harg7 arg8 harg8 arg9 harg9) K := by
  simp only [cc0__stats_kernel_eq_skeleton]; unfold cc0__stats_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [read_writes_whole1 _ _ off0_3, View.readCov_unit_zero _ off0_2, readAt_unread_whole harg2 x0 off0_3, readAt_unread_whole harg3 x1 off0_3, readAt_unread_whole harg4 x2 off0_2, readAt_unread_whole harg5 x3 off0_2, readAt_unread_whole harg8 s0 off0_2]
  isplitl [H7]
  · iexists _; isplitr
    swap; · iexact H7
    ipureintro
    sl_unfold_run_names
    rw [read_writes_whole1 _ _ off0_3, View.readCov_unit_zero _ off0_2, readAt_unread_whole harg2 x0 off0_3, readAt_unread_whole harg3 x1 off0_3, readAt_unread_whole harg4 x2 off0_2, readAt_unread_whole harg5 x3 off0_2, readAt_unread_whole harg9 s1 off0_2]
  isplitl [H8]
  · iexists _; isplitr
    swap; · iexact H8
    ipureintro
    sl_unfold_run_names
    rw [read_writes_whole1 _ _ off0_2, readAt_unread_whole harg2 x0 off0_3, readAt_unread_whole harg3 x1 off0_3, readAt_unread_whole harg4 x2 off0_2, readAt_unread_whole harg5 x3 off0_2, readAt_unread_whole harg8 s0 off0_2]
  iexists _; isplitr
  swap; · iexact H9
  ipureintro
  sl_unfold_run_names
  rw [read_writes_whole1 _ _ off0_2, readAt_unread_whole harg2 x0 off0_3, readAt_unread_whole harg3 x1 off0_3, readAt_unread_whole harg4 x2 off0_2, readAt_unread_whole harg5 x3 off0_2, readAt_unread_whole harg9 s1 off0_2]

/-! ## The proof data of region 0 -/

section Regions

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- One point's step of the two accumulators: each takes the tile's sum over what it held. -/
def step0 (c : Dev nD) (t : Fin cfg0.N) (s : Vec F S16x1 .f32 × Vec F S16x1 .f32) : Vec F S16x1 .f32 × Vec F S16x1 .f32 :=
  (k0_pay7 (iblk0 V c 0 t) (iblk0 V c 1 t) (iblk0 V c 2 t) (iblk0 V c 3 t) s.1,
   k0_pay1 (k0_pay8 (iblk0 V c 0 t) (iblk0 V c 1 t) (iblk0 V c 2 t) (iblk0 V c 3 t) s.2))

/-- THE ACCUMULATION: what the two scratch columns hold after the body at position `n` — at the first tile of a batch
    the step over the zero columns, else the step over what the point before left. -/
def acc0 (c : Dev nD) : (n : ℕ) → n < cfg0.N → Vec F S16x1 .f32 × Vec F S16x1 .f32
  | 0, hn => step0 V c ⟨0, hn⟩ (k0_pay4, k0_pay5)
  | n + 1, hn =>
    if (n + 1) % 16 = 0 then step0 V c ⟨n + 1, hn⟩ (k0_pay4, k0_pay5)
    else step0 V c ⟨n + 1, hn⟩ (acc0 c n (Nat.lt_of_succ_lt hn))

/-- At the first tile of a batch the accumulators restart from zero. -/
theorem acc0_first (c : Dev nD) (t : Fin cfg0.N) (h : t.val % 16 = 0) :
    acc0 V c t.val t.isLt = step0 V c t (k0_pay4, k0_pay5) := by
  obtain ⟨n, hn⟩ := t
  cases n with
  | zero => rfl
  | succ n => exact if_pos h

/-- At a later tile they continue from the point before. -/
theorem acc0_next (c : Dev nD) (t : Fin cfg0.N) (h : t.val % 16 ≠ 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod 16) h
  | succ n => exact if_neg h

/-- The two scratch columns the kernel carries between points, as memrefs. -/
abbrev sc0 : Memref sig .tc .vmem S16x1 .f32 := Memref.whole cc0_scratch0
abbrev sc1 : Memref sig .tc .vmem S16x1 .f32 := Memref.whole cc0_scratch1

/-- The core's other scoped buffers that are no staging buffer of this region (the other region's staging buffers),
    each whole at some contents: the region does not touch them. -/
def scRest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg9_0), ((c : Thread nD τ).loc cc1_stg9_0) ↦{fullShare} f)
      ∗ (∃ f : Buf (Elt F) ((c : Thread nD τ).loc cc1_stg9_1), ((c : Thread nD τ).loc cc1_stg9_1) ↦{fullShare} f))

/-- The class's invariant with the two scratch columns as memrefs owned at some contents. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ scRest0 (F := F) c) ∗ (∃ r, prngReg c r)) := by
  unfold Pipeline.ΦA scRest0; rw [scopedRest0_eq]; simp only [sc0, sc1, owns_whole]; try rfl

/-- The region's invariant before position `n`: before the first point the class's (every scratch at anything);
    afterwards the two scratch columns at what the point before left in them, the rest as the class holds it. -/
def Phi0 (c : Dev nD) : (n : ℕ) → n ≤ cfg0.N → sProp 𝕄
  | 0, _ => Pipeline.ΦA spec0 c
  | n + 1, hn => iprop((owns (c : Thread nD τ) sc0 fullShare (acc0 V c n hn).1 ∗ owns (c : Thread nD τ) sc1 fullShare (acc0 V c n hn).2 ∗ scRest0 (F := F) c) ∗ (∃ r, prngReg c r))

theorem Phi0_succ (c : Dev nD) (n : ℕ) (hn : n < cfg0.N) :
    Phi0 V c (n + 1) hn = iprop((owns (c : Thread nD τ) sc0 fullShare (acc0 V c n hn).1 ∗ owns (c : Thread nD τ) sc1 fullShare (acc0 V c n hn).2 ∗ scRest0 (F := F) c) ∗ (∃ r, prngReg c r)) := rfl

theorem Phi0_pos (c : Dev nD) (n : ℕ) (h : n ≤ cfg0.N) (hz : n ≠ 0) :
    Phi0 V c n h = iprop((owns (c : Thread nD τ) sc0 fullShare (acc0 V c (n - 1) (by omega)).1 ∗ owns (c : Thread nD τ) sc1 fullShare (acc0 V c (n - 1) (by omega)).2 ∗ scRest0 (F := F) c) ∗ (∃ r, prngReg c r)) := by
  cases n with
  | zero => exact absurd rfl hz
  | succ n => rfl

/-- Before any point the invariant holds the two scratch columns at some contents. -/
theorem Phi0_any (c : Dev nD) (n : ℕ) (h : n ≤ cfg0.N) :
    Phi0 V c n h ⊢ iprop(((∃ d, owns (c : Thread nD τ) sc0 fullShare d) ∗ (∃ d, owns (c : Thread nD τ) sc1 fullShare d) ∗ scRest0 (F := F) c) ∗ (∃ r, prngReg c r)) := by
  cases n with
  | zero => rw [show Phi0 V c 0 h = Pipeline.ΦA spec0 c from rfl, PhiA0_eq]
  | succ n =>
    rw [Phi0_succ]
    iintro ⟨⟨HS0, HS1, HR⟩, Hg⟩
    isplitl [HS0 HS1 HR]
    · isplitl [HS0]; · iexists _; iexact HS0
      isplitl [HS1]; · iexists _; iexact HS1
      iexact HR
    iexact Hg

/-- The proof data of pipeline 0 on core `c`: the arrays as the region finds them (`V`); after the body at point `t`
    each input's buffer at its block, and each output's at the copy of its accumulator (read at the points of tile 15
    only: elsewhere the window is idle and not written back); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (acc0 V c t.val t.isLt).1
    | ⟨5, _⟩ => k0_pay3 (acc0 V c t.val t.isLt).2
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (acc0 V c t.val t.isLt).1 := by dsimp only [dat0]
theorem after0_5 (c : Dev nD) (t : Fin cfg0.N) : (dat0 V c).after 5 t = k0_pay3 (acc0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, show Phi0 V c 0 (Nat.zero_le _) = Pipeline.ΦA spec0 c from rfl]

/-- After the last point the invariant gives the class's back: the accumulators' named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl]
  exact (Phi0_any V c _ _).trans (by rw [PhiA0_eq])

/-! ## The body obligation, at a generic point -/

/-- The input windows are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point: the inputs' memrefs hold their blocks; the closed forms of the two conditions say which of
    the three cases the point is in; the invariant hands the body the two accumulators at what the point before left
    (at anything at a batch's first tile) and takes them back at this point's contents; away from tile 15 the outputs'
    buffers pass through untouched, at tile 15 they come back at the copies of the accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 64 := lt_of_lt_of_eq t.isLt (show cfg0.N = 64 from N_0)
  rw [Phi0_castSucc V c t]
  by_cases h0 : t.val % 16 = 0
  · have h15 : t.val % 16 ≠ 15 := by omega
    have hc1 : cond0_first (grid0.coords t) := (hcond0_first t).mpr h0
    have hc2 : ¬ k0_cond2 (grid0.coords t) = 1#1 := fun h => h15 ((hcond0_last t).mp h)
    rw [Dat.leavesExact_idle (dat0 V c) 4 t (idleAt0_4 t h15) (noFlush0_4 t h15),
      Dat.leavesExact_idle (dat0 V c) 5 t (idleAt0_5 t h15) (noFlush0_5 t h15)]
    rw [acc0_first V c t h0]
    unfold step0; dsimp only
    iintro ⟨HΦ, Ho, ⟨%d0, H0⟩, ⟨%d1, H1⟩, ⟨%d2, H2⟩, ⟨%d3, H3⟩, H4, H5⟩
    ihave HΦ' := (Phi0_any V c t.val (Nat.le_of_lt t.isLt)) $$ HΦ
    icases HΦ' with ⟨⟨HS0, HS1, HR⟩, Hg⟩
    iapply (sound_kernel0_first c Set.univ (grid0.coords t) _ _ _ _ _ _ _ _ _ _ _ _ _ _ _ _ hc1 hc2
      (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun e => h0 (by rw [e])
    have hc1 : ¬ cond0_first (grid0.coords t) := fun h => h0 ((hcond0_first t).mp h)
    rw [Phi0_pos V c _ _ hz, acc0_next V c t h0]
    unfold step0; dsimp only
    by_cases h15 : t.val % 16 = 15
    · have hc2 : k0_cond2 (grid0.coords t) = 1#1 := (hcond0_last t).mpr h15
      rw [show (dat0 V c).leavesExact 4 t = owns (c : Thread nD τ) (st0_4 t) fullShare ((dat0 V c).after 4 t) from by
        unfold Dat.leavesExact; rw [liveAt0_4 t h15], after0_4]
      rw [show (dat0 V c).leavesExact 5 t = owns (c : Thread nD τ) (st0_5 t) fullShare ((dat0 V c).after 5 t) from by
        unfold Dat.leavesExact; rw [liveAt0_5 t h15], after0_5]
      rw [acc0_next V c t h0]
      unfold step0; dsimp only
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (sound_kernel0_last c Set.univ (grid0.coords t) _ _ _ _ _ _ _ _ _ _ _ _ _ _ _ _ hc1 hc2
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k0_cond2 (grid0.coords t) = 1#1 := fun h => h15 ((hcond0_last t).mp h)
      rw [Dat.leavesExact_idle (dat0 V c) 4 t (idleAt0_4 t h15) (noFlush0_4 t h15),
        Dat.leavesExact_idle (dat0 V c) 5 t (idleAt0_5 t h15) (noFlush0_5 t h15)]
      iintro ⟨⟨⟨HS0, HS1, HR⟩, Hg⟩, Ho, ⟨%d0, H0⟩, ⟨%d1, H1⟩, ⟨%d2, H2⟩, ⟨%d3, H3⟩, H4, H5⟩
      iapply (sound_kernel0_mid c Set.univ (grid0.coords t) _ _ _ _ _ _ _ _ _ _ _ _ _ _ _ _ hc1 hc2
        (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KernelIdeal.Region1.lean ====
/- REGION 1 of @main: the normalising pass `cc1__main_kernel` (pipeline 1), at the contents `V` the TensorCore's
   buffers hold when the region is entered.

   The body reads nine whole input blocks — the two coordinate blocks, the gathered feature block, the weights, and the
   five columns (bias, mean, variance, scale, shift) — and stores the whole output block once. So what it leaves in the
   output window's buffer is one closed function of the nine input blocks at the point (`out1_9`), and what it finds in
   an input window's buffer is that window's block at the point, fetched there or not (the six small windows are fetched
   at the first point only; their block index never moves). This module states the blocks (`iblk1`), the body's triple
   (`sound_kernel1`), the proof data (`dat1`) and the body obligation (`body_obligation1`), for any float type. -/
import proofs.«162062_j44212393345653_2_alg».proof.Proof.Gen.KernelIdeal.Launch
import proofs.«162062_j44212393345653_2_alg».proof.Proof.Gen.KernelIdeal.Skeleton
import proofs.«162062_j44212393345653_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for ANY proof data
    whose array is `V`'s (`hA`) and whose body leaves the block in place (`hafter`): an input not fetched at a point
    has the block index of the point before, so the buffer still holds this point's block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole buffer -/

abbrev rCoord : Rect S1x3x65536 := Rect.unit (s := S1x3x65536) ![0, 0, 0] S1x3x65536.size inb_S1x3x65536_S1x3x65536_0_0_0
abbrev rFeat : Rect S1x16x65536 := Rect.unit (s := S1x16x65536) ![0, 0, 0] S1x16x65536.size inb_S1x16x65536_S1x16x65536_0_0_0
abbrev rWeight : Rect S16x10 := Rect.unit (s := S16x10) ![0, 0] S16x10.size inb_S16x10_S16x10_0_0
abbrev rCol : Rect S16x1 := Rect.unit (s := S16x1) ![0, 0] S16x1.size inb_S16x1_S16x1_0_0
abbrev rOut : Rect S1x32x65536 := Rect.unit (s := S1x32x65536) ![0, 0, 0] S1x32x65536.size inb_S1x32x65536_S1x32x65536_0_0_0

/-! ## What the body leaves in the output window's buffer -/

/-- The output window's staging buffer after the body, from the nine input blocks: its one store, of the features
    beside the normalised, scaled, shifted and clamped linear layer of the geometric features. -/
def out1_9 (x0 x1 : Vec F S1x3x65536 .f32) (x2 : Vec F S1x16x65536 .f32) (x3 : Vec F S16x10 .f32) (x4 x5 x6 x7 x8 : Vec F S16x1 .f32) : Vec F S1x32x65536 .f32 :=
  View.canon [⟨rOut, k1_pay1 (k1_pay2 (View.ld x2 rFeat))
    (k1_pay3 (View.ld x0 rCoord) (View.ld x1 rCoord) (View.ld x3 rWeight) (View.ld x4 rCol) (View.ld x5 rCol) (View.ld x6 rCol) (View.ld x7 rCol))
    (View.ld x8 rCol)⟩]

/-- The one store is of the whole buffer, so it covers it. -/
theorem cover1_9 (p0 : Vec F S1x32x65536 .f32) (y : S1x32x65536.Idx) :
    ∃ pc ∈ ([⟨rOut, p0⟩] : List (View.Piece (Elt F) S1x32x65536 .f32)), y ∈ pc.1.set :=
  View.cover_of_tiled [⟨rOut, p0⟩] S1x32x65536.size (by rfl) y

/-! ## The body's triple -/

set_option maxHeartbeats 1000000 in
/-- The kernel body on whole staging memrefs, the inputs' at read contents `xW` and the output's at anything, runs to the
    continuation holding the inputs' as they were and the output's at `out1_9` of the inputs'. -/
theorem sound_kernel1 (c : Dev nD) (E : Set ℕ) (i : grid1.Coords) (arg2 : Memref sig .tc .vmem S1x3x65536 .f32) (harg2 : arg2.IsWhole) (arg3 : Memref sig .tc .vmem S1x3x65536 .f32) (harg3 : arg3.IsWhole) (arg4 : Memref sig .tc .vmem S1x16x65536 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1x32x65536 .f32) (harg11 : arg11.IsWhole)
    (x0 x1 : Vec F S1x3x65536 .f32) (x2 : Vec F S1x16x65536 .f32) (x3 : Vec F S16x10 .f32) (x4 x5 x6 x7 x8 : Vec F S16x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out1_9 x0 x1 x2 x3 x4 x5 x6 x7 x8)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-! Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Passes.lean ====
import proofs.«162062_j44212393345653_2_alg».proof.Proof.KernelIdeal.Region0
import proofs.«162062_j44212393345653_2_alg».proof.Proof.KernelIdeal.Region1
import proofs.«162062_j44212393345653_2_alg».proof.Proof.KernelIdeal.Frame

/-!
# The two passes plugged into the run

The accumulating pass keeps, between tiles, its two running sums in scratch; the normalising pass
keeps nothing.  Each pass's record of what its body leaves and of the invariant it keeps is handed
to the run, which asks only that the invariant starts from and ends in the buffers no window stages
(with the generator register) and that the body meets its obligation at every tile.
-/

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg BodyObligation)
open Cert.KernelIdeal Cert.KernelIdeal.Gen

variable {F : FTy → Type} [FloatOps F]

/-- What the accumulating pass's body leaves in each staging buffer at each tile. -/
def leaves0 : Aft F cfg0 := fun V c => (dat0 V c).after
/-- The invariant the accumulating pass keeps: its two running sums in scratch. -/
def keeps0 : Inv F cfg0 := fun V c => (dat0 V c).Φ
/-- What the normalising pass's body leaves in each staging buffer at each tile. -/
def leaves1 : Aft F cfg1 := fun V c => (dat1 V c).after
/-- The invariant the normalising pass keeps: nothing of its own. -/
def keeps1 : Inv F cfg1 := fun V c => (dat1 V c).Φ

/-- The run's record of the accumulating pass is the pass's own. -/
theorem pass0_is (V : Entry F) (c : Dev nD) : pass0 leaves0 keeps0 V c = dat0 V c := rfl
/-- The run's record of the normalising pass is the pass's own. -/
theorem pass1_is (V : Entry F) (c : Dev nD) : pass1 leaves1 keeps1 V c = dat1 V c := rfl

theorem passes : Passes (F := F) leaves0 keeps0 leaves1 keeps1 where
  in0 V c := hin0 V c
  out0 V c := hout0 V c
  body0 V c := body_obligation0 V c
  in1 V c := .rfl
  out1 V c := .rfl
  body1 V c := body_obligation1 V c

variable (m : (ℓ : Loc nD τ sig) → Buf (Elt F) ℓ)

/-- The program runs to the end and leaves its argument arrays unchanged, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_passes leaves0 keeps0 leaves1 keeps1 m passes ρ

end Cert.KernelIdeal.Hand

end
-- ==== Proof.LibTiles.lean ====
import Mathlib.Algebra.BigOperators.Fin
import Mathlib.Logic.Equiv.Fin.Basic
import Mathlib.Data.Fintype.BigOperators

/-!
# A sum over 1048576 positions as 16 tiles of 65536 lanes

Position `65536 · j + l` is lane `l` of tile `j`; positions and (tile, lane) pairs correspond one to
one, so a sum over all positions, in any additive commutative monoid, is the sum over the tiles of
the sums over a tile's lanes; and the partial sums over the first tiles add up tile by tile.
-/

namespace Cert.LibTiles

/-- The position of lane `l` of tile `j`. -/
def pos (j : Fin 16) (l : Fin 65536) : Fin 1048576 := ⟨65536 * j.val + l.val, by omega⟩

/-- Positions and (tile, lane) pairs correspond one to one. -/
def tiles : Fin 16 × Fin 65536 ≃ Fin 1048576 where
  toFun p := pos p.1 p.2
  invFun m := (⟨m.val / 65536, by omega⟩, ⟨m.val % 65536, by omega⟩)
  left_inv p := by
    obtain ⟨j, l⟩ := p
    simp only [pos]
    refine Prod.ext (Fin.ext ?_) (Fin.ext ?_) <;> simp only <;> omega
  right_inv m := by
    simp only [pos]
    exact Fin.ext (by simp only; omega)

/-- A sum over all positions is the sum over the tiles of the sums over the lanes. -/
theorem sum_tiles {M : Type*} [AddCommMonoid M] (f : Fin 1048576 → M) :
    (∑ m : Fin 1048576, f m) = ∑ j : Fin 16, ∑ l : Fin 65536, f (pos j l) := by
  rw [← Fintype.sum_prod_type']
  exact (Fintype.sum_equiv tiles (fun p => f (pos p.1 p.2)) f fun p => rfl).symm

/-- The sum over the first `n + 1` tiles is the sum over the first `n` plus tile `n`'s. -/
theorem sum_range_succ_tiles {M : Type*} [AddCommMonoid M] (t : ℕ → M) (n : ℕ) :
    (∑ j ∈ Finset.range (n + 1), t j) = (∑ j ∈ Finset.range n, t j) + t n :=
  Finset.sum_range_succ t n

/-- The sum over all 16 tiles, as a sum over a range. -/
theorem sum_fin16_eq_range {M : Type*} [AddCommMonoid M] (t : Fin 16 → M) (t' : ℕ → M) (h : ∀ j : Fin 16, t j = t' j.val) :
    (∑ j : Fin 16, t j) = ∑ j ∈ Finset.range 16, t' j := by
  rw [Finset.sum_range]
  exact Finset.sum_congr rfl fun j _ => h j

end Cert.LibTiles
-- ==== Proof.KernelIdeal.Region1Value.lean ====
/- REGION 1 of @main, read at the extended reals: what the normalising pass leaves in its arrays.

   At a point of the grid — batch `t / 16`, tile `t % 16` of the 1048576 flat positions — the body stores one block
   [1, 32, 65536]: channels 0–15 are the gathered features, channels 16–31 the linear layer of the ten geometric features
   (distance, the three differences, the point, the neighbour), centred by the mean, scaled by the inverse root of the
   variance plus a small constant and by the scale column, shifted, and cut below at zero. First that block is read at an
   index, as a function of the nine input blocks at the same position (`pay_apply`); then each input block is read off
   its array where the block sits; the 64 blocks tile the output array, so the array ends as ONE function of the arrays
   the region found (`final1_9`, `arr1_9`). The nine input arrays are never written (`arr1_0` … `arr1_8`). -/
import proofs.«162062_j44212393345653_2_alg».proof.Proof.KernelIdeal.Region1
import proofs.«162062_j44212393345653_2_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The payload read at an index -/

/-- A column [16,1] broadcast along the positions reads its row's one entry. -/
theorem col_apply (x : FVec Ideal S16x1 .f32) (h : S16x1.ShapeCasts S16x1) (h' : S16x1.Broadcasts S16x65536) (o : Fin 16) (q : Fin 65536) :
    broadcastTo S16x65536 (shapeCast S16x1 x h) h' (ix2 o q) = x (ix2 o (0 : Fin 1)) := by
  rw [shapeCast_self]
  exact broadcastTo_apply x h' (ix2 o q) (ix2 o (0 : Fin 1)) fun a => by
    match a with
    | ⟨0, _⟩ => rfl
    | ⟨1, _⟩ => rfl

/-- The sum over the three coordinate rows at one position. -/
theorem lane_sum (v : FVec Ideal S3x65536 .f32) (h : S3x65536.Reduces [0] S65536) (hφ : FKind.Formats .f32)
    (hacc : (0x00000000#32 : BitVec FTy.f32.bits) = FKind.add.neutral .f32 hφ) (q : Fin 65536) :
    multiReduction (F := Ideal) .add [0] S65536 v 0x00000000#32 h hφ hacc (ix1 q) = ∑ d : Fin 3, v (ix2 d q) := by
  refine (Ideal.multiReduction_add_single v 0x00000000#32 h hφ hacc (ix1 q)).trans ?_
  exact Finset.sum_congr rfl fun d _ => congrArg v (by funext a; match a with | ⟨0, _⟩ => rfl | ⟨1, _⟩ => rfl)

theorem sqrt_apply {s : Shape} (v : FVec Ideal s .f32) (i : s.Idx) : sqrt v i = Ideal.sqrt (v i) := rfl
theorem rsqrt_apply {s : Shape} (v : FVec Ideal s .f32) (i : s.Idx) : rsqrt v i = Ideal.rsqrt (v i) := rfl

/-- A column [16,1] broadcast along the positions reads its row's one entry (no cast in front). -/
theorem bcol_apply (x : FVec Ideal S16x1 .f32) (h' : S16x1.Broadcasts S16x65536) (o : Fin 16) (q : Fin 65536) :
    broadcastTo S16x65536 x h' (ix2 o q) = x (ix2 o (0 : Fin 1)) :=
  broadcastTo_apply x h' (ix2 o q) (ix2 o (0 : Fin 1)) fun a => by
    match a with
    | ⟨0, _⟩ => rfl
    | ⟨1, _⟩ => rfl

/-- The block product into a zero accumulator, at one output entry: the sum over the ten features. -/
theorem mm_apply (L : FVec Ideal S16x10 .f32) (R : FVec Ideal S10x65536 .f32) (o : Fin 16) (q : Fin 65536) :
    matmul dot_S16x10_S10x65536_S16x65536_1_0_0_1_n_n none L R (constant (F := Ideal) S16x65536 .f32 0x00000000#32) (ix2 o q)
      = ∑ k : Fin 10, L (ix2 o k) * R (ix2 k q) := by
  refine (Ideal.matmul_constant_zero_apply dot_S16x10_S10x65536_S16x65536_1_0_0_1_n_n none L R (ix2 o q)).trans ?_
  refine ((Equiv.sum_comp (contrEquiv1 dot_S16x10_S10x65536_S16x65536_1_0_0_1_n_n 10 rfl rfl).symm _).symm).trans ?_
  refine Finset.sum_congr rfl fun k _ => ?_
  have hl : (dot_S16x10_S10x65536_S16x65536_1_0_0_1_n_n).lhsIdx (ix2 o q) ((contrEquiv1 dot_S16x10_S10x65536_S16x65536_1_0_0_1_n_n 10 rfl rfl).symm k) = ix2 o k := by
    funext a; apply Fin.ext
    match a with
    | ⟨0, _⟩ => simp [DotDims.lhsIdx, dot_S16x10_S10x65536_S16x65536_1_0_0_1_n_n]; rfl
    | ⟨1, _⟩ => exact ((dot_S16x10_S10x65536_S16x65536_1_0_0_1_n_n).lhsIdx_val_of_single (cl := (1 : Fin 2)) rfl _ _).trans (contrEquiv1_symm_val dot_S16x10_S10x65536_S16x65536_1_0_0_1_n_n 10 rfl rfl k)
  have hr : (dot_S16x10_S10x65536_S16x65536_1_0_0_1_n_n).rhsIdx (ix2 o q) ((contrEquiv1 dot_S16x10_S10x65536_S16x65536_1_0_0_1_n_n 10 rfl rfl).symm k) = ix2 k q := by
    funext a; apply Fin.ext
    match a with
    | ⟨0, _⟩ => exact ((dot_S16x10_S10x65536_S16x65536_1_0_0_1_n_n).rhsIdx_val_of_single (cr := (0 : Fin 2)) rfl _ _).trans (contrEquiv1_symm_val dot_S16x10_S10x65536_S16x65536_1_0_0_1_n_n 10 rfl rfl k)
    | ⟨1, _⟩ => simp [DotDims.rhsIdx, dot_S16x10_S10x65536_S16x65536_1_0_0_1_n_n]; rfl
  rw [hl, hr]

section Payload
variable (x0 x1 : Vec Ideal S1x3x65536 .f32) (x2 : Vec Ideal S1x16x65536 .f32) (x3 : Vec Ideal S16x10 .f32)
  (x4 x5 x6 x7 x8 : Vec Ideal S16x1 .f32)

/-- The coordinate differences, one row per axis. -/
def dcoord : FVec Ideal S3x65536 .f32 :=
  subf (shapeCast S3x65536 x0 shapeCasts_S1x3x65536_S3x65536) (shapeCast S3x65536 x1 shapeCasts_S1x3x65536_S3x65536)

theorem dcoord_apply (d : Fin 3) (q : Fin 65536) :
    dcoord x0 x1 (ix2 d q) = x0 (ix3 (0 : Fin 1) d q) - x1 (ix3 (0 : Fin 1) d q) := by
  unfold dcoord
  rw [subf_apply, shapeCast_1ab_ab_apply, shapeCast_1ab_ab_apply]

/-- The distance row: the root of the sum of the squared differences. -/
def dist : FVec Ideal S1x65536 .f32 :=
  sqrt (shapeCast S1x65536 (multiReduction (F := Ideal) .add [0] S65536 (mulf (dcoord x0 x1) (dcoord x0 x1)) 0x00000000#32
    reduces_S3x65536_S65536 (.inl rfl) rfl) shapeCasts_S65536_S1x65536)

theorem dist_apply (u : Fin 1) (q : Fin 65536) :
    dist x0 x1 (ix2 u q)
      = Ideal.sqrt (∑ d : Fin 3, (x0 (ix3 (0 : Fin 1) d q) - x1 (ix3 (0 : Fin 1) d q)) * (x0 (ix3 (0 : Fin 1) d q) - x1 (ix3 (0 : Fin 1) d q))) := by
  unfold dist
  refine (sqrt_apply _ _).trans (congrArg Ideal.sqrt ?_)
  refine (shapeCast_a_1a_apply _ _ u q).trans ?_
  refine (lane_sum _ _ _ _ q).trans ?_
  exact Finset.sum_congr rfl fun d _ => by rw [mulf_apply, dcoord_apply]

/-- The ten feature rows: the distance, the three differences, the point, the neighbour. -/
def featv : FVec Ideal S10x65536 .f32 :=
  concatenate S10x65536 0 [⟨S1x65536, dist x0 x1⟩, ⟨S3x65536, dcoord x0 x1⟩,
    ⟨S3x65536, shapeCast S3x65536 x0 shapeCasts_S1x3x65536_S3x65536⟩, ⟨S3x65536, shapeCast S3x65536 x1 shapeCasts_S1x3x65536_S3x65536⟩]
    concatenates_S1x65536_S3x65536_S3x65536_S3x65536_S10x65536_d0

variable (e g : Fin 4 → Fin 3 → Fin 1048576 → EReal) (w : Fin 16 → Fin 10 → EReal) (bi mu va ga be : Fin 16 → EReal)
  (f : Fin 4 → Fin 16 → Fin 1048576 → EReal) (b : Fin 4) (m : Fin 1048576) (q : Fin 65536)

/-- The feature rows at a position of the block are the features of the array position it sits at. -/
theorem featv_apply (h0 : ∀ d : Fin 3, x0 (ix3 (0 : Fin 1) d q) = e b d m) (h1 : ∀ d : Fin 3, x1 (ix3 (0 : Fin 1) d q) = g b d m)
    (k : Fin 10) : featv x0 x1 (ix2 k q) = Cert.KSpec.feat e g b k m := by
  have hk : k.val < 10 := k.isLt
  unfold featv Cert.KSpec.feat
  by_cases hk0 : k.val = 0
  · rw [if_pos hk0]
    refine (concatenate_apply_piece _ _ _ (ix2 k q) 0 (by show (0 : ℕ) < 4; omega) S1x65536 (dist x0 x1) rfl rfl 0 rfl (ix2 (0 : Fin 1) q) ?_ ?_).trans ?_
    · intro a ha
      match a with
      | ⟨0, _⟩ => exact absurd rfl ha
      | ⟨1, _⟩ => rfl
    · show 0 + 0 = k.val; omega
    · rw [dist_apply]; simp only [h0, h1]
  · rw [if_neg hk0]
    by_cases hk4 : k.val < 4
    · rw [dif_pos hk4]
      refine (concatenate_apply_piece _ _ _ (ix2 k q) 1 (by show (1 : ℕ) < 4; omega) S3x65536 (dcoord x0 x1) rfl rfl 1 rfl (ix2 (⟨k.val - 1, by omega⟩ : Fin 3) q) ?_ ?_).trans ?_
      · intro a ha
        match a with
        | ⟨0, _⟩ => exact absurd rfl ha
        | ⟨1, _⟩ => rfl
      · show 1 + (k.val - 1) = k.val; omega
      · rw [dcoord_apply, h0, h1]
    · rw [dif_neg hk4]
      by_cases hk7 : k.val < 7
      · rw [dif_pos hk7]
        refine (concatenate_apply_piece _ _ _ (ix2 k q) 2 (by show (2 : ℕ) < 4; omega) S3x65536 (shapeCast S3x65536 x0 shapeCasts_S1x3x65536_S3x65536) rfl rfl 4 rfl (ix2 (⟨k.val - 4, by omega⟩ : Fin 3) q) ?_ ?_).trans ?_
        · intro a ha
          match a with
          | ⟨0, _⟩ => exact absurd rfl ha
          | ⟨1, _⟩ => rfl
        · show 4 + (k.val - 4) = k.val; omega
        · rw [shapeCast_1ab_ab_apply, h0]
      · rw [dif_neg hk7]
        refine (concatenate_apply_piece _ _ _ (ix2 k q) 3 (by show (3 : ℕ) < 4; omega) S3x65536 (shapeCast S3x65536 x1 shapeCasts_S1x3x65536_S3x65536) rfl rfl 7 rfl (ix2 (⟨k.val - 7, by omega⟩ : Fin 3) q) ?_ ?_).trans ?_
        · intro a ha
          match a with
          | ⟨0, _⟩ => exact absurd rfl ha
          | ⟨1, _⟩ => rfl
        · show 7 + (k.val - 7) = k.val; omega
        · rw [shapeCast_1ab_ab_apply, h1]

/-- The scaled, normalised linear layer, as the body computes it from the blocks. -/
theorem k1_pay3_eq : k1_pay3 x0 x1 x3 x4 x5 x6 x7
    = mulf (mulf (subf (addf (matmul (φ₁ := .f32) (φ₂ := .f32) dot_S16x10_S10x65536_S16x65536_1_0_0_1_n_n none x3 (featv x0 x1) (constant (F := Ideal) S16x65536 .f32 0x00000000#32))
          (broadcastTo S16x65536 (shapeCast S16x1 x4 shapeCasts_S16x1_S16x1) broadcasts_S16x1_S16x65536))
        (broadcastTo S16x65536 (shapeCast S16x1 x5 shapeCasts_S16x1_S16x1) broadcasts_S16x1_S16x65536))
        (broadcastTo S16x65536 (rsqrt (addf (shapeCast S16x1 x6 shapeCasts_S16x1_S16x1) (broadcast S16x1 (Scalar.ofBits (F := Ideal) .f32 0x358637BD#32)))) broadcasts_S16x1_S16x65536))
      (broadcastTo S16x65536 (shapeCast S16x1 x7 shapeCasts_S16x1_S16x1) broadcasts_S16x1_S16x65536) := rfl

theorem k1_pay3_apply (h0 : ∀ d : Fin 3, x0 (ix3 (0 : Fin 1) d q) = e b d m) (h1 : ∀ d : Fin 3, x1 (ix3 (0 : Fin 1) d q) = g b d m)
    (h3 : ∀ (o : Fin 16) (k : Fin 10), x3 (ix2 o k) = w o k) (h4 : ∀ o : Fin 16, x4 (ix2 o (0 : Fin 1)) = bi o)
    (h5 : ∀ o : Fin 16, x5 (ix2 o (0 : Fin 1)) = mu o) (h6 : ∀ o : Fin 16, x6 (ix2 o (0 : Fin 1)) = va o)
    (h7 : ∀ o : Fin 16, x7 (ix2 o (0 : Fin 1)) = ga o) (o : Fin 16) :
    k1_pay3 x0 x1 x3 x4 x5 x6 x7 (ix2 o q)
      = (Cert.KSpec.lin e g w bi b o m - mu o) * Ideal.rsqrt (va o + Ideal.ofBits .f32 0x358637BD#32) * ga o := by
  rw [k1_pay3_eq, mulf_apply, mulf_apply, subf_apply, addf_apply, mm_apply, col_apply, col_apply, col_apply, bcol_apply,
    rsqrt_apply, addf_apply, shapeCast_self, broadcast_apply, h4, h5, h6, h7]
  unfold Cert.KSpec.lin
  have hs : (∑ k : Fin 10, x3 (ix2 o k) * featv x0 x1 (ix2 k q)) = ∑ c : Fin 10, w o c * Cert.KSpec.feat e g b c m :=
    Finset.sum_congr rfl fun k _ => by rw [h3, featv_apply x0 x1 e g b m q h0 h1 k]
  rw [hs]
  rfl

/-- The stored block: the features beside the clamped, shifted normalised layer, with a unit batch axis in front. -/
theorem k1_pay1_eq (v5 v32 : FVec Ideal S16x65536 .f32) : k1_pay1 v5 v32 x8
    = shapeCast S1x32x65536 (concatenate S32x65536 0 [⟨S16x65536, v5⟩, ⟨S16x65536,
        maximumf (addf v32 (broadcastTo S16x65536 (shapeCast S16x1 x8 shapeCasts_S16x1_S16x1) broadcasts_S16x1_S16x65536))
          (broadcast S16x65536 (Scalar.ofBits (F := Ideal) .f32 0x00000000#32))⟩] concatenates_S16x65536_S16x65536_S32x65536_d0) shapeCasts_S32x65536_S1x32x65536 := rfl

/-- Channels 0–15 of the stored block are the first operand's rows. -/
theorem k1_pay1_apply_lo (v5 v32 : FVec Ideal S16x65536 .f32) (u : Fin 1) (ch : Fin 32) (hch : ch.val < 16) :
    k1_pay1 v5 v32 x8 (ix3 u ch q) = v5 (ix2 (⟨ch.val, hch⟩ : Fin 16) q) := by
  rw [k1_pay1_eq]
  refine (shapeCast_ab_1ab_apply _ _ u ch q).trans ?_
  refine concatenate_pair_apply_left _ _ _ _ (ix2 ch q) (by rfl) (ix2 (⟨ch.val, hch⟩ : Fin 16) q) ?_
  intro a
  match a with
  | ⟨0, _⟩ => rfl
  | ⟨1, _⟩ => rfl

/-- Channels 16–31 are the second operand's rows shifted by the last column and cut below at zero. -/
theorem k1_pay1_apply_hi (v5 v32 : FVec Ideal S16x65536 .f32) (u : Fin 1) (ch : Fin 32) (hch : ¬ ch.val < 16) :
    k1_pay1 v5 v32 x8 (ix3 u ch q)
      = max (v32 (ix2 (⟨ch.val - 16, by omega⟩ : Fin 16) q) + x8 (ix2 (⟨ch.val - 16, by omega⟩ : Fin 16) (0 : Fin 1))) 0 := by
  have hc : ch.val < 32 := ch.isLt
  rw [k1_pay1_eq]
  refine (shapeCast_ab_1ab_apply _ _ u ch q).trans ?_
  refine (concatenate_pair_apply_right _ _ _ _ (ix2 ch q) (by rfl) (by rfl) (ix2 (⟨ch.val - 16, by omega⟩ : Fin 16) q) ?_ ?_).trans ?_
  · intro a ha
    match a with
    | ⟨0, _⟩ => exact absurd rfl ha
    | ⟨1, _⟩ => rfl
  · show (ch.val - 16) + 16 = ch.val; omega
  · rw [maximumf_apply, addf_apply, col_apply, broadcast_apply]
    show max _ (Ideal.ofBits .f32 0x00000000#32) = _
    rw [Ideal.ofBits_zero_f32]

/-- THE STORED BLOCK AT AN INDEX: when the nine blocks hold, at position `q`, the arrays' entries at batch `b` and
    position `m`, the stored entry of channel `ch` is the pass's result there. -/
theorem pay_apply (h0 : ∀ d : Fin 3, x0 (ix3 (0 : Fin 1) d q) = e b d m) (h1 : ∀ d : Fin 3, x1 (ix3 (0 : Fin 1) d q) = g b d m)
    (h2 : ∀ o : Fin 16, x2 (ix3 (0 : Fin 1) o q) = f b o m)
    (h3 : ∀ (o : Fin 16) (k : Fin 10), x3 (ix2 o k) = w o k) (h4 : ∀ o : Fin 16, x4 (ix2 o (0 : Fin 1)) = bi o)
    (h5 : ∀ o : Fin 16, x5 (ix2 o (0 : Fin 1)) = mu o) (h6 : ∀ o : Fin 16, x6 (ix2 o (0 : Fin 1)) = va o)
    (h7 : ∀ o : Fin 16, x7 (ix2 o (0 : Fin 1)) = ga o) (h8 : ∀ o : Fin 16, x8 (ix2 o (0 : Fin 1)) = be o)
    (u : Fin 1) (ch : Fin 32) :
    k1_pay1 (k1_pay2 x2) (k1_pay3 x0 x1 x3 x4 x5 x6 x7) x8 (ix3 u ch q) = Cert.KSpec.outFlat e g w bi f mu va ga be b ch m := by
  unfold Cert.KSpec.outFlat
  by_cases hch : ch.val < 16
  · rw [dif_pos hch, k1_pay1_apply_lo x8 q _ _ u ch hch]
    show shapeCast S16x65536 x2 shapeCasts_S1x16x65536_S16x65536 (ix2 (⟨ch.val, hch⟩ : Fin 16) q) = _
    rw [shapeCast_1ab_ab_apply, h2]
  · rw [dif_neg hch, k1_pay1_apply_hi x8 q _ _ u ch hch,
      k1_pay3_apply x0 x1 x3 x4 x5 x6 x7 e g w bi mu va ga b m q h0 h1 h3 h4 h5 h6 h7, h8]
    rfl

end Payload

/-! # From the blocks to the arrays -/

variable (V : (c : Dev nD) → (b : Ref sig .tc) → Buf (Elt Ideal) ((c : Thread nD τ).loc b))

/-! ## The input arrays are as the region found them -/
theorem arr1_0 (c : Dev nD) : (dat1 V c).arrAt 0 cfg1.N = V c (Pipeline.arrRef spec1 0) :=
  ((dat1 V c).arrAt_in 0 rfl _).trans (A_eq1 V c 0)
theorem arr1_1 (c : Dev nD) : (dat1 V c).arrAt 1 cfg1.N = V c (Pipeline.arrRef spec1 1) :=
  ((dat1 V c).arrAt_in 1 rfl _).trans (A_eq1 V c 1)
theorem arr1_2 (c : Dev nD) : (dat1 V c).arrAt 2 cfg1.N = V c (Pipeline.arrRef spec1 2) :=
  ((dat1 V c).arrAt_in 2 rfl _).trans (A_eq1 V c 2)
theorem arr1_3 (c : Dev nD) : (dat1 V c).arrAt 3 cfg1.N = V c (Pipeline.arrRef spec1 3) :=
  ((dat1 V c).arrAt_in 3 rfl _).trans (A_eq1 V c 3)
theorem arr1_4 (c : Dev nD) : (dat1 V c).arrAt 4 cfg1.N = V c (Pipeline.arrRef spec1 4) :=
  ((dat1 V c).arrAt_in 4 rfl _).trans (A_eq1 V c 4)
theorem arr1_5 (c : Dev nD) : (dat1 V c).arrAt 5 cfg1.N = V c (Pipeline.arrRef spec1 5) :=
  ((dat1 V c).arrAt_in 5 rfl _).trans (A_eq1 V c 5)
theorem arr1_6 (c : Dev nD) : (dat1 V c).arrAt 6 cfg1.N = V c (Pipeline.arrRef spec1 6) :=
  ((dat1 V c).arrAt_in 6 rfl _).trans (A_eq1 V c 6)
theorem arr1_7 (c : Dev nD) : (dat1 V c).arrAt 7 cfg1.N = V c (Pipeline.arrRef spec1 7) :=
  ((dat1 V c).arrAt_in 7 rfl _).trans (A_eq1 V c 7)
theorem arr1_8 (c : Dev nD) : (dat1 V c).arrAt 8 cfg1.N = V c (Pipeline.arrRef spec1 8) :=
  ((dat1 V c).arrAt_in 8 rfl _).trans (A_eq1 V c 8)

/-! ## The output array -/

/-- What the pass leaves in the output array, index by index. -/
def outArr (c : Dev nD) : S4x32x1048576.Idx → EReal := fun i =>
  Cert.KSpec.outFlat (fun b d m => V c main_v11 (ix3 b d m)) (fun b d m => V c main_v9 (ix3 b d m)) (fun o k => V c main_arg3 (ix2 o k)) (fun o => V c main_v19 (ix2 o (0 : Fin 1))) (fun b o m => V c main_v18 (ix3 b o m)) (fun o => V c main_v26 (ix2 o (0 : Fin 1))) (fun o => V c main_v32 (ix2 o (0 : Fin 1))) (fun o => V c main_v20 (ix2 o (0 : Fin 1))) (fun o => V c main_v21 (ix2 o (0 : Fin 1))) (i 0) (i 1) (i 2)

/-- Where each window's block sits at point `t`: batch `t / 16`, tile `t % 16` of the positions; the small windows do not move. -/
theorem idx_facts1 : ∀ t : Fin cfg1.N,
    (win1_0.index t (0 : Fin 3) = t.val / 16 ∧ win1_0.index t (1 : Fin 3) = 0 ∧ win1_0.index t (2 : Fin 3) = t.val % 16)
    ∧ (win1_1.index t (0 : Fin 3) = t.val / 16 ∧ win1_1.index t (1 : Fin 3) = 0 ∧ win1_1.index t (2 : Fin 3) = t.val % 16)
    ∧ (win1_2.index t (0 : Fin 3) = t.val / 16 ∧ win1_2.index t (1 : Fin 3) = 0 ∧ win1_2.index t (2 : Fin 3) = t.val % 16)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 3) = t.val / 16 ∧ win1_9.index t (1 : Fin 3) = 0 ∧ win1_9.index t (2 : Fin 3) = t.val % 16) :=
  (by decide +kernel : ∀ t : Fin grid1.N, _)

/-- An index of the output array is in point `t`'s block iff each coordinate is in the block's range on its axis. -/
theorem mem_blk1_9 (t : Fin cfg1.N) (i : S4x32x1048576.Idx) :
    i ∈ ((cfg1.win 9).blk t).view.set ↔ ∀ a : Fin 3, win1_9.index t a * S1x32x65536.size a ≤ (i a).val ∧ (i a).val < win1_9.index t a * S1x32x65536.size a + S1x32x65536.size a := by
  show i ∈ ((View.whole main_v33).slice (win1_9.rect t)).set ↔ _
  rw [View.set_slice_whole, Rect.mem_set_unit]
  exact Iff.rfl

/-- Every index of the output array is in the block of the point of its batch and tile. -/
theorem cover1_9_arr (i : S4x32x1048576.Idx) :
    ∃ t : Fin cfg1.N, (cfg1.win 9).flush t = true ∧ i ∈ ((cfg1.win 9).blk t).view.set := by
  have h0 : (i 0).val < 4 := (i 0).isLt
  have h1 : (i 1).val < 32 := (i 1).isLt
  have h2 : (i 2).val < 1048576 := (i 2).isLt
  have hN : cfg1.N = 64 := N_1
  let t : Fin cfg1.N := ⟨16 * (i 0).val + (i 2).val / 65536, by rw [hN]; omega⟩
  have htv : t.val = 16 * (i 0).val + (i 2).val / 65536 := rfl
  refine ⟨t, flush1_9 t, ?_⟩
  rw [mem_blk1_9]
  obtain ⟨-, -, -, -, -, -, -, -, -, e0, e1, e2⟩ := idx_facts1 t
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 32 ≤ (i 1).val ∧ (i 1).val < win1_9.index t (1 : Fin 3) * 32 + 32; omega
  | ⟨2, _⟩ => show win1_9.index t (2 : Fin 3) * 65536 ≤ (i 2).val ∧ (i 2).val < win1_9.index t (2 : Fin 3) * 65536 + 65536; omega

/-! ## Each input block's entry is its array's entry at the place the block sits -/

theorem hz3 : (![0, 0, 0] : Fin 3 → Nat) = fun _ => 0 := funext fun a => by fin_cases a <;> rfl
theorem hz2 : (![0, 0] : Fin 2 → Nat) = fun _ => 0 := funext fun a => by fin_cases a <;> rfl

theorem iblk1_0_apply (c : Dev nD) (t : Fin cfg1.N) (d : Fin 3) (q : Fin 65536) (b : Fin 4) (m : Fin 1048576)
    (hb : b.val = t.val / 16) (hm : m.val = t.val % 16 * 65536 + q.val) :
    iblk1 V c 0 t (ix3 (0 : Fin 1) d q) = V c main_v11 (ix3 b d m) := by
  obtain ⟨e0, e1, e2⟩ := (idx_facts1 t).1
  show V c main_v11 (((cfg1.win 0).blk t).view.emb (ix3 (0 : Fin 1) d q)) = V c main_v11 (ix3 b d m)
  refine congrArg (V c main_v11) (funext fun a => Fin.ext ?_)
  match a with
  | ⟨0, _⟩ => show win1_0.index t (0 : Fin 3) * 1 + 1 * 0 = b.val; omega
  | ⟨1, _⟩ => show win1_0.index t (1 : Fin 3) * 3 + 1 * d.val = d.val; omega
  | ⟨2, _⟩ => show win1_0.index t (2 : Fin 3) * 65536 + 1 * q.val = m.val; omega

theorem iblk1_1_apply (c : Dev nD) (t : Fin cfg1.N) (d : Fin 3) (q : Fin 65536) (b : Fin 4) (m : Fin 1048576)
    (hb : b.val = t.val / 16) (hm : m.val = t.val % 16 * 65536 + q.val) :
    iblk1 V c 1 t (ix3 (0 : Fin 1) d q) = V c main_v9 (ix3 b d m) := by
  obtain ⟨e0, e1, e2⟩ := (idx_facts1 t).2.1
  show V c main_v9 (((cfg1.win 1).blk t).view.emb (ix3 (0 : Fin 1) d q)) = V c main_v9 (ix3 b d m)
  refine congrArg (V c main_v9) (funext fun a => Fin.ext ?_)
  match a with
  | ⟨0, _⟩ => show win1_1.index t (0 : Fin 3) * 1 + 1 * 0 = b.val; omega
  | ⟨1, _⟩ => show win1_1.index t (1 : Fin 3) * 3 + 1 * d.val = d.val; omega
  | ⟨2, _⟩ => show win1_1.index t (2 : Fin 3) * 65536 + 1 * q.val = m.val; omega

theorem iblk1_2_apply (c : Dev nD) (t : Fin cfg1.N) (d : Fin 16) (q : Fin 65536) (b : Fin 4) (m : Fin 1048576)
    (hb : b.val = t.val / 16) (hm : m.val = t.val % 16 * 65536 + q.val) :
    iblk1 V c 2 t (ix3 (0 : Fin 1) d q) = V c main_v18 (ix3 b d m) := by
  obtain ⟨e0, e1, e2⟩ := (idx_facts1 t).2.2.1
  show V c main_v18 (((cfg1.win 2).blk t).view.emb (ix3 (0 : Fin 1) d q)) = V c main_v18 (ix3 b d m)
  refine congrArg (V c main_v18) (funext fun a => Fin.ext ?_)
  match a with
  | ⟨0, _⟩ => show win1_2.index t (0 : Fin 3) * 1 + 1 * 0 = b.val; omega
  | ⟨1, _⟩ => show win1_2.index t (1 : Fin 3) * 16 + 1 * d.val = d.val; omega
  | ⟨2, _⟩ => show win1_2.index t (2 : Fin 3) * 65536 + 1 * q.val = m.val; omega

theorem iblk1_3_apply (c : Dev nD) (t : Fin cfg1.N) (o : Fin 16) (k : Fin 10) :
    iblk1 V c 3 t (ix2 o k) = V c main_arg3 (ix2 o k) := by
  obtain ⟨e0, e1⟩ := (idx_facts1 t).2.2.2.1
  show V c main_arg3 (((cfg1.win 3).blk t).view.emb (ix2 o k)) = V c main_arg3 (ix2 o k)
  refine congrArg (V c main_arg3) (funext fun a => Fin.ext ?_)
  match a with
  | ⟨0, _⟩ => show win1_3.index t (0 : Fin 2) * 16 + 1 * o.val = o.val; omega
  | ⟨1, _⟩ => show win1_3.index t (1 : Fin 2) * 10 + 1 * k.val = k.val; omega

theorem iblk1_4_apply (c : Dev nD) (t : Fin cfg1.N) (o : Fin 16) (k : Fin 1) :
    iblk1 V c 4 t (ix2 o k) = V c main_v19 (ix2 o k) := by
  obtain ⟨e0, e1⟩ := (idx_facts1 t).2.2.2.2.1
  show V c main_v19 (((cfg1.win 4).blk t).view.emb (ix2 o k)) = V c main_v19 (ix2 o k)
  refine congrArg (V c main_v19) (funext fun a => Fin.ext ?_)
  match a with
  | ⟨0, _⟩ => show win1_4.index t (0 : Fin 2) * 16 + 1 * o.val = o.val; omega
  | ⟨1, _⟩ => show win1_4.index t (1 : Fin 2) * 1 + 1 * k.val = k.val; omega

theorem iblk1_5_apply (c : Dev nD) (t : Fin cfg1.N) (o : Fin 16) (k : Fin 1) :
    iblk1 V c 5 t (ix2 o k) = V c main_v26 (ix2 o k) := by
  obtain ⟨e0, e1⟩ := (idx_facts1 t).2.2.2.2.2.1
  show V c main_v26 (((cfg1.win 5).blk t).view.emb (ix2 o k)) = V c main_v26 (ix2 o k)
  refine congrArg (V c main_v26) (funext fun a => Fin.ext ?_)
  match a with
  | ⟨0, _⟩ => show win1_5.index t (0 : Fin 2) * 16 + 1 * o.val = o.val; omega
  | ⟨1, _⟩ => show win1_5.index t (1 : Fin 2) * 1 + 1 * k.val = k.val; omega

theorem iblk1_6_apply (c : Dev nD) (t : Fin cfg1.N) (o : Fin 16) (k : Fin 1) :
    iblk1 V c 6 t (ix2 o k) = V c main_v32 (ix2 o k) := by
  obtain ⟨e0, e1⟩ := (idx_facts1 t).2.2.2.2.2.2.1
  show V c main_v32 (((cfg1.win 6).blk t).view.emb (ix2 o k)) = V c main_v32 (ix2 o k)
  refine congrArg (V c main_v32) (funext fun a => Fin.ext ?_)
  match a with
  | ⟨0, _⟩ => show win1_6.index t (0 : Fin 2) * 16 + 1 * o.val = o.val; omega
  | ⟨1, _⟩ => show win1_6.index t (1 : Fin 2) * 1 + 1 * k.val = k.val; omega

theorem iblk1_7_apply (c : Dev nD) (t : Fin cfg1.N) (o : Fin 16) (k : Fin 1) :
    iblk1 V c 7 t (ix2 o k) = V c main_v20 (ix2 o k) := by
  obtain ⟨e0, e1⟩ := (idx_facts1 t).2.2.2.2.2.2.2.1
  show V c main_v20 (((cfg1.win 7).blk t).view.emb (ix2 o k)) = V c main_v20 (ix2 o k)
  refine congrArg (V c main_v20) (funext fun a => Fin.ext ?_)
  match a with
  | ⟨0, _⟩ => show win1_7.index t (0 : Fin 2) * 16 + 1 * o.val = o.val; omega
  | ⟨1, _⟩ => show win1_7.index t (1 : Fin 2) * 1 + 1 * k.val = k.val; omega

theorem iblk1_8_apply (c : Dev nD) (t : Fin cfg1.N) (o : Fin 16) (k : Fin 1) :
    iblk1 V c 8 t (ix2 o k) = V c main_v21 (ix2 o k) := by
  obtain ⟨e0, e1⟩ := (idx_facts1 t).2.2.2.2.2.2.2.2.1
  show V c main_v21 (((cfg1.win 8).blk t).view.emb (ix2 o k)) = V c main_v21 (ix2 o k)
  refine congrArg (V c main_v21) (funext fun a => Fin.ext ?_)
  match a with
  | ⟨0, _⟩ => show win1_8.index t (0 : Fin 2) * 16 + 1 * o.val = o.val; omega
  | ⟨1, _⟩ => show win1_8.index t (1 : Fin 2) * 1 + 1 * k.val = k.val; omega

/-! ## What a point writes back, and the array at the end -/

/-- What point `t` writes back is block `t` of `outArr`. -/
theorem flushed1_9_eq (c : Dev nD) (t : Fin cfg1.N) :
    (dat1 V c).flushed 9 t = ((cfg1.win 9).blk t).view.read (Elt Ideal) (outArr V c) := by
  show (cfg1.win 9).cut (grid1.coords t) ((dat1 V c).after 9 t) = _
  rw [after1_9]
  unfold out1_9
  simp only [rOut, rCoord, rFeat, rWeight, rCol]
  rw [View.canon_unit_zero hz3]
  simp only [View.ld_unit_zero (S := S1x3x65536) hz3, View.ld_unit_zero (S := S1x16x65536) hz3,
    View.ld_unit_zero (S := S16x10) hz2, View.ld_unit_zero (S := S16x1) hz2]
  funext j
  obtain ⟨u, ch, q, rfl⟩ : ∃ (u : Fin 1) (ch : Fin 32) (q : Fin 65536), j = ix3 u ch q := ⟨j 0, j 1, j 2, eq_ix3 j⟩
  have hN : cfg1.N = 64 := N_1
  have ht : t.val < 64 := hN ▸ t.isLt
  have hq : q.val < 65536 := q.isLt
  have hu : u.val = 0 := by omega
  obtain ⟨e0, e1, e2⟩ := (idx_facts1 t).2.2.2.2.2.2.2.2.2
  have hemb : ((cfg1.win 9).blk t).view.emb (ix3 u ch q)
      = ix3 (⟨t.val / 16, by omega⟩ : Fin 4) ch (⟨t.val % 16 * 65536 + q.val, by omega⟩ : Fin 1048576) := by
    funext a; apply Fin.ext
    match a with
    | ⟨0, _⟩ => show win1_9.index t (0 : Fin 3) * 1 + 1 * u.val = t.val / 16; omega
    | ⟨1, _⟩ => show win1_9.index t (1 : Fin 3) * 32 + 1 * ch.val = ch.val; omega
    | ⟨2, _⟩ => show win1_9.index t (2 : Fin 3) * 65536 + 1 * q.val = t.val % 16 * 65536 + q.val; omega
  show k1_pay1 (k1_pay2 (iblk1 V c 2 t)) (k1_pay3 (iblk1 V c 0 t) (iblk1 V c 1 t) (iblk1 V c 3 t) (iblk1 V c 4 t) (iblk1 V c 5 t)
        (iblk1 V c 6 t) (iblk1 V c 7 t)) (iblk1 V c 8 t) (ix3 u ch q)
      = outArr V c (((cfg1.win 9).blk t).view.emb (ix3 u ch q))
  rw [hemb]
  exact pay_apply (iblk1 V c 0 t) (iblk1 V c 1 t) (iblk1 V c 2 t) (iblk1 V c 3 t) (iblk1 V c 4 t) (iblk1 V c 5 t) (iblk1 V c 6 t)
    (iblk1 V c 7 t) (iblk1 V c 8 t)
    (fun b d m => V c main_v11 (ix3 b d m)) (fun b d m => V c main_v9 (ix3 b d m)) (fun o k => V c main_arg3 (ix2 o k))
    (fun o => V c main_v19 (ix2 o (0 : Fin 1))) (fun o => V c main_v26 (ix2 o (0 : Fin 1))) (fun o => V c main_v32 (ix2 o (0 : Fin 1)))
    (fun o => V c main_v20 (ix2 o (0 : Fin 1))) (fun o => V c main_v21 (ix2 o (0 : Fin 1))) (fun b o m => V c main_v18 (ix3 b o m))
    ⟨t.val / 16, by omega⟩ ⟨t.val % 16 * 65536 + q.val, by omega⟩ q
    (fun d => iblk1_0_apply V c t d q _ _ rfl rfl) (fun d => iblk1_1_apply V c t d q _ _ rfl rfl)
    (fun o => iblk1_2_apply V c t o q _ _ rfl rfl) (fun o k => iblk1_3_apply V c t o k)
    (fun o => iblk1_4_apply V c t o 0) (fun o => iblk1_5_apply V c t o 0) (fun o => iblk1_6_apply V c t o 0)
    (fun o => iblk1_7_apply V c t o 0) (fun o => iblk1_8_apply V c t o 0) u ch

/-- THE OUTPUT ARRAY after the pass: every index is covered, so it is `outArr` everywhere. -/
theorem final1_9 (c : Dev nD) : (dat1 V c).arrAt 9 cfg1.N = outArr V c :=
  (dat1 V c).arrAt_eq_of_cover 9 (outArr V c) (fun t _ => flushed1_9_eq V c t) (cover1_9_arr)

/-- The same, entry by entry: at (batch, channel, position) the pass's result of the arrays the region found. -/
theorem arr1_9 (c : Dev nD) (b : Fin 4) (ch : Fin 32) (m : Fin 1048576) :
    (dat1 V c).arrAt 9 cfg1.N (ix3 b ch m) = Cert.KSpec.outFlat (fun b d m => V c main_v11 (ix3 b d m)) (fun b d m => V c main_v9 (ix3 b d m)) (fun o k => V c main_arg3 (ix2 o k)) (fun o => V c main_v19 (ix2 o (0 : Fin 1))) (fun b o m => V c main_v18 (ix3 b o m)) (fun o => V c main_v26 (ix2 o (0 : Fin 1))) (fun o => V c main_v32 (ix2 o (0 : Fin 1))) (fun o => V c main_v20 (ix2 o (0 : Fin 1))) (fun o => V c main_v21 (ix2 o (0 : Fin 1))) b ch m := by
  rw [final1_9]
  rfl

end Cert.KernelIdeal.Hand

end
-- ==== Proof.KernelIdeal.Region0Pay.lean ====
/- REGION 0's per-tile values read at an index, at the extended reals.

   At tile `j` of batch `b` the accumulating pass computes, for each of the 65536 lanes `l` of the tile, the 16 channels
   of the linear layer of the ten geometric features at position `65536 · j + l` — the same terms the normalising pass
   computes —, adds their sum over the lanes to one running column and the sum of their squares to another. The write-back
   of the running columns, the zero columns they start from and the casts that only add or drop a unit axis are read here too.
   Everything is stated over plain vectors: the blocks' entries enter through hypotheses. -/
import proofs.«162062_j44212393345653_2_alg».proof.Proof.KernelIdeal.Region1Value
import proofs.«162062_j44212393345653_2_alg».proof.Proof.LibTiles

set_option maxRecDepth 16384

noncomputable section

namespace Cert.KernelIdeal.Hand

open Idealize.ShloMosaic Idealize.ShloMosaic.ValueIdx
open Cert.KernelIdeal Cert.KernelIdeal.Gen
open Cert.LibTiles (pos)
open scoped BigOperators

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 65536 lanes of one channel's row. -/
theorem row_sum (v : FVec Ideal S16x65536 .f32) (h : S16x65536.Reduces [1] S16) (hφ : FKind.Formats .f32)
    (hacc : (0x00000000#32 : BitVec FTy.f32.bits) = FKind.add.neutral .f32 hφ) (o : Fin 16) :
    multiReduction (F := Ideal) .add [1] S16 v 0x00000000#32 h hφ hacc (ix1 o) = ∑ l : Fin 65536, v (ix2 o l) := by
  refine (Ideal.multiReduction_add_single v 0x00000000#32 h hφ hacc (ix1 o)).trans ?_
  exact Finset.sum_congr rfl fun l _ => congrArg v (by funext a; match a with | ⟨0, _⟩ => rfl | ⟨1, _⟩ => rfl)

section Tile
variable (x0 x1 : Vec Ideal S1x3x65536 .f32) (x2 : Vec Ideal S16x10 .f32) (x3 : Vec Ideal S16x1 .f32) (s : Vec Ideal S16x1 .f32)
variable (e g : Fin 4 → Fin 3 → Fin 1048576 → EReal) (w : Fin 16 → Fin 10 → EReal) (bi : Fin 16 → EReal) (b : Fin 4) (j : Fin 16)

/-- The tile's linear layer, as the body computes it from the blocks: the block product with the feature rows, plus the bias column. -/
theorem k0_pay6_eq : k0_pay6 x0 x1 x2 x3
    = addf (matmul (φ₁ := .f32) (φ₂ := .f32) dot_S16x10_S10x65536_S16x65536_1_0_0_1_n_n none x2 (featv x0 x1) (constant (F := Ideal) S16x65536 .f32 0x00000000#32))
        (broadcastTo S16x65536 (shapeCast S16x1 x3 shapeCasts_S16x1_S16x1) broadcasts_S16x1_S16x65536) := rfl

/-- Channel `o` at lane `l` of tile `j` is the linear layer at position `65536 · j + l`. -/
theorem pay6_apply (h0 : ∀ (d : Fin 3) (l : Fin 65536), x0 (ix3 (0 : Fin 1) d l) = e b d (pos j l))
    (h1 : ∀ (d : Fin 3) (l : Fin 65536), x1 (ix3 (0 : Fin 1) d l) = g b d (pos j l))
    (h2 : ∀ (o : Fin 16) (k : Fin 10), x2 (ix2 o k) = w o k) (h3 : ∀ o : Fin 16, x3 (ix2 o (0 : Fin 1)) = bi o)
    (o : Fin 16) (l : Fin 65536) :
    k0_pay6 x0 x1 x2 x3 (ix2 o l) = Cert.KSpec.lin e g w bi b o (pos j l) := by
  rw [k0_pay6_eq, addf_apply, mm_apply, col_apply, h3]
  unfold Cert.KSpec.lin
  have hs : (∑ k : Fin 10, x2 (ix2 o k) * featv x0 x1 (ix2 k l)) = ∑ c : Fin 10, w o c * Cert.KSpec.feat e g b c (pos j l) :=
    Finset.sum_congr rfl fun k _ => by rw [h2, featv_apply x0 x1 e g b (pos j l) l (fun d => h0 d l) (fun d => h1 d l) k]
  rw [hs]

/-- The running sum after the tile: what it held plus the tile's sum over the lanes. -/
theorem k0_pay7_eq : k0_pay7 x0 x1 x2 x3 s
    = shapeCast S16x1 (addf (φ := .f32) s (shapeCast S16x1 (multiReduction (F := Ideal) .add [1] S16 (k0_pay6 x0 x1 x2 x3) 0x00000000#32
        reduces_S16x65536_S16 (.inl rfl) rfl) shapeCasts_S16_S16x1)) shapeCasts_S16x1_S16x1 := rfl

theorem pay7_apply (h0 : ∀ (d : Fin 3) (l : Fin 65536), x0 (ix3 (0 : Fin 1) d l) = e b d (pos j l))
    (h1 : ∀ (d : Fin 3) (l : Fin 65536), x1 (ix3 (0 : Fin 1) d l) = g b d (pos j l))
    (h2 : ∀ (o : Fin 16) (k : Fin 10), x2 (ix2 o k) = w o k) (h3 : ∀ o : Fin 16, x3 (ix2 o (0 : Fin 1)) = bi o)
    (o : Fin 16) :
    k0_pay7 x0 x1 x2 x3 s (ix2 o (0 : Fin 1))
      = s (ix2 o (0 : Fin 1)) + ∑ l : Fin 65536, Cert.KSpec.lin e g w bi b o (pos j l) := by
  rw [k0_pay7_eq, shapeCast_self, addf_apply]
  refine congrArg (s (ix2 o (0 : Fin 1)) + ·) ?_
  refine (shapeCast_a_a1_apply _ _ o (0 : Fin 1)).trans ?_
  refine (row_sum _ _ _ _ o).trans ?_
  exact Finset.sum_congr rfl fun l _ => pay6_apply x0 x1 x2 x3 e g w bi b j h0 h1 h2 h3 o l

/-- The running sum of squares after the tile: what it held plus the tile's sum of squares over the lanes. -/
theorem k0_pay8_eq : k0_pay8 x0 x1 x2 x3 s
    = addf (φ := .f32) s (shapeCast S16x1 (multiReduction (F := Ideal) .add [1] S16 (mulf (k0_pay6 x0 x1 x2 x3) (k0_pay6 x0 x1 x2 x3)) 0x00000000#32
        reduces_S16x65536_S16 (.inl rfl) rfl) shapeCasts_S16_S16x1) := rfl

theorem pay8_apply' (h0 : ∀ (d : Fin 3) (l : Fin 65536), x0 (ix3 (0 : Fin 1) d l) = e b d (pos j l))
    (h1 : ∀ (d : Fin 3) (l : Fin 65536), x1 (ix3 (0 : Fin 1) d l) = g b d (pos j l))
    (h2 : ∀ (o : Fin 16) (k : Fin 10), x2 (ix2 o k) = w o k) (h3 : ∀ o : Fin 16, x3 (ix2 o (0 : Fin 1)) = bi o)
    (o : Fin 16) :
    k0_pay8 x0 x1 x2 x3 s (ix2 o (0 : Fin 1))
      = s (ix2 o (0 : Fin 1)) + ∑ l : Fin 65536, Cert.KSpec.lin e g w bi b o (pos j l) * Cert.KSpec.lin e g w bi b o (pos j l) := by
  rw [k0_pay8_eq, addf_apply]
  refine congrArg (s (ix2 o (0 : Fin 1)) + ·) ?_
  refine (shapeCast_a_a1_apply _ _ o (0 : Fin 1)).trans ?_
  refine (row_sum _ _ _ _ o).trans ?_
  exact Finset.sum_congr rfl fun l _ => by
    rw [mulf_apply, pay6_apply x0 x1 x2 x3 e g w bi b j h0 h1 h2 h3 o l]

/-- The same through the cast the store puts in front (a cast of a column to itself). -/
theorem pay8_apply (h0 : ∀ (d : Fin 3) (l : Fin 65536), x0 (ix3 (0 : Fin 1) d l) = e b d (pos j l))
    (h1 : ∀ (d : Fin 3) (l : Fin 65536), x1 (ix3 (0 : Fin 1) d l) = g b d (pos j l))
    (h2 : ∀ (o : Fin 16) (k : Fin 10), x2 (ix2 o k) = w o k) (h3 : ∀ o : Fin 16, x3 (ix2 o (0 : Fin 1)) = bi o)
    (o : Fin 16) :
    k0_pay1 (k0_pay8 x0 x1 x2 x3 s) (ix2 o (0 : Fin 1))
      = s (ix2 o (0 : Fin 1)) + ∑ l : Fin 65536, Cert.KSpec.lin e g w bi b o (pos j l) * Cert.KSpec.lin e g w bi b o (pos j l) := by
  have e1 : k0_pay1 (k0_pay8 x0 x1 x2 x3 s) = shapeCast S16x1 (k0_pay8 x0 x1 x2 x3 s) shapeCasts_S16x1_S16x1 := rfl
  rw [e1, shapeCast_self]
  exact pay8_apply' x0 x1 x2 x3 s e g w bi b j h0 h1 h2 h3 o

end Tile

/-- The cast in front of a column store changes nothing. -/
theorem pay1_apply (v : FVec Ideal S16x1 .f32) (i : S16x1.Idx) : k0_pay1 v i = v i := by
  have e1 : k0_pay1 v = shapeCast S16x1 v shapeCasts_S16x1_S16x1 := rfl
  rw [e1, shapeCast_self]

/-- The two running columns start from zero. -/
theorem pay4_apply (o : Fin 16) : k0_pay4 (F := Ideal) (ix2 o (0 : Fin 1)) = 0 := by
  have e4 : k0_pay4 (F := Ideal) = shapeCast S16x1 (broadcast S16x1 (Scalar.ofBits (F := Ideal) .f32 0x00000000#32)) shapeCasts_S16x1_S16x1 := rfl
  rw [e4, shapeCast_self, broadcast_apply]
  exact Ideal.ofBits_zero_f32

theorem pay5_apply (o : Fin 16) : k0_pay5 (F := Ideal) (ix2 o (0 : Fin 1)) = 0 := by
  have e5 : k0_pay5 (F := Ideal) = shapeCast S16x1 (broadcast S16x1 (Scalar.ofBits (F := Ideal) .f32 0x00000000#32)) shapeCasts_S16x1_S16x1 := rfl
  rw [e5, shapeCast_self, broadcast_apply]
  exact Ideal.ofBits_zero_f32

/-- The write-back of a running column puts a unit batch axis in front. -/
theorem pay2_apply (v : Vec Ideal S16x1 .f32) (o : Fin 16) : k0_pay2 v (ix3 (0 : Fin 1) o (0 : Fin 1)) = v (ix2 o (0 : Fin 1)) := by
  have e2 : k0_pay2 v = shapeCast S1x16x1 v shapeCasts_S16x1_S1x16x1 := rfl
  rw [e2]
  exact shapeCast_ab_1ab_apply v _ (0 : Fin 1) o (0 : Fin 1)

theorem pay3_apply (v : Vec Ideal S16x1 .f32) (o : Fin 16) : k0_pay3 v (ix3 (0 : Fin 1) o (0 : Fin 1)) = v (ix2 o (0 : Fin 1)) := by
  have e3 : k0_pay3 v = shapeCast S1x16x1 v shapeCasts_S16x1_S1x16x1 := rfl
  rw [e3]
  exact shapeCast_ab_1ab_apply v _ (0 : Fin 1) o (0 : Fin 1)

end Cert.KernelIdeal.Hand

end
-- ==== Proof.KernelIdeal.Region0Value.lean ====
/- REGION 0 of @main, read at the extended reals: what the accumulating pass leaves in its arrays.

   At a point of the grid — batch `t / 16`, tile `t % 16` of the 1048576 flat positions — the body adds, channel by
   channel, the tile's sum of the linear image of the ten geometric features into one scratch column, and the tile's
   sum of its square into another; both columns restart from zero at tile 0 and are copied into the batch's block of
   the two output arrays at tile 15. So after the pass output array 4 holds, per batch and channel, the sum of the
   linear image over all positions, and output array 5 the sum of its square (`arr0_4`, `arr0_5`): sixteen tiles of
   65536 lanes are the 1048576 positions, and sums over the extended reals may be regrouped freely. The four input
   arrays are never written (`arr0_0` … `arr0_3`). -/
import proofs.«162062_j44212393345653_2_alg».proof.Proof.KernelIdeal.Region0
import proofs.«162062_j44212393345653_2_alg».proof.Proof.KSpec
import proofs.«162062_j44212393345653_2_alg».proof.Proof.LibTiles
import Idealize.ShloMosaic.Lib.Pipeline.Value
import Idealize.ShloMosaic.Lib.ValueIdx
import Idealize.ShloMosaic.Lib.ValueLayout
import Idealize.ShloMosaic.PureOps.Ideal.Laws
import proofs.«162062_j44212393345653_2_alg».proof.Proof.KernelIdeal.Region0Pay

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # From the blocks to the arrays -/

variable (V : (c : Dev nD) → (b : Ref sig .tc) → Buf (Elt Ideal) ((c : Thread nD τ).loc b))

/-! ## The input arrays are as the region found them -/
theorem arr0_0 (c : Dev nD) : (dat0 V c).arrAt 0 cfg0.N = V c (Pipeline.arrRef spec0 0) :=
  ((dat0 V c).arrAt_in 0 rfl _).trans (A_eq0 V c 0)
theorem arr0_1 (c : Dev nD) : (dat0 V c).arrAt 1 cfg0.N = V c (Pipeline.arrRef spec0 1) :=
  ((dat0 V c).arrAt_in 1 rfl _).trans (A_eq0 V c 1)
theorem arr0_2 (c : Dev nD) : (dat0 V c).arrAt 2 cfg0.N = V c (Pipeline.arrRef spec0 2) :=
  ((dat0 V c).arrAt_in 2 rfl _).trans (A_eq0 V c 2)
theorem arr0_3 (c : Dev nD) : (dat0 V c).arrAt 3 cfg0.N = V c (Pipeline.arrRef spec0 3) :=
  ((dat0 V c).arrAt_in 3 rfl _).trans (A_eq0 V c 3)

/-- Where each window's block sits at point `t`: batch `t / 16`, and for the two coordinate windows tile `t % 16` of
    the positions; the weights and the bias column do not move; an output block is its batch's. -/
theorem idx_facts0 : ∀ t : Fin cfg0.N,
    (win0_0.index t (0 : Fin 3) = t.val / 16 ∧ win0_0.index t (1 : Fin 3) = 0 ∧ win0_0.index t (2 : Fin 3) = t.val % 16)
    ∧ (win0_1.index t (0 : Fin 3) = t.val / 16 ∧ win0_1.index t (1 : Fin 3) = 0 ∧ win0_1.index t (2 : Fin 3) = t.val % 16)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = 0 ∧ win0_5.index t (2 : Fin 3) = 0) :=
  (by decide +kernel : ∀ t : Fin grid0.N, _)

/-! ## Each input block's entry is its array's entry at the place the block sits -/

theorem iblk0_0_apply (c : Dev nD) (t : Fin cfg0.N) (d : Fin 3) (q : Fin 65536) (b : Fin 4) (m : Fin 1048576)
    (hb : b.val = t.val / 16) (hm : m.val = 65536 * (t.val % 16) + q.val) :
    iblk0 V c 0 t (ix3 (0 : Fin 1) d q) = V c main_v11 (ix3 b d m) := by
  obtain ⟨e0, e1, e2⟩ := (idx_facts0 t).1
  show V c main_v11 (((cfg0.win 0).blk t).view.emb (ix3 (0 : Fin 1) d q)) = V c main_v11 (ix3 b d m)
  refine congrArg (V c main_v11) (funext fun a => Fin.ext ?_)
  match a with
  | ⟨0, _⟩ => show win0_0.index t (0 : Fin 3) * 1 + 1 * 0 = b.val; omega
  | ⟨1, _⟩ => show win0_0.index t (1 : Fin 3) * 3 + 1 * d.val = d.val; omega
  | ⟨2, _⟩ => show win0_0.index t (2 : Fin 3) * 65536 + 1 * q.val = m.val; omega

theorem iblk0_1_apply (c : Dev nD) (t : Fin cfg0.N) (d : Fin 3) (q : Fin 65536) (b : Fin 4) (m : Fin 1048576)
    (hb : b.val = t.val / 16) (hm : m.val = 65536 * (t.val % 16) + q.val) :
    iblk0 V c 1 t (ix3 (0 : Fin 1) d q) = V c main_v9 (ix3 b d m) := by
  obtain ⟨e0, e1, e2⟩ := (idx_facts0 t).2.1
  show V c main_v9 (((cfg0.win 1).blk t).view.emb (ix3 (0 : Fin 1) d q)) = V c main_v9 (ix3 b d m)
  refine congrArg (V c main_v9) (funext fun a => Fin.ext ?_)
  match a with
  | ⟨0, _⟩ => show win0_1.index t (0 : Fin 3) * 1 + 1 * 0 = b.val; omega
  | ⟨1, _⟩ => show win0_1.index t (1 : Fin 3) * 3 + 1 * d.val = d.val; omega
  | ⟨2, _⟩ => show win0_1.index t (2 : Fin 3) * 65536 + 1 * q.val = m.val; omega

theorem iblk0_2_apply (c : Dev nD) (t : Fin cfg0.N) (o : Fin 16) (k : Fin 10) :
    iblk0 V c 2 t (ix2 o k) = V c main_arg3 (ix2 o k) := by
  obtain ⟨e0, e1⟩ := (idx_facts0 t).2.2.1
  show V c main_arg3 (((cfg0.win 2).blk t).view.emb (ix2 o k)) = V c main_arg3 (ix2 o k)
  refine congrArg (V c main_arg3) (funext fun a => Fin.ext ?_)
  match a with
  | ⟨0, _⟩ => show win0_2.index t (0 : Fin 2) * 16 + 1 * o.val = o.val; omega
  | ⟨1, _⟩ => show win0_2.index t (1 : Fin 2) * 10 + 1 * k.val = k.val; omega

theorem iblk0_3_apply (c : Dev nD) (t : Fin cfg0.N) (o : Fin 16) (k : Fin 1) :
    iblk0 V c 3 t (ix2 o k) = V c main_v19 (ix2 o k) := by
  obtain ⟨e0, e1⟩ := (idx_facts0 t).2.2.2.1
  show V c main_v19 (((cfg0.win 3).blk t).view.emb (ix2 o k)) = V c main_v19 (ix2 o k)
  refine congrArg (V c main_v19) (funext fun a => Fin.ext ?_)
  match a with
  | ⟨0, _⟩ => show win0_3.index t (0 : Fin 2) * 16 + 1 * o.val = o.val; omega
  | ⟨1, _⟩ => show win0_3.index t (1 : Fin 2) * 1 + 1 * k.val = k.val; omega

/-! ## The output arrays: where a block sits, and the cover -/

/-- An index of output array 4 is in point `t`'s block iff each coordinate is in the block's range on its axis. -/
theorem mem_blk0_4 (t : Fin cfg0.N) (i : S4x16x1.Idx) :
    i ∈ ((cfg0.win 4).blk t).view.set ↔ ∀ a : Fin 3, win0_4.index t a * S1x16x1.size a ≤ (i a).val ∧ (i a).val < win0_4.index t a * S1x16x1.size a + S1x16x1.size a := by
  show i ∈ ((View.whole main_v22_0).slice (win0_4.rect t)).set ↔ _
  rw [View.set_slice_whole, Rect.mem_set_unit]
  exact Iff.rfl

theorem mem_blk0_5 (t : Fin cfg0.N) (i : S4x16x1.Idx) :
    i ∈ ((cfg0.win 5).blk t).view.set ↔ ∀ a : Fin 3, win0_5.index t a * S1x16x1.size a ≤ (i a).val ∧ (i a).val < win0_5.index t a * S1x16x1.size a + S1x16x1.size a := by
  show i ∈ ((View.whole main_v22_1).slice (win0_5.rect t)).set ↔ _
  rw [View.set_slice_whole, Rect.mem_set_unit]
  exact Iff.rfl

/-- Every index of output array 4 is in the block written back at the last tile of its batch. -/
theorem cover0_4_arr (i : S4x16x1.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 1 := (i 2).isLt
  have hN : cfg0.N = 64 := N_0
  let t : Fin cfg0.N := ⟨16 * (i 0).val + 15, by rw [hN]; omega⟩
  have htv : t.val = 16 * (i 0).val + 15 := rfl
  refine ⟨t, (flush0_4 t).mpr (by omega), ?_⟩
  rw [mem_blk0_4]
  obtain ⟨-, -, -, -, ⟨e0, e1, e2⟩, -⟩ := idx_facts0 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 16 ≤ (i 1).val ∧ (i 1).val < win0_4.index t (1 : Fin 3) * 16 + 16; omega
  | ⟨2, _⟩ => show win0_4.index t (2 : Fin 3) * 1 ≤ (i 2).val ∧ (i 2).val < win0_4.index t (2 : Fin 3) * 1 + 1; omega

theorem cover0_5_arr (i : S4x16x1.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 1 := (i 2).isLt
  have hN : cfg0.N = 64 := N_0
  let t : Fin cfg0.N := ⟨16 * (i 0).val + 15, by rw [hN]; omega⟩
  have htv : t.val = 16 * (i 0).val + 15 := rfl
  refine ⟨t, (flush0_5 t).mpr (by omega), ?_⟩
  rw [mem_blk0_5]
  obtain ⟨-, -, -, -, -, ⟨e0, e1, e2⟩⟩ := idx_facts0 t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 16 ≤ (i 1).val ∧ (i 1).val < win0_5.index t (1 : Fin 3) * 16 + 16; omega
  | ⟨2, _⟩ => show win0_5.index t (2 : Fin 3) * 1 ≤ (i 2).val ∧ (i 2).val < win0_5.index t (2 : Fin 3) * 1 + 1; omega

/-! ## An accumulator restarted every sixteenth point -/

/-- A quantity that at the points ≡ 0 (mod 16) is that point's addend over zero, and at every other point the point
    before's plus that point's addend, is at every point the sum of the addends of its group of sixteen so far. -/
theorem acc_eq_sum {M : Type*} [AddCommMonoid M] (N : ℕ) (A : (n : ℕ) → n < N → M) (T : ℕ → M)
    (hfirst : ∀ (n : ℕ) (h : n < N), n % 16 = 0 → A n h = 0 + T n)
    (hnext : ∀ (n : ℕ) (h : n + 1 < N), (n + 1) % 16 ≠ 0 → A (n + 1) h = A n (Nat.lt_of_succ_lt h) + T (n + 1)) :
    ∀ (n : ℕ) (h : n < N), A n h = ∑ j ∈ Finset.range (n % 16 + 1), T (16 * (n / 16) + j)
  | 0, h => by
    rw [hfirst 0 h rfl, zero_add]
    simp
  | n + 1, h => by
    by_cases h0 : (n + 1) % 16 = 0
    · rw [hfirst (n + 1) h h0, zero_add, h0, Finset.sum_range_one]
      exact congrArg T (by omega)
    · rw [hnext n h h0, acc_eq_sum N A T hfirst hnext n (Nat.lt_of_succ_lt h)]
      have e1 : (n + 1) % 16 = n % 16 + 1 := by omega
      have e2 : (n + 1) / 16 = n / 16 := by omega
      have e3 : 16 * (n / 16) + (n % 16 + 1) = n + 1 := by omega
      rw [e1, e2, Finset.sum_range_succ _ (n % 16 + 1), e3]

/-! ## The accumulators, point by point -/

section Sums
open Cert.LibTiles (pos)

/-- The batch and the tile of the point at position `n`, as total functions of the position. -/
def batchOf (n : ℕ) : Fin 4 := ⟨n / 16 % 4, Nat.mod_lt _ (by decide)⟩
def tileOf (n : ℕ) : Fin 16 := ⟨n % 16, Nat.mod_lt _ (by decide)⟩

/-- The linear image of a position's features, over the arrays the region finds. -/
def lin0 (c : Dev nD) (b : Fin 4) (o : Fin 16) (m : Fin 1048576) : EReal :=
  Cert.KSpec.lin (fun b d m => V c main_v11 (ix3 b d m)) (fun b d m => V c main_v9 (ix3 b d m))
    (fun o k => V c main_arg3 (ix2 o k)) (fun o => V c main_v19 (ix2 o (0 : Fin 1))) b o m

/-- What the point at position `n` adds to channel `o`'s first accumulator: the tile's sum of the linear image; -/
def add1 (c : Dev nD) (o : Fin 16) (n : ℕ) : EReal :=
  ∑ l : Fin 65536, lin0 V c (batchOf n) o (pos (tileOf n) l)
/-- and to the second: the tile's sum of its square. -/
def add2 (c : Dev nD) (o : Fin 16) (n : ℕ) : EReal :=
  ∑ l : Fin 65536, lin0 V c (batchOf n) o (pos (tileOf n) l) * lin0 V c (batchOf n) o (pos (tileOf n) l)

/-- One point's step on the first accumulator, entry by entry: the tile's sum is added. -/
theorem step0_fst (c : Dev nD) (t : Fin cfg0.N) (s : Vec Ideal S16x1 .f32 × Vec Ideal S16x1 .f32) (o : Fin 16) :
    (step0 V c t s).1 (ix2 o (0 : Fin 1)) = s.1 (ix2 o (0 : Fin 1)) + add1 V c o t.val := by
  have hN : cfg0.N = 64 := N_0
  have ht : t.val < 64 := hN ▸ t.isLt
  exact pay7_apply (iblk0 V c 0 t) (iblk0 V c 1 t) (iblk0 V c 2 t) (iblk0 V c 3 t) s.1
    (fun b d m => V c main_v11 (ix3 b d m)) (fun b d m => V c main_v9 (ix3 b d m))
    (fun o k => V c main_arg3 (ix2 o k)) (fun o => V c main_v19 (ix2 o (0 : Fin 1)))
    (batchOf t.val) (tileOf t.val)
    (fun d l => iblk0_0_apply V c t d l _ _ (by show t.val / 16 % 4 = t.val / 16; omega) rfl)
    (fun d l => iblk0_1_apply V c t d l _ _ (by show t.val / 16 % 4 = t.val / 16; omega) rfl)
    (fun o k => iblk0_2_apply V c t o k) (fun o => iblk0_3_apply V c t o 0) o

/-- One point's step on the second accumulator: the tile's sum of squares is added. -/
theorem step0_snd (c : Dev nD) (t : Fin cfg0.N) (s : Vec Ideal S16x1 .f32 × Vec Ideal S16x1 .f32) (o : Fin 16) :
    (step0 V c t s).2 (ix2 o (0 : Fin 1)) = s.2 (ix2 o (0 : Fin 1)) + add2 V c o t.val := by
  have hN : cfg0.N = 64 := N_0
  have ht : t.val < 64 := hN ▸ t.isLt
  exact pay8_apply (iblk0 V c 0 t) (iblk0 V c 1 t) (iblk0 V c 2 t) (iblk0 V c 3 t) s.2
    (fun b d m => V c main_v11 (ix3 b d m)) (fun b d m => V c main_v9 (ix3 b d m))
    (fun o k => V c main_arg3 (ix2 o k)) (fun o => V c main_v19 (ix2 o (0 : Fin 1)))
    (batchOf t.val) (tileOf t.val)
    (fun d l => iblk0_0_apply V c t d l _ _ (by show t.val / 16 % 4 = t.val / 16; omega) rfl)
    (fun d l => iblk0_1_apply V c t d l _ _ (by show t.val / 16 % 4 = t.val / 16; omega) rfl)
    (fun o k => iblk0_2_apply V c t o k) (fun o => iblk0_3_apply V c t o 0) o

/-- The first accumulator after the point at position `n`: the sum of the tiles of its batch so far. -/
theorem acc0_fst (c : Dev nD) (o : Fin 16) : ∀ (n : ℕ) (h : n < cfg0.N),
    (acc0 V c n h).1 (ix2 o (0 : Fin 1)) = ∑ j ∈ Finset.range (n % 16 + 1), add1 V c o (16 * (n / 16) + j) :=
  acc_eq_sum (M := EReal) cfg0.N (fun n h => ((acc0 V c n h).1 (ix2 o (0 : Fin 1)) : EReal)) (add1 V c o)
    (fun n h h0 => by
      have e : acc0 V c n h = step0 V c ⟨n, h⟩ (k0_pay4 (F := Ideal), k0_pay5 (F := Ideal)) := acc0_first V c ⟨n, h⟩ h0
      show (acc0 V c n h).1 (ix2 o (0 : Fin 1)) = 0 + add1 V c o n
      rw [e, step0_fst V c ⟨n, h⟩ _ o]
      show k0_pay4 (F := Ideal) (ix2 o (0 : Fin 1)) + add1 V c o n = 0 + add1 V c o n
      rw [pay4_apply])
    (fun n h h0 => by
      have e : acc0 V c (n + 1) h = step0 V c ⟨n + 1, h⟩ (acc0 V c n (Nat.lt_of_succ_lt h)) := acc0_next V c ⟨n + 1, h⟩ h0
      show (acc0 V c (n + 1) h).1 (ix2 o (0 : Fin 1)) = (acc0 V c n (Nat.lt_of_succ_lt h)).1 (ix2 o (0 : Fin 1)) + add1 V c o (n + 1)
      rw [e, step0_fst V c ⟨n + 1, h⟩ _ o])

/-- The second accumulator likewise, over the squares. -/
theorem acc0_snd (c : Dev nD) (o : Fin 16) : ∀ (n : ℕ) (h : n < cfg0.N),
    (acc0 V c n h).2 (ix2 o (0 : Fin 1)) = ∑ j ∈ Finset.range (n % 16 + 1), add2 V c o (16 * (n / 16) + j) :=
  acc_eq_sum (M := EReal) cfg0.N (fun n h => ((acc0 V c n h).2 (ix2 o (0 : Fin 1)) : EReal)) (add2 V c o)
    (fun n h h0 => by
      have e : acc0 V c n h = step0 V c ⟨n, h⟩ (k0_pay4 (F := Ideal), k0_pay5 (F := Ideal)) := acc0_first V c ⟨n, h⟩ h0
      show (acc0 V c n h).2 (ix2 o (0 : Fin 1)) = 0 + add2 V c o n
      rw [e, step0_snd V c ⟨n, h⟩ _ o]
      show k0_pay5 (F := Ideal) (ix2 o (0 : Fin 1)) + add2 V c o n = 0 + add2 V c o n
      rw [pay5_apply])
    (fun n h h0 => by
      have e : acc0 V c (n + 1) h = step0 V c ⟨n + 1, h⟩ (acc0 V c n (Nat.lt_of_succ_lt h)) := acc0_next V c ⟨n + 1, h⟩ h0
      show (acc0 V c (n + 1) h).2 (ix2 o (0 : Fin 1)) = (acc0 V c n (Nat.lt_of_succ_lt h)).2 (ix2 o (0 : Fin 1)) + add2 V c o (n + 1)
      rw [e, step0_snd V c ⟨n + 1, h⟩ _ o])

/-! ## What a point writes back, and the arrays at the end -/

/-- What the pass leaves in output array 4, index by index: per batch and channel the sum of the linear image over
    all positions; -/
def sumArr (c : Dev nD) : S4x16x1.Idx → EReal := fun i => ∑ m : Fin 1048576, lin0 V c (i 0) (i 1) m
/-- and in output array 5: the sum of its square. -/
def sqArr (c : Dev nD) : S4x16x1.Idx → EReal := fun i => ∑ m : Fin 1048576, lin0 V c (i 0) (i 1) m * lin0 V c (i 0) (i 1) m

/-- Block `t` of an array over an output's shape, read at an entry, is the array at the place the entry sits. -/
theorem read_blk0_4 (t : Fin cfg0.N) (G : S4x16x1.Idx → EReal) (x : S1x16x1.Idx) :
    ((cfg0.win 4).blk t).view.read (Elt Ideal) G x = G (((cfg0.win 4).blk t).view.emb x) := rfl
theorem read_blk0_5 (t : Fin cfg0.N) (G : S4x16x1.Idx → EReal) (x : S1x16x1.Idx) :
    ((cfg0.win 5).blk t).view.read (Elt Ideal) G x = G (((cfg0.win 5).blk t).view.emb x) := rfl

/-- What a point of tile 15 writes back into output array 4 is its batch's block of `sumArr`: the copy of the accumulator,
    which by then holds the sum over all sixteen tiles of the batch, that is over all its positions. -/
theorem flushed0_4_eq (c : Dev nD) (t : Fin cfg0.N) (hf : (cfg0.win 4).flush t = true) :
    (dat0 V c).flushed 4 t = ((cfg0.win 4).blk t).view.read (Elt Ideal) (sumArr V c) := by
  have hN : cfg0.N = 64 := N_0
  have ht : t.val < 64 := hN ▸ t.isLt
  have h15 : t.val % 16 = 15 := (flush0_4 t).mp hf
  show (cfg0.win 4).cut (grid0.coords t) ((dat0 V c).after 4 t) = _
  rw [after0_4]
  funext j
  obtain ⟨u, o, z, rfl⟩ : ∃ (u : Fin 1) (o : Fin 16) (z : Fin 1), j = ix3 u o z := ⟨j 0, j 1, j 2, eq_ix3 j⟩
  refine Eq.trans (b := k0_pay2 (F := Ideal) (acc0 V c t.val t.isLt).1 (ix3 u o z)) rfl ?_
  refine Eq.trans ?_ (read_blk0_4 t (sumArr V c) (ix3 u o z)).symm
  obtain rfl : u = 0 := Subsingleton.elim _ _
  obtain rfl : z = 0 := Subsingleton.elim _ _
  obtain ⟨e0, e1, e2⟩ := (idx_facts0 t).2.2.2.2.1
  have hemb : ((cfg0.win 4).blk t).view.emb (ix3 (0 : Fin 1) o (0 : Fin 1))
      = ix3 (⟨t.val / 16, by omega⟩ : Fin 4) o (0 : Fin 1) := by
    funext a; apply Fin.ext
    match a with
    | ⟨0, _⟩ => show win0_4.index t (0 : Fin 3) * 1 + 1 * 0 = t.val / 16; omega
    | ⟨1, _⟩ => show win0_4.index t (1 : Fin 3) * 16 + 1 * o.val = o.val; omega
    | ⟨2, _⟩ => show win0_4.index t (2 : Fin 3) * 1 + 1 * 0 = 0; omega
  rw [hemb, pay2_apply, acc0_fst V c o t.val t.isLt, h15]
  show _ = ∑ m : Fin 1048576, lin0 V c ⟨t.val / 16, _⟩ o m
  rw [Cert.LibTiles.sum_tiles]
  refine (Cert.LibTiles.sum_fin16_eq_range _ _ (fun j => ?_)).symm
  have hj : j.val < 16 := j.isLt
  have eb : batchOf (16 * (t.val / 16) + j.val) = (⟨t.val / 16, by omega⟩ : Fin 4) :=
    Fin.ext (by show (16 * (t.val / 16) + j.val) / 16 % 4 = t.val / 16; omega)
  have ej : tileOf (16 * (t.val / 16) + j.val) = j :=
    Fin.ext (by show (16 * (t.val / 16) + j.val) % 16 = j.val; omega)
  show _ = add1 V c o (16 * (t.val / 16) + j.val)
  unfold add1
  rw [eb, ej]

/-- OUTPUT ARRAY 4 after the pass: every index is covered by its batch's last tile, so it is `sumArr` everywhere. -/
theorem final0_4 (c : Dev nD) : (dat0 V c).arrAt 4 cfg0.N = sumArr V c :=
  (dat0 V c).arrAt_eq_of_cover 4 (sumArr V c) (fun t hf => flushed0_4_eq V c t hf) cover0_4_arr

/-- What a point of tile 15 writes back into output array 5 is its batch's block of `sqArr`: the copy of the accumulator,
    which by then holds the sum over all sixteen tiles of the batch, that is over all its positions. -/
theorem flushed0_5_eq (c : Dev nD) (t : Fin cfg0.N) (hf : (cfg0.win 5).flush t = true) :
    (dat0 V c).flushed 5 t = ((cfg0.win 5).blk t).view.read (Elt Ideal) (sqArr V c) := by
  have hN : cfg0.N = 64 := N_0
  have ht : t.val < 64 := hN ▸ t.isLt
  have h15 : t.val % 16 = 15 := (flush0_5 t).mp hf
  show (cfg0.win 5).cut (grid0.coords t) ((dat0 V c).after 5 t) = _
  rw [after0_5]
  funext j
  obtain ⟨u, o, z, rfl⟩ : ∃ (u : Fin 1) (o : Fin 16) (z : Fin 1), j = ix3 u o z := ⟨j 0, j 1, j 2, eq_ix3 j⟩
  refine Eq.trans (b := k0_pay3 (F := Ideal) (acc0 V c t.val t.isLt).2 (ix3 u o z)) rfl ?_
  refine Eq.trans ?_ (read_blk0_5 t (sqArr V c) (ix3 u o z)).symm
  obtain rfl : u = 0 := Subsingleton.elim _ _
  obtain rfl : z = 0 := Subsingleton.elim _ _
  obtain ⟨e0, e1, e2⟩ := (idx_facts0 t).2.2.2.2.2
  have hemb : ((cfg0.win 5).blk t).view.emb (ix3 (0 : Fin 1) o (0 : Fin 1))
      = ix3 (⟨t.val / 16, by omega⟩ : Fin 4) o (0 : Fin 1) := by
    funext a; apply Fin.ext
    match a with
    | ⟨0, _⟩ => show win0_5.index t (0 : Fin 3) * 1 + 1 * 0 = t.val / 16; omega
    | ⟨1, _⟩ => show win0_5.index t (1 : Fin 3) * 16 + 1 * o.val = o.val; omega
    | ⟨2, _⟩ => show win0_5.index t (2 : Fin 3) * 1 + 1 * 0 = 0; omega
  rw [hemb, pay3_apply, acc0_snd V c o t.val t.isLt, h15]
  show _ = ∑ m : Fin 1048576, lin0 V c ⟨t.val / 16, _⟩ o m * lin0 V c ⟨t.val / 16, _⟩ o m
  rw [Cert.LibTiles.sum_tiles]
  refine (Cert.LibTiles.sum_fin16_eq_range _ _ (fun j => ?_)).symm
  have hj : j.val < 16 := j.isLt
  have eb : batchOf (16 * (t.val / 16) + j.val) = (⟨t.val / 16, by omega⟩ : Fin 4) :=
    Fin.ext (by show (16 * (t.val / 16) + j.val) / 16 % 4 = t.val / 16; omega)
  have ej : tileOf (16 * (t.val / 16) + j.val) = j :=
    Fin.ext (by show (16 * (t.val / 16) + j.val) % 16 = j.val; omega)
  show _ = add2 V c o (16 * (t.val / 16) + j.val)
  unfold add2
  rw [eb, ej]

/-- OUTPUT ARRAY 5 after the pass: every index is covered by its batch's last tile, so it is `sqArr` everywhere. -/
theorem final0_5 (c : Dev nD) : (dat0 V c).arrAt 5 cfg0.N = sqArr V c :=
  (dat0 V c).arrAt_eq_of_cover 5 (sqArr V c) (fun t hf => flushed0_5_eq V c t hf) cover0_5_arr

/-- The same, entry by entry: at (batch, channel) the sum over all positions of the linear image of the arrays the
    region found, -/
theorem arr0_4 (c : Dev nD) (b : Fin 4) (o : Fin 16) :
    (dat0 V c).arrAt 4 cfg0.N (ix3 b o (0 : Fin 1))
      = ∑ m : Fin 1048576, Cert.KSpec.lin (fun b d m => V c main_v11 (ix3 b d m)) (fun b d m => V c main_v9 (ix3 b d m))
    (fun o k => V c main_arg3 (ix2 o k)) (fun o => V c main_v19 (ix2 o (0 : Fin 1))) b o m := by
  rw [final0_4]
  rfl

/-- and of its square. -/
theorem arr0_5 (c : Dev nD) (b : Fin 4) (o : Fin 16) :
    (dat0 V c).arrAt 5 cfg0.N (ix3 b o (0 : Fin 1))
      = ∑ m : Fin 1048576, Cert.KSpec.lin (fun b d m => V c main_v11 (ix3 b d m)) (fun b d m => V c main_v9 (ix3 b d m))
    (fun o k => V c main_arg3 (ix2 o k)) (fun o => V c main_v19 (ix2 o (0 : Fin 1))) b o m
          * Cert.KSpec.lin (fun b d m => V c main_v11 (ix3 b d m)) (fun b d m => V c main_v9 (ix3 b d m))
    (fun o k => V c main_arg3 (ix2 o k)) (fun o => V c main_v19 (ix2 o (0 : Fin 1))) b o m := by
  rw [final0_5]
  rfl

end Sums

end Cert.KernelIdeal.Hand

end
-- ==== Proof.KernelIdeal.Result.lean ====
import proofs.«162062_j44212393345653_2_alg».proof.Proof.KernelIdeal.Value
import proofs.«162062_j44212393345653_2_alg».proof.Proof.KernelIdeal.Passes
import proofs.«162062_j44212393345653_2_alg».proof.Proof.KernelIdeal.Region0Value
import proofs.«162062_j44212393345653_2_alg».proof.Proof.KernelIdeal.Region1Value

/-!
# The kernel program's result, with the two passes' own records

The accumulating pass leaves, per batch and channel, the sum over the batch's flat positions of the
linear image and the sum of its squares; the normalising pass leaves the flat output.  With those
the result buffer at the end of the run is the specification read with the mean of the squares
less the squared mean.
-/

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (c : Dev nD)

/-- What the two passes leave, in the words of the flat arithmetic. -/
theorem leaves : Leaves (leaves0 (F := Ideal)) keeps0 leaves1 keeps1 m c where
  sums b o := by
    rw [pass0_is]
    exact arr0_4 (E1 m) c b o
  squares b o := by
    rw [pass0_is]
    exact arr0_5 (E1 m) c b o
  normed b ch p := by
    rw [pass1_is]
    exact arr1_9 (E3 (leaves0 (F := Ideal)) keeps0 m) c b ch p

/-- The result buffer at the end of the run, read at (batch, channel, point, neighbour). -/
theorem result (b : Fin 4) (ch : Fin 32) (n : Fin 65536) (k : Fin 16) :
    (W5 (leaves0 (F := Ideal)) keeps0 leaves1 keeps1 m c (Proc.devRef .tc main_v34) : S4x32x65536x16.Idx → EReal) (ix4 b ch n k)
      = Cert.Spec.out (co m c) (fe m c) (nb m c) (wt m c) (bi m c) (ga m c) (be m c)
          (Cert.Spec.varSq (co m c) (nb m c) (wt m c) (bi m c)) b ch n k :=
  result_at (leaves0 (F := Ideal)) keeps0 leaves1 keeps1 m c (leaves m c) b ch n k

end Cert.KernelIdeal.Val

end
-- ==== Proof.RefRun.lean ====
import proofs.«162062_j44212393345653_2_alg».proof.Proof.Gen.ReferenceIdeal
import proofs.«162062_j44212393345653_2_alg».proof.Proof.Gen.Pre_finite_inputs
import proofs.«162062_j44212393345653_2_alg».proof.Defs
import Idealize.ShloMosaic.Lib.StableHlo.Run

/-!
# The reference program's run, read back

The reference is a straight line of host tensor operations; the three functions it calls are
written out at their call sites, over the buffers each call names.  Every execution terminates
with the result buffer holding the operations' composed term of the seven argument arrays
(`refOut`, built from named stages) and the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

section Ops

variable {F : FTy → Type} [FloatOps F]

/-- @main's operations in order, the three calls written out: the variance function's twenty and,
    inside it, the select function's three, over the first call's buffers; the cut at zero's three
    over the second call's. -/
abbrev ops : List (HloOp τ sig (Elt F)) :=
  [ nullary main_c (constantI S_ 32 0#32),
    unary main_c main_v0 (broadcastInDim S4x65536x16 ![] bcast_S_S4x65536x16 : (⟨S_, .i32⟩ : BufTy).Contents (Elt F) → (⟨S4x65536x16, .i32⟩ : BufTy).Contents (Elt F)),
    binary main_arg2 main_v0 main_v1 (cmpi .slt : (⟨S4x65536x16, .i32⟩ : BufTy).Contents (Elt F) → (⟨S4x65536x16, .i32⟩ : BufTy).Contents (Elt F) → (⟨S4x65536x16, .i1⟩ : BufTy).Contents (Elt F)),
    nullary main_c_0 (constantI S_ 32 65536#32),
    unary main_c_0 main_v2 (broadcastInDim S4x65536x16 ![] bcast_S_S4x65536x16 : (⟨S_, .i32⟩ : BufTy).Contents (Elt F) → (⟨S4x65536x16, .i32⟩ : BufTy).Contents (Elt F)),
    binary main_arg2 main_v2 main_v3 (addi : (⟨S4x65536x16, .i32⟩ : BufTy).Contents (Elt F) → (⟨S4x65536x16, .i32⟩ : BufTy).Contents (Elt F) → (⟨S4x65536x16, .i32⟩ : BufTy).Contents (Elt F)),
    ternary main_v1 main_v3 main_arg2 main_v4 (select : (⟨S4x65536x16, .i1⟩ : BufTy).Contents (Elt F) → (⟨S4x65536x16, .i32⟩ : BufTy).Contents (Elt F) → (⟨S4x65536x16, .i32⟩ : BufTy).Contents (Elt F) → (⟨S4x65536x16, .i32⟩ : BufTy).Contents (Elt F)),
    unary main_v4 main_v5 (broadcastInDim S4x65536x16x1 ![0, 1, 2] bcast_S4x65536x16_S4x65536x16x1_0_1_2 : (⟨S4x65536x16, .i32⟩ : BufTy).Contents (Elt F) → (⟨S4x65536x16x1, .i32⟩ : BufTy).Contents (Elt F)),
    binary main_arg0 main_v5 main_v6 ((fun x i => Host.gather gather_S4x65536x3_S4x65536x16x1_S4x65536x16x3_3_1_0_0_1_3_113 x i) : (⟨S4x65536x3, .f32⟩ : BufTy).Contents (Elt F) → (⟨S4x65536x16x1, .i32⟩ : BufTy).Contents (Elt F) → (⟨S4x65536x16x3, .f32⟩ : BufTy).Contents (Elt F)),
    unary main_arg0 main_v7 (broadcastInDim S4x65536x1x3 ![0, 1, 3] bcast_S4x65536x3_S4x65536x1x3_0_1_3 : (⟨S4x65536x3, .f32⟩ : BufTy).Contents (Elt F) → (⟨S4x65536x1x3, .f32⟩ : BufTy).Contents (Elt F)),
    unary main_v7 main_v8 (broadcastInDim S4x65536x16x3 ![0, 1, 2, 3] bcast_S4x65536x1x3_S4x65536x16x3_0_1_2_3 : (⟨S4x65536x1x3, .f32⟩ : BufTy).Contents (Elt F) → (⟨S4x65536x16x3, .f32⟩ : BufTy).Contents (Elt F)),
    binary main_v8 main_v6 main_v9 (subf : (⟨S4x65536x16x3, .f32⟩ : BufTy).Contents (Elt F) → (⟨S4x65536x16x3, .f32⟩ : BufTy).Contents (Elt F) → (⟨S4x65536x16x3, .f32⟩ : BufTy).Contents (Elt F)),
    binary main_v9 main_v9 main_v10 (mulf : (⟨S4x65536x16x3, .f32⟩ : BufTy).Contents (Elt F) → (⟨S4x65536x16x3, .f32⟩ : BufTy).Contents (Elt F) → (⟨S4x65536x16x3, .f32⟩ : BufTy).Contents (Elt F)),
    nullary main_cst (constant S_ .f32 0x00000000#32),
    binary main_v10 main_cst main_v11 ((fun x v => Host.reduceAdd x v reducesTo_S4x65536x16x3_S4x65536x16_d3 h_S_) : (⟨S4x65536x16x3, .f32⟩ : BufTy).Contents (Elt F) → (⟨S_, .f32⟩ : BufTy).Contents (Elt F) → (⟨S4x65536x16, .f32⟩ : BufTy).Contents (Elt F)),
    unary main_v11 main_v12 (broadcastInDim S4x65536x16x1 ![0, 1, 2] bcast_S4x65536x16_S4x65536x16x1_0_1_2 : (⟨S4x65536x16, .f32⟩ : BufTy).Contents (Elt F) → (⟨S4x65536x16x1, .f32⟩ : BufTy).Contents (Elt F)),
    unary main_v12 main_v13 (Host.sqrt : (⟨S4x65536x16x1, .f32⟩ : BufTy).Contents (Elt F) → (⟨S4x65536x16x1, .f32⟩ : BufTy).Contents (Elt F)),
    nary ![main_v13, main_v9, main_v8, main_v6] main_v14 (fun u => concatenate S4x65536x16x10 3 [⟨S4x65536x16x1, u 0⟩, ⟨S4x65536x16x3, u 1⟩, ⟨S4x65536x16x3, u 2⟩, ⟨S4x65536x16x3, u 3⟩] concatenates_S4x65536x16x1_S4x65536x16x3_S4x65536x16x3_S4x65536x16x3_S4x65536x16x10_d3),
    binary main_v14 main_arg3 main_v15 ((fun l r => Host.dotGeneral dot_S4x65536x16x10_S16x10_S4x65536x16x16_3_1_012_0_n_n none l r) : (⟨S4x65536x16x10, .f32⟩ : BufTy).Contents (Elt F) → (⟨S16x10, .f32⟩ : BufTy).Contents (Elt F) → (⟨S4x65536x16x16, .f32⟩ : BufTy).Contents (Elt F)),
    unary main_arg4 main_v16 (broadcastInDim S1x1x1x16 ![3] bcast_S16_S1x1x1x16_3 : (⟨S16, .f32⟩ : BufTy).Contents (Elt F) → (⟨S1x1x1x16, .f32⟩ : BufTy).Contents (Elt F)),
    unary main_v16 main_v17 (broadcastInDim S4x65536x16x16 ![0, 1, 2, 3] bcast_S1x1x1x16_S4x65536x16x16_0_1_2_3 : (⟨S1x1x1x16, .f32⟩ : BufTy).Contents (Elt F) → (⟨S4x65536x16x16, .f32⟩ : BufTy).Contents (Elt F)),
    binary main_v15 main_v17 main_v18 (addf : (⟨S4x65536x16x16, .f32⟩ : BufTy).Contents (Elt F) → (⟨S4x65536x16x16, .f32⟩ : BufTy).Contents (Elt F) → (⟨S4x65536x16x16, .f32⟩ : BufTy).Contents (Elt F)),
    nullary main_cst_1 (constant S_ .f32 0x00000000#32),
    binary main_v18 main_cst_1 main_v19 ((fun x v => Host.reduceAdd x v reducesTo_S4x65536x16x16_S16_d0_1_2 h_S_) : (⟨S4x65536x16x16, .f32⟩ : BufTy).Contents (Elt F) → (⟨S_, .f32⟩ : BufTy).Contents (Elt F) → (⟨S16, .f32⟩ : BufTy).Contents (Elt F)),
    unary main_v19 main_v20 (broadcastInDim S1x1x1x16 ![3] bcast_S16_S1x1x1x16_3 : (⟨S16, .f32⟩ : BufTy).Contents (Elt F) → (⟨S1x1x1x16, .f32⟩ : BufTy).Contents (Elt F)),
    nullary main_cst_2 (constant S_ .f32 0x4A800000#32),
    unary main_cst_2 main_v21 (broadcastInDim S1x1x1x16 ![] bcast_S_S1x1x1x16 : (⟨S_, .f32⟩ : BufTy).Contents (Elt F) → (⟨S1x1x1x16, .f32⟩ : BufTy).Contents (Elt F)),
    binary main_v20 main_v21 main_v22 (Host.divf : (⟨S1x1x1x16, .f32⟩ : BufTy).Contents (Elt F) → (⟨S1x1x1x16, .f32⟩ : BufTy).Contents (Elt F) → (⟨S1x1x1x16, .f32⟩ : BufTy).Contents (Elt F)),
    nullary main_c_3 (constantI S_ 32 0#32),
    TRef.nullary main_call0.cst (constant S_ .f32 0x00000000#32),
    TRef.binary (.of main_v18 : TRef sig ⟨S4x65536x16x16, .f32⟩) main_call0.cst main_call0.v0 (fun x v => Host.reduceAdd x v reducesTo_S4x65536x16x16_S16_d0_1_2 h_S_),
    TRef.unary main_call0.v0 main_call0.v1 (broadcastInDim S1x1x1x16 ![3] bcast_S16_S1x1x1x16_3),
    TRef.nullary main_call0.cst_0 (constant S_ .f32 0x4A800000#32),
    TRef.unary main_call0.cst_0 main_call0.v2 (broadcastInDim S1x1x1x16 ![] bcast_S_S1x1x1x16),
    TRef.binary main_call0.v1 main_call0.v2 main_call0.v3 Host.divf,
    TRef.unary main_call0.v3 main_call0.v4 (broadcastInDim S4x65536x16x16 ![0, 1, 2, 3] bcast_S1x1x1x16_S4x65536x16x16_0_1_2_3),
    TRef.binary (.of main_v18 : TRef sig ⟨S4x65536x16x16, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x4A800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x65536x16x16_S16_d0_1_2 h_S_),
    TRef.unary main_call0.v9 main_call0.v10 (broadcastInDim S1x1x1x16 ![3] bcast_S16_S1x1x1x16_3),
    TRef.unary main_call0.v8 main_call0.v11 (broadcastInDim S1x1x1x16 ![] bcast_S_S1x1x1x16),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1x1x16 ![] bcast_S_S1x1x1x16),
    TRef.ternary main_call0.v13 main_call0.v12 main_call0.call0.v1 main_call0.call0.v2 (fun p a b => select (broadcastInDim S1x1x1x16 ![] bcast_S_S1x1x1x16 p) a b),
    unary main_v22 main_v24 (broadcastInDim S4x65536x16x16 ![0, 1, 2, 3] bcast_S1x1x1x16_S4x65536x16x16_0_1_2_3 : (⟨S1x1x1x16, .f32⟩ : BufTy).Contents (Elt F) → (⟨S4x65536x16x16, .f32⟩ : BufTy).Contents (Elt F)),
    binary main_v18 main_v24 main_v25 (subf : (⟨S4x65536x16x16, .f32⟩ : BufTy).Contents (Elt F) → (⟨S4x65536x16x16, .f32⟩ : BufTy).Contents (Elt F) → (⟨S4x65536x16x16, .f32⟩ : BufTy).Contents (Elt F)),
    nullary main_cst_4 (constant S_ .f32 0x358637BD#32),
    unary main_cst_4 main_v26 (broadcastInDim S1x1x1x16 ![] bcast_S_S1x1x1x16 : (⟨S_, .f32⟩ : BufTy).Contents (Elt F) → (⟨S1x1x1x16, .f32⟩ : BufTy).Contents (Elt F)),
    binary main_v23 main_v26 main_v27 (addf : (⟨S1x1x1x16, .f32⟩ : BufTy).Contents (Elt F) → (⟨S1x1x1x16, .f32⟩ : BufTy).Contents (Elt F) → (⟨S1x1x1x16, .f32⟩ : BufTy).Contents (Elt F)),
    unary main_v27 main_v28 (Host.rsqrt : (⟨S1x1x1x16, .f32⟩ : BufTy).Contents (Elt F) → (⟨S1x1x1x16, .f32⟩ : BufTy).Contents (Elt F)),
    unary main_v28 main_v29 (broadcastInDim S4x65536x16x16 ![0, 1, 2, 3] bcast_S1x1x1x16_S4x65536x16x16_0_1_2_3 : (⟨S1x1x1x16, .f32⟩ : BufTy).Contents (Elt F) → (⟨S4x65536x16x16, .f32⟩ : BufTy).Contents (Elt F)),
    binary main_v25 main_v29 main_v30 (mulf : (⟨S4x65536x16x16, .f32⟩ : BufTy).Contents (Elt F) → (⟨S4x65536x16x16, .f32⟩ : BufTy).Contents (Elt F) → (⟨S4x65536x16x16, .f32⟩ : BufTy).Contents (Elt F)),
    unary main_arg5 main_v31 (broadcastInDim S1x1x1x16 ![3] bcast_S16_S1x1x1x16_3 : (⟨S16, .f32⟩ : BufTy).Contents (Elt F) → (⟨S1x1x1x16, .f32⟩ : BufTy).Contents (Elt F)),
    unary main_v31 main_v32 (broadcastInDim S4x65536x16x16 ![0, 1, 2, 3] bcast_S1x1x1x16_S4x65536x16x16_0_1_2_3 : (⟨S1x1x1x16, .f32⟩ : BufTy).Contents (Elt F) → (⟨S4x65536x16x16, .f32⟩ : BufTy).Contents (Elt F)),
    binary main_v30 main_v32 main_v33 (mulf : (⟨S4x65536x16x16, .f32⟩ : BufTy).Contents (Elt F) → (⟨S4x65536x16x16, .f32⟩ : BufTy).Contents (Elt F) → (⟨S4x65536x16x16, .f32⟩ : BufTy).Contents (Elt F)),
    unary main_arg6 main_v34 (broadcastInDim S1x1x1x16 ![3] bcast_S16_S1x1x1x16_3 : (⟨S16, .f32⟩ : BufTy).Contents (Elt F) → (⟨S1x1x1x16, .f32⟩ : BufTy).Contents (Elt F)),
    unary main_v34 main_v35 (broadcastInDim S4x65536x16x16 ![0, 1, 2, 3] bcast_S1x1x1x16_S4x65536x16x16_0_1_2_3 : (⟨S1x1x1x16, .f32⟩ : BufTy).Contents (Elt F) → (⟨S4x65536x16x16, .f32⟩ : BufTy).Contents (Elt F)),
    binary main_v33 main_v35 main_v36 (addf : (⟨S4x65536x16x16, .f32⟩ : BufTy).Contents (Elt F) → (⟨S4x65536x16x16, .f32⟩ : BufTy).Contents (Elt F) → (⟨S4x65536x16x16, .f32⟩ : BufTy).Contents (Elt F)),
    TRef.nullary main_call1.cst (constant S_ .f32 0x00000000#32),
    TRef.unary main_call1.cst main_call1.v0 (broadcastInDim S4x65536x16x16 ![] bcast_S_S4x65536x16x16),
    TRef.binary (.of main_v36 : TRef sig ⟨S4x65536x16x16, .f32⟩) main_call1.v0 main_call1.v1 maximumf,
    reshape main_arg1 main_v38 rfl shapeCasts_S4x16x65536x1_S4x16x65536,
    unary main_v38 main_v39 ((transpose S4x65536x16 [0, 2, 1] · transposes_S4x16x65536_S4x65536x16_0_2_1) : (⟨S4x16x65536, .f32⟩ : BufTy).Contents (Elt F) → (⟨S4x65536x16, .f32⟩ : BufTy).Contents (Elt F)),
    nullary main_c_5 (constantI S_ 32 0#32),
    unary main_c_5 main_v40 (broadcastInDim S4x65536x16 ![] bcast_S_S4x65536x16 : (⟨S_, .i32⟩ : BufTy).Contents (Elt F) → (⟨S4x65536x16, .i32⟩ : BufTy).Contents (Elt F)),
    binary main_arg2 main_v40 main_v41 (cmpi .slt : (⟨S4x65536x16, .i32⟩ : BufTy).Contents (Elt F) → (⟨S4x65536x16, .i32⟩ : BufTy).Contents (Elt F) → (⟨S4x65536x16, .i1⟩ : BufTy).Contents (Elt F)),
    nullary main_c_6 (constantI S_ 32 65536#32),
    unary main_c_6 main_v42 (broadcastInDim S4x65536x16 ![] bcast_S_S4x65536x16 : (⟨S_, .i32⟩ : BufTy).Contents (Elt F) → (⟨S4x65536x16, .i32⟩ : BufTy).Contents (Elt F)),
    binary main_arg2 main_v42 main_v43 (addi : (⟨S4x65536x16, .i32⟩ : BufTy).Contents (Elt F) → (⟨S4x65536x16, .i32⟩ : BufTy).Contents (Elt F) → (⟨S4x65536x16, .i32⟩ : BufTy).Contents (Elt F)),
    ternary main_v41 main_v43 main_arg2 main_v44 (select : (⟨S4x65536x16, .i1⟩ : BufTy).Contents (Elt F) → (⟨S4x65536x16, .i32⟩ : BufTy).Contents (Elt F) → (⟨S4x65536x16, .i32⟩ : BufTy).Contents (Elt F) → (⟨S4x65536x16, .i32⟩ : BufTy).Contents (Elt F)),
    unary main_v44 main_v45 (broadcastInDim S4x65536x16x1 ![0, 1, 2] bcast_S4x65536x16_S4x65536x16x1_0_1_2 : (⟨S4x65536x16, .i32⟩ : BufTy).Contents (Elt F) → (⟨S4x65536x16x1, .i32⟩ : BufTy).Contents (Elt F)),
    binary main_v39 main_v45 main_v46 ((fun x i => Host.gather gather_S4x65536x16_S4x65536x16x1_S4x65536x16x16_3_1_0_0_1_3_1116 x i) : (⟨S4x65536x16, .f32⟩ : BufTy).Contents (Elt F) → (⟨S4x65536x16x1, .i32⟩ : BufTy).Contents (Elt F) → (⟨S4x65536x16x16, .f32⟩ : BufTy).Contents (Elt F)),
    binary main_v46 main_v37 main_v47 ((fun a b => concatenate S4x65536x16x32 3 [⟨S4x65536x16x16, a⟩, ⟨S4x65536x16x16, b⟩] concatenates_S4x65536x16x16_S4x65536x16x16_S4x65536x16x32_d3) : (⟨S4x65536x16x16, .f32⟩ : BufTy).Contents (Elt F) → (⟨S4x65536x16x16, .f32⟩ : BufTy).Contents (Elt F) → (⟨S4x65536x16x32, .f32⟩ : BufTy).Contents (Elt F)),
    unary main_v47 main_v48 ((transpose S4x32x65536x16 [0, 3, 1, 2] · transposes_S4x65536x16x32_S4x32x65536x16_0_3_1_2) : (⟨S4x65536x16x32, .f32⟩ : BufTy).Contents (Elt F) → (⟨S4x32x65536x16, .f32⟩ : BufTy).Contents (Elt F)) ]

-- eighty-two steps deep: the comparison recurses once per statement
set_option maxRecDepth 8192 in
/-- @main is that straight line: with the functions' definitions unfolded at their calls and
    sequencing evaluated, both sides are the same chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    binary_bufs_sub .., nullary_bufs_sub .., binary_bufs_sub .., unary_bufs_sub .., unary_bufs_sub .., nary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub ..⟩

/-- At the compiled mesh, for any float values, from any memory with zero counters: every weakly
    fair execution of @main terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Ops

/-! ## The result as a term of the arguments, stage by stage -/

section Out

/-- A per-channel row spread over every (batch, point, neighbour). -/
abbrev full (v : FVec Ideal S1x1x1x16 .f32) : FVec Ideal S4x65536x16x16 .f32 :=
  broadcastInDim S4x65536x16x16 ![0, 1, 2, 3] bcast_S1x1x1x16_S4x65536x16x16_0_1_2_3 v

/-- A vector of sixteen channels as a per-channel row. -/
abbrev chan (v : FVec Ideal S16 .f32) : FVec Ideal S1x1x1x16 .f32 :=
  broadcastInDim S1x1x1x16 ![3] bcast_S16_S1x1x1x16_3 v

/-- A scalar as a per-channel row. -/
abbrev row (v : FVec Ideal S_ .f32) : FVec Ideal S1x1x1x16 .f32 :=
  broadcastInDim S1x1x1x16 ![] bcast_S_S1x1x1x16 v

/-- The sum of an array over its (batch, point, neighbour) axes, from zero. -/
abbrev sumAll (x : FVec Ideal S4x65536x16x16 .f32) : FVec Ideal S16 .f32 :=
  Host.reduceAdd x (constant (F := Ideal) S_ .f32 0x00000000#32) reducesTo_S4x65536x16x16_S16_d0_1_2 h_S_

/-- The start indices of the two gathers: each index word with 65536 added where it is negative. -/
def idx (a2 : IVec S4x65536x16 32) : IVec S4x65536x16x1 32 :=
  broadcastInDim S4x65536x16x1 ![0, 1, 2] bcast_S4x65536x16_S4x65536x16x1_0_1_2
    (select (cmpi .slt a2 (broadcastInDim S4x65536x16 ![] bcast_S_S4x65536x16 (constantI S_ 32 0#32)))
      (addi a2 (broadcastInDim S4x65536x16 ![] bcast_S_S4x65536x16 (constantI S_ 32 65536#32))) a2)

/-- The neighbours' coordinates, gathered. -/
def nbCo (a0 : FVec Ideal S4x65536x3 .f32) (a2 : IVec S4x65536x16 32) : FVec Ideal S4x65536x16x3 .f32 :=
  Host.gather gather_S4x65536x3_S4x65536x16x1_S4x65536x16x3_3_1_0_0_1_3_113 a0 (idx a2)

/-- Each point's own coordinates, repeated for its sixteen neighbours. -/
def selfCo (a0 : FVec Ideal S4x65536x3 .f32) : FVec Ideal S4x65536x16x3 .f32 :=
  broadcastInDim S4x65536x16x3 ![0, 1, 2, 3] bcast_S4x65536x1x3_S4x65536x16x3_0_1_2_3
    (broadcastInDim S4x65536x1x3 ![0, 1, 3] bcast_S4x65536x3_S4x65536x1x3_0_1_3 a0)

/-- The coordinate differences, point less neighbour. -/
def relCo (a0 : FVec Ideal S4x65536x3 .f32) (a2 : IVec S4x65536x16 32) : FVec Ideal S4x65536x16x3 .f32 :=
  subf (selfCo a0) (nbCo a0 a2)

/-- The distances: the root of the sum of the squared differences. -/
def dist (a0 : FVec Ideal S4x65536x3 .f32) (a2 : IVec S4x65536x16 32) : FVec Ideal S4x65536x16x1 .f32 :=
  Host.sqrt (broadcastInDim S4x65536x16x1 ![0, 1, 2] bcast_S4x65536x16_S4x65536x16x1_0_1_2
    (Host.reduceAdd (mulf (relCo a0 a2) (relCo a0 a2)) (constant (F := Ideal) S_ .f32 0x00000000#32)
      reducesTo_S4x65536x16x3_S4x65536x16_d3 h_S_))

/-- The ten features: distance, differences, the point, the neighbour. -/
def feats (a0 : FVec Ideal S4x65536x3 .f32) (a2 : IVec S4x65536x16 32) : FVec Ideal S4x65536x16x10 .f32 :=
  concatenate S4x65536x16x10 3 [⟨S4x65536x16x1, dist a0 a2⟩, ⟨S4x65536x16x3, relCo a0 a2⟩, ⟨S4x65536x16x3, selfCo a0⟩,
    ⟨S4x65536x16x3, nbCo a0 a2⟩]
    concatenates_S4x65536x16x1_S4x65536x16x3_S4x65536x16x3_S4x65536x16x3_S4x65536x16x10_d3

/-- The linear map of the features plus the bias. -/
def xv (a0 : FVec Ideal S4x65536x3 .f32) (a2 : IVec S4x65536x16 32) (a3 : FVec Ideal S16x10 .f32) (a4 : FVec Ideal S16 .f32) :
    FVec Ideal S4x65536x16x16 .f32 :=
  addf (Host.dotGeneral dot_S4x65536x16x10_S16x10_S4x65536x16x16_3_1_012_0_n_n none (feats a0 a2) a3) (full (chan a4))

/-- The per-channel mean of an array: its sum over the count. -/
def meanv (x : FVec Ideal S4x65536x16x16 .f32) : FVec Ideal S1x1x1x16 .f32 :=
  Host.divf (chan (sumAll x)) (row (constant (F := Ideal) S_ .f32 0x4A800000#32))

/-- The deviations from the per-channel mean. -/
def devv (x : FVec Ideal S4x65536x16x16 .f32) : FVec Ideal S4x65536x16x16 .f32 :=
  subf x (full (meanv x))

/-- The variance's divisor: the count less the correction, which is zero. -/
def divisor : FVec Ideal S_ .f32 :=
  subf (constant (F := Ideal) S_ .f32 0x4A800000#32) (sitofp .f32 (constantI S_ 32 0#32))

/-- The per-channel variance: the sum of the squared deviations over the divisor where the divisor
    is positive, else the pattern `0x7FC00000`. -/
def varv (x : FVec Ideal S4x65536x16x16 .f32) : FVec Ideal S1x1x1x16 .f32 :=
  select (broadcastInDim S1x1x1x16 ![] bcast_S_S1x1x1x16 (cmpf .ogt divisor (constant (F := Ideal) S_ .f32 0x00000000#32)))
    (Host.divf (chan (sumAll (mulf (devv x) (devv x)))) (row divisor))
    (row (constant (F := Ideal) S_ .f32 0x7FC00000#32))

/-- The normalised channels, scaled, shifted and cut below at zero. -/
def normv (x : FVec Ideal S4x65536x16x16 .f32) (a5 a6 : FVec Ideal S16 .f32) : FVec Ideal S4x65536x16x16 .f32 :=
  maximumf
    (addf (mulf (mulf (devv x) (full (Host.rsqrt (addf (varv x) (row (constant (F := Ideal) S_ .f32 0x358637BD#32)))))) (full (chan a5)))
      (full (chan a6)))
    (broadcastInDim S4x65536x16x16 ![] bcast_S_S4x65536x16x16 (constant (F := Ideal) S_ .f32 0x00000000#32))

/-- The neighbours' features, gathered from the feature array with its point axis moved forward. -/
def gath (a1 : FVec Ideal S4x16x65536x1 .f32) (a2 : IVec S4x65536x16 32) : FVec Ideal S4x65536x16x16 .f32 :=
  Host.gather gather_S4x65536x16_S4x65536x16x1_S4x65536x16x16_3_1_0_0_1_3_1116
    (transpose S4x65536x16 [0, 2, 1] (shapeCast S4x16x65536 a1 shapeCasts_S4x16x65536x1_S4x16x65536)
      transposes_S4x16x65536_S4x65536x16_0_2_1) (idx a2)

/-- The result: gathered features then normalised channels along the last axis, the channel axis
    then moved to second place. -/
def refOut (a0 : FVec Ideal S4x65536x3 .f32) (a1 : FVec Ideal S4x16x65536x1 .f32) (a2 : IVec S4x65536x16 32)
    (a3 : FVec Ideal S16x10 .f32) (a4 a5 a6 : FVec Ideal S16 .f32) : FVec Ideal S4x32x65536x16 .f32 :=
  transpose S4x32x65536x16 [0, 3, 1, 2]
    (concatenate S4x65536x16x32 3 [⟨S4x65536x16x16, gath a1 a2⟩, ⟨S4x65536x16x16, normv (xv a0 a2 a3 a4) a5 a6⟩]
      concatenates_S4x65536x16x16_S4x65536x16x16_S4x65536x16x32_d3)
    transposes_S4x65536x16x32_S4x32x65536x16_0_3_1_2

end Out

/-! ## The run -/

section Run

-- the fold is compared with the stages' term by unfolding both; the array operations themselves are
-- never opened by that comparison, and are kept closed so that it does not try
attribute [local irreducible] Host.reduceAdd Host.gather concatenate transpose broadcastInDim shapeCast in
-- eighty-two results deep, the stages' term several times that
set_option maxRecDepth 16384 in
set_option maxHeartbeats 400000 in
/-- What the result buffer holds after the operations: `refOut` of the argument buffers' contents. Each
    operation's result decides whether the buffer read is the one it writes, and the typed
    references' casts are the identity at these literal references: all of it by computation. -/
theorem out_eq (V : Valuation τ sig (Elt Ideal)) :
    after (ops (F := Ideal)) V (main_v48 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  simp only [after_cons, after_nil]
  rfl

set_option maxRecDepth 16384 in
theorem arg0_eq (V : Valuation τ sig (Elt Ideal)) :
    after (ops (F := Ideal)) V (main_arg0 : DevRef τ sig) = V (main_arg0 : DevRef τ sig) := by
  simp only [after_cons, after_nil]
  rfl

set_option maxRecDepth 16384 in
theorem arg1_eq (V : Valuation τ sig (Elt Ideal)) :
    after (ops (F := Ideal)) V (main_arg1 : DevRef τ sig) = V (main_arg1 : DevRef τ sig) := by
  simp only [after_cons, after_nil]
  rfl

set_option maxRecDepth 16384 in
theorem arg2_eq (V : Valuation τ sig (Elt Ideal)) :
    after (ops (F := Ideal)) V (main_arg2 : DevRef τ sig) = V (main_arg2 : DevRef τ sig) := by
  simp only [after_cons, after_nil]
  rfl

set_option maxRecDepth 16384 in
theorem arg3_eq (V : Valuation τ sig (Elt Ideal)) :
    after (ops (F := Ideal)) V (main_arg3 : DevRef τ sig) = V (main_arg3 : DevRef τ sig) := by
  simp only [after_cons, after_nil]
  rfl

set_option maxRecDepth 16384 in
theorem arg4_eq (V : Valuation τ sig (Elt Ideal)) :
    after (ops (F := Ideal)) V (main_arg4 : DevRef τ sig) = V (main_arg4 : DevRef τ sig) := by
  simp only [after_cons, after_nil]
  rfl

set_option maxRecDepth 16384 in
theorem arg5_eq (V : Valuation τ sig (Elt Ideal)) :
    after (ops (F := Ideal)) V (main_arg5 : DevRef τ sig) = V (main_arg5 : DevRef τ sig) := by
  simp only [after_cons, after_nil]
  rfl

set_option maxRecDepth 16384 in
theorem arg6_eq (V : Valuation τ sig (Elt Ideal)) :
    after (ops (F := Ideal)) V (main_arg6 : DevRef τ sig) = V (main_arg6 : DevRef τ sig) := by
  simp only [after_cons, after_nil]
  rfl

/-- On the device, from any memory with zero counters: every weakly fair execution of @main
    terminates with the result at `refOut` of the arguments and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v48) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (run m ρ)

end Run

end Cert.ReferenceIdeal.RefRun

end
-- ==== Proof.LibSumTriples.lean ====
import Idealize.ShloMosaic.PureOps.Ideal.Laws
import Idealize.ShloMosaic.Lib.ValueIdx

/-!
# A sum over the three leading axes of a rank-4 array, read at an index

At the ideal values the host's sum of a [4, 65536, 16, 16] array over its axes 0, 1, 2 is, at channel `o`, the initial
value plus the sum over all (batch, point, neighbour) triples of the array's entries at that channel: the indices that
reduce to `o` are exactly the indices (b, n, k, o), one per triple.
-/

noncomputable section

namespace Cert.LibSumTriples

open Idealize.ShloMosaic Idealize.ShloMosaic.ValueIdx
open scoped BigOperators

/-- The array's shape: (batch, point, neighbour, channel). -/
abbrev Src : Shape := ⟨4, ![4, 65536, 16, 16]⟩
/-- The result's shape: one entry per channel. -/
abbrev Dst : Shape := ⟨1, ![16]⟩

/-- Dropping the three leading coordinates of an index leaves its channel. -/
theorem drop_val (h : Src.ReducesTo [0, 1, 2] Dst) (i : Src.Idx) : (h.drop i (0 : Fin 1)).val = (i (3 : Fin 4)).val :=
  Shape.ReducesTo.drop_apply_val_of_eq h i 0 3

/-- The sum over the three leading axes at channel `o`: the initial value plus the sum over the triples. -/
theorem reduceAdd_triples (h : Src.ReducesTo [0, 1, 2] Dst) (x : Src.Idx → EReal) (init : EReal) (o : Fin 16) :
    Ideal.hostReduceAdd h x init (ix1 o) = init + ∑ p : Fin 4 × Fin 65536 × Fin 16, x (ix4 p.1 p.2.1 p.2.2 o) := by
  unfold Ideal.hostReduceAdd
  refine congrArg (init + ·) (Eq.symm ?_)
  refine Finset.sum_bij (fun p _ => ix4 p.1 p.2.1 p.2.2 o) (fun p _ => ?_) (fun p _ q _ hpq => ?_) (fun i hi => ?_)
    (fun p _ => rfl)
  · -- the index (b, n, k, o) reduces to o
    rw [Finset.mem_filter]
    refine ⟨Finset.mem_univ _, ?_⟩
    funext c
    refine Fin.ext ?_
    match c with
    | ⟨0, _⟩ => exact drop_val h _
  · -- distinct triples give distinct indices
    have h0 := congrFun hpq (0 : Fin 4)
    have h1 := congrFun hpq (1 : Fin 4)
    have h2 := congrFun hpq (2 : Fin 4)
    exact Prod.ext h0 (Prod.ext h1 h2)
  · -- an index that reduces to o is (b, n, k, o) for its own leading coordinates
    rw [Finset.mem_filter] at hi
    obtain ⟨a, b, c, e, rfl⟩ : ∃ (a : Fin 4) (b : Fin 65536) (c : Fin 16) (e : Fin 16), i = ix4 a b c e :=
      ⟨_, _, _, _, eq_ix4 i⟩
    have h3 : e = o := Fin.ext (by rw [← drop_val h (ix4 a b c e), hi.2])
    subst h3
    exact ⟨(a, b, c), @Finset.mem_univ (Fin 4 × Fin 65536 × Fin 16) _ (a, b, c), rfl⟩

/-- The same with the triples' sum written batch by batch, point by point, neighbour by neighbour. -/
theorem reduceAdd_iterated (h : Src.ReducesTo [0, 1, 2] Dst) (x : Src.Idx → EReal) (init : EReal) (o : Fin 16) :
    Ideal.hostReduceAdd h x init (ix1 o) = init + ∑ b : Fin 4, ∑ n : Fin 65536, ∑ k : Fin 16, x (ix4 b n k o) := by
  rw [reduceAdd_triples, Fintype.sum_prod_type]
  refine congrArg (init + ·) (Finset.sum_congr rfl fun b _ => ?_)
  rw [Fintype.sum_prod_type]

/-- The same for the host operation as a program prints it, from a rank-zero initial value. -/
theorem host_reduceAdd_triples (h : Src.ReducesTo [0, 1, 2] Dst) (hu : 0 < (⟨0, ![]⟩ : Shape).numel)
    (x : Src.Idx → EReal) (v : (⟨0, ![]⟩ : Shape).Idx → EReal) (o : Fin 16) :
    Host.reduceAdd (F := Ideal) (φ := .f32) x v h hu (ix1 o)
      = v ix0 + ∑ p : Fin 4 × Fin 65536 × Fin 16, x (ix4 p.1 p.2.1 p.2.2 o) := by
  show Ideal.hostReduceAdd h x (v (Shape.Idx.first hu)) (ix1 o) = _
  rw [reduceAdd_triples, eq_ix0 (Shape.Idx.first hu)]

/-- From the zero literal the sum is the sum over the triples alone. -/
theorem host_reduceAdd_triples_zero (h : Src.ReducesTo [0, 1, 2] Dst) (hu : 0 < (⟨0, ![]⟩ : Shape).numel)
    (x : Src.Idx → EReal) (o : Fin 16) :
    Host.reduceAdd (F := Ideal) (φ := .f32) x (constant (F := Ideal) ⟨0, ![]⟩ .f32 0x00000000#32) h hu (ix1 o)
      = ∑ p : Fin 4 × Fin 65536 × Fin 16, x (ix4 p.1 p.2.1 p.2.2 o) := by
  rw [host_reduceAdd_triples]
  show Ideal.ofBits .f32 0x00000000#32 + _ = _
  rw [Ideal.ofBits_zero_f32, zero_add]

end Cert.LibSumTriples

end
-- ==== Proof.RefRead.lean ====
import proofs.«162062_j44212393345653_2_alg».proof.Proof.RefRun
import proofs.«162062_j44212393345653_2_alg».proof.Proof.Spec
import proofs.«162062_j44212393345653_2_alg».proof.Proof.Neighbour
import proofs.«162062_j44212393345653_2_alg».proof.Proof.Consts
import proofs.«162062_j44212393345653_2_alg».proof.Proof.LibSumTriples
import Idealize.ShloMosaic.Lib.IdealHost
import Idealize.ShloMosaic.Lib.Pipeline.Value
import Idealize.ShloMosaic.Lib.ValueLayout

/-!
# The reference's result, read at an index, is the specification

Each stage of the reference's composed term is read at one index: the gathers read the neighbour
position, the reductions are sums over the reduced coordinates, the broadcasts and the
transposes move coordinates, the concatenations choose a piece.
-/

noncomputable section

namespace Cert.ReferenceIdeal.RefRead

open Cert.ReferenceIdeal Cert.ReferenceIdeal.Gen Cert.ReferenceIdeal.RefRun Cert.Neighbour
open Idealize.ShloMosaic Idealize.ShloMosaic.ValueIdx
open scoped BigOperators

/-! ## The host's root and reciprocal root at an index -/

theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl

/-! ## The start indices and the two gathers -/

/-- A start index is the wrapped index word. -/
theorem idx_apply (a2 : IVec S4x65536x16 32) (b : Fin 4) (n : Fin 65536) (k : Fin 16) (z : Fin 1) :
    idx a2 (ix4 b n k z) = wrap (a2 (ix3 b n k)) := by
  unfold idx
  rw [broadcastInDim_apply _ _ _ _ (ix3 b n k) (fun a => by
    match a with
    | ⟨0, _⟩ => rfl
    | ⟨1, _⟩ => rfl
    | ⟨2, _⟩ => rfl)]
  exact select_eq_wrap _

/-- The coordinate gather reads, at (batch, point, neighbour, coordinate), the operand at (batch, the clamped start index, coordinate). -/
theorem gatherCo_idx (ix : IVec S4x65536x16x1 32) (b : Fin 4) (n : Fin 65536) (k : Fin 16) (d : Fin 3) :
    gather_S4x65536x3_S4x65536x16x1_S4x65536x16x3_3_1_0_0_1_3_113.operandIdx (ix4 b n k d) ix = ix3 b (clamp (ix (ix4 b n k 0))) d := by
  funext a; apply Fin.ext
  fin_cases a <;>
    simp [GatherDims.operandIdx, GatherDims.start, GatherDims.offCoord, GatherDims.batchCoord, GatherDims.siCoord,
      gather_S4x65536x3_S4x65536x16x1_S4x65536x16x3_3_1_0_0_1_3_113, GatherDims.sKept, GatherDims.siKept, GatherDims.batchDims, Shape.kept, clamp_val]
  · rfl
  · refine congrArg (fun t => min (ix t).toInt.toNat 65535) ?_
    funext e; apply Fin.ext
    fin_cases e <;>
      simp [GatherDims.siIdx, GatherDims.siCoord, GatherDims.siKept, GatherDims.batchDims, Shape.kept]
    all_goals rfl
  · rfl

/-- The feature gather reads, at (batch, point, neighbour, channel), the operand at (batch, the clamped start index, channel). -/
theorem gatherFe_idx (ix : IVec S4x65536x16x1 32) (b : Fin 4) (n : Fin 65536) (k : Fin 16) (d : Fin 16) :
    gather_S4x65536x16_S4x65536x16x1_S4x65536x16x16_3_1_0_0_1_3_1116.operandIdx (ix4 b n k d) ix = ix3 b (clamp (ix (ix4 b n k 0))) d := by
  funext a; apply Fin.ext
  fin_cases a <;>
    simp [GatherDims.operandIdx, GatherDims.start, GatherDims.offCoord, GatherDims.batchCoord, GatherDims.siCoord,
      gather_S4x65536x16_S4x65536x16x1_S4x65536x16x16_3_1_0_0_1_3_1116, GatherDims.sKept, GatherDims.siKept, GatherDims.batchDims, Shape.kept, clamp_val]
  · rfl
  · refine congrArg (fun t => min (ix t).toInt.toNat 65535) ?_
    funext e; apply Fin.ext
    fin_cases e <;>
      simp [GatherDims.siIdx, GatherDims.siCoord, GatherDims.siKept, GatherDims.batchDims, Shape.kept]
    all_goals rfl
  · rfl

/-- The gathered coordinates are the neighbour's. -/
theorem nbCo_apply (a0 : FVec Ideal S4x65536x3 .f32) (a2 : IVec S4x65536x16 32) (b : Fin 4) (n : Fin 65536) (k : Fin 16) (d : Fin 3) :
    nbCo a0 a2 (ix4 b n k d) = a0 (ix3 b (nbOf a2 b n k) d) := by
  unfold nbCo Host.gather
  rw [gatherCo_idx, idx_apply]
  rfl

/-- The point's own coordinates. -/
theorem selfCo_apply (a0 : FVec Ideal S4x65536x3 .f32) (b : Fin 4) (n : Fin 65536) (k : Fin 16) (d : Fin 3) :
    selfCo a0 (ix4 b n k d) = a0 (ix3 b n d) := by
  unfold selfCo
  rw [broadcastInDim_apply _ _ _ _ (ix4 b n (0 : Fin 1) d) (fun a => by
    match a with
    | ⟨0, _⟩ => rfl
    | ⟨1, _⟩ => rfl
    | ⟨2, _⟩ => rfl
    | ⟨3, _⟩ => rfl)]
  rw [broadcastInDim_apply _ _ _ _ (ix3 b n d) (fun a => by
    match a with
    | ⟨0, _⟩ => rfl
    | ⟨1, _⟩ => rfl
    | ⟨2, _⟩ => rfl)]

/-- The gathered features are the neighbour's. -/
theorem gath_apply (a1 : FVec Ideal S4x16x65536x1 .f32) (a2 : IVec S4x65536x16 32) (b : Fin 4) (n : Fin 65536) (k : Fin 16) (c : Fin 16) :
    gath a1 a2 (ix4 b n k c) = a1 (ix4 b c (nbOf a2 b n k) 0) := by
  unfold gath Host.gather
  rw [gatherFe_idx, idx_apply]
  rw [transpose_apply _ _ _ _ (ix3 b c (nbOf a2 b n k)) (fun e => by
    match e with
    | ⟨0, _⟩ => rfl
    | ⟨1, _⟩ => rfl
    | ⟨2, _⟩ => rfl)]
  exact shapeCast_apply _ _ _ (ix4 b c (nbOf a2 b n k) 0) (by
    rw [Shape.rowMajor_val_four, Shape.rowMajor_val_three]
    show ((b.val * 16 + c.val) * 65536 + (nbOf a2 b n k).val) * 1 + 0
      = (b.val * 16 + c.val) * 65536 + (nbOf a2 b n k).val
    omega)

/-! ## The ten features -/

section Feats

variable (a0 : FVec Ideal S4x65536x3 .f32) (a2 : IVec S4x65536x16 32)

/-- The coordinate differences are the specification's. -/
theorem relCo_apply (b : Fin 4) (n : Fin 65536) (k : Fin 16) (d : Fin 3) :
    relCo a0 a2 (ix4 b n k d) = Spec.rel (fun b n d => a0 (ix3 b n d)) (nbOf a2) b n k d := by
  unfold relCo Spec.rel
  rw [subf_apply, selfCo_apply, nbCo_apply]

/-- The distance is the specification's: the reduction over the coordinate axis is the sum over the three
    coordinates, from zero. -/
theorem dist_apply (b : Fin 4) (n : Fin 65536) (k : Fin 16) (z : Fin 1) :
    RefRun.dist a0 a2 (ix4 b n k z) = Spec.dist (fun b n d => a0 (ix3 b n d)) (nbOf a2) b n k := by
  unfold RefRun.dist Spec.dist
  rw [hostSqrt_apply]
  rw [broadcastInDim_apply _ _ _ _ (ix3 b n k) (fun a => by
    match a with
    | ⟨0, _⟩ => rfl
    | ⟨1, _⟩ => rfl
    | ⟨2, _⟩ => rfl)]
  have hR : Shape.Reduces S4x65536x16x3 [3] S4x65536x16 := by decide
  rw [hostReduceAdd_apply, Ideal.hostReduceAdd_single _ hR]
  rw [constant_apply, Ideal.ofBits_zero_f32, zero_add]
  refine congrArg Ideal.sqrt (Finset.sum_congr rfl fun (d : Fin 3) _ => ?_)
  have hl : hR.lift (ix3 b n k) d = ix4 b n k d := by
    funext c; apply Fin.ext
    show hR.liftVal (ix3 b n k) d.val c = (ix4 b n k d c).val
    fin_cases c <;> simp [Shape.Reduces.liftVal]
  rw [hl, mulf_apply, relCo_apply]

/-- The ten features are the specification's: the concatenation read piece by piece. -/
theorem feats_apply (b : Fin 4) (n : Fin 65536) (k : Fin 16) (c : Fin 10) :
    feats a0 a2 (ix4 b n k c) = Spec.feat (fun b n d => a0 (ix3 b n d)) (nbOf a2) b n k c := by
  unfold feats Spec.feat
  by_cases h0 : c.val = 0
  · rw [if_pos h0]
    refine Eq.trans (concatenate_apply_piece 3 _ _ (ix4 b n k c) 0 ?_ S4x65536x16x1 (RefRun.dist a0 a2) ?_ rfl 0 ?_
      (ix4 b n k 0) ?_ ?_) (dist_apply a0 a2 b n k 0)
    · show (0 : ℕ) < 4
      omega
    · rfl
    · rfl
    · intro e he
      match e with
      | ⟨0, _⟩ => rfl
      | ⟨1, _⟩ => rfl
      | ⟨2, _⟩ => rfl
      | ⟨3, _⟩ => exact absurd rfl he
    · show 0 + 0 = c.val
      omega
  · rw [if_neg h0]
    by_cases h4 : c.val < 4
    · rw [dif_pos h4]
      refine Eq.trans (concatenate_apply_piece 3 _ _ (ix4 b n k c) 1 ?_ S4x65536x16x3 (relCo a0 a2) ?_ rfl 1 ?_
        (ix4 b n k ⟨c.val - 1, by omega⟩) ?_ ?_) (relCo_apply a0 a2 b n k _)
      · show (1 : ℕ) < 4
        omega
      · rfl
      · rfl
      · intro e he
        match e with
        | ⟨0, _⟩ => rfl
        | ⟨1, _⟩ => rfl
        | ⟨2, _⟩ => rfl
        | ⟨3, _⟩ => exact absurd rfl he
      · show 1 + (c.val - 1) = c.val
        omega
    · rw [dif_neg h4]
      by_cases h7 : c.val < 7
      · rw [dif_pos h7]
        refine Eq.trans (concatenate_apply_piece 3 _ _ (ix4 b n k c) 2 ?_ S4x65536x16x3 (selfCo a0) ?_ rfl 4 ?_
          (ix4 b n k ⟨c.val - 4, by omega⟩) ?_ ?_) (selfCo_apply a0 b n k _)
        · show (2 : ℕ) < 4
          omega
        · rfl
        · rfl
        · intro e he
          match e with
          | ⟨0, _⟩ => rfl
          | ⟨1, _⟩ => rfl
          | ⟨2, _⟩ => rfl
          | ⟨3, _⟩ => exact absurd rfl he
        · show 4 + (c.val - 4) = c.val
          omega
      · rw [dif_neg h7]
        have hc := c.isLt
        refine Eq.trans (concatenate_apply_piece 3 _ _ (ix4 b n k c) 3 ?_ S4x65536x16x3 (nbCo a0 a2) ?_ rfl 7 ?_
          (ix4 b n k ⟨c.val - 7, by omega⟩) ?_ ?_) (nbCo_apply a0 a2 b n k _)
        · show (3 : ℕ) < 4
          omega
        · rfl
        · rfl
        · intro e he
          match e with
          | ⟨0, _⟩ => rfl
          | ⟨1, _⟩ => rfl
          | ⟨2, _⟩ => rfl
          | ⟨3, _⟩ => exact absurd rfl he
        · show 7 + (c.val - 7) = c.val
          omega

end Feats

/-! ## The linear map -/

section Linear

variable (a0 : FVec Ideal S4x65536x3 .f32) (a2 : IVec S4x65536x16 32) (a3 : FVec Ideal S16x10 .f32) (a4 : FVec Ideal S16 .f32)

/-- A per-channel vector spread over every (batch, point, neighbour) reads its channel. -/
theorem full_chan_apply (v : FVec Ideal S16 .f32) (b : Fin 4) (n : Fin 65536) (k : Fin 16) (o : Fin 16) :
    full (chan v) (ix4 b n k o) = v (ix1 o) := by
  unfold full chan
  rw [broadcastInDim_apply _ _ _ _ (ix4 (0 : Fin 1) (0 : Fin 1) (0 : Fin 1) o) (fun a => by
    match a with
    | ⟨0, _⟩ => rfl
    | ⟨1, _⟩ => rfl
    | ⟨2, _⟩ => rfl
    | ⟨3, _⟩ => rfl)]
  rw [broadcastInDim_apply _ _ _ _ (ix1 o) (fun a => by
    match a with
    | ⟨0, _⟩ => rfl)]

/-- A per-channel row spread over every (batch, point, neighbour) reads its channel. -/
theorem full_apply (v : FVec Ideal S1x1x1x16 .f32) (b : Fin 4) (n : Fin 65536) (k : Fin 16) (o : Fin 16) :
    full v (ix4 b n k o) = v (ix4 (0 : Fin 1) (0 : Fin 1) (0 : Fin 1) o) := by
  unfold full
  rw [broadcastInDim_apply _ _ _ _ (ix4 (0 : Fin 1) (0 : Fin 1) (0 : Fin 1) o) (fun a => by
    match a with
    | ⟨0, _⟩ => rfl
    | ⟨1, _⟩ => rfl
    | ⟨2, _⟩ => rfl
    | ⟨3, _⟩ => rfl)]

/-- A vector of channels as a row reads its channel. -/
theorem chan_apply (v : FVec Ideal S16 .f32) (u0 u1 u2 : Fin 1) (o : Fin 16) :
    chan v (ix4 u0 u1 u2 o) = v (ix1 o) := by
  unfold chan
  rw [broadcastInDim_apply _ _ _ _ (ix1 o) (fun a => by
    match a with
    | ⟨0, _⟩ => rfl)]

/-- A scalar as a row reads the scalar. -/
theorem row_apply (v : FVec Ideal S_ .f32) (j : S1x1x1x16.Idx) : row v j = v ix0 := by
  unfold row
  exact broadcastInDim_scalar_apply _ _ _

/-- The product of the features with the weights is the sum over the ten features. -/
theorem dot_apply (l : FVec Ideal S4x65536x16x10 .f32) (r : FVec Ideal S16x10 .f32) (b : Fin 4) (n : Fin 65536) (k : Fin 16) (o : Fin 16) :
    Host.dotGeneral dot_S4x65536x16x10_S16x10_S4x65536x16x16_3_1_012_0_n_n none l r (ix4 b n k o) = ∑ c : Fin 10, l (ix4 b n k c) * r (ix2 o c) := by
  simp only [Host.dotGeneral]
  rw [Ideal.dotGeneral_apply]
  rw [← Equiv.sum_comp (contrEquiv1 dot_S4x65536x16x10_S16x10_S4x65536x16x16_3_1_012_0_n_n 10 (by decide) (by decide)).symm]
  refine Finset.sum_congr rfl fun c _ => ?_
  congr 2
  · funext a; apply Fin.ext
    fin_cases a <;> simp [DotDims.lhsIdx, dot_S4x65536x16x10_S16x10_S4x65536x16x16_3_1_012_0_n_n, contrEquiv1]
    all_goals rfl
  · funext a; apply Fin.ext
    fin_cases a <;> simp [DotDims.rhsIdx, dot_S4x65536x16x10_S16x10_S4x65536x16x16_3_1_012_0_n_n, contrEquiv1]
    all_goals rfl

/-- The linear map of the features plus the bias is the specification's. -/
theorem xv_apply (b : Fin 4) (n : Fin 65536) (k : Fin 16) (o : Fin 16) :
    xv a0 a2 a3 a4 (ix4 b n k o)
      = Spec.x (fun b n d => a0 (ix3 b n d)) (nbOf a2) (fun o c => a3 (ix2 o c)) (fun o => a4 (ix1 o)) b n k o := by
  unfold xv Spec.x
  rw [addf_apply, dot_apply, full_chan_apply]
  refine congrArg (· + a4 (ix1 o)) (Finset.sum_congr rfl fun c _ => ?_)
  rw [feats_apply, mul_comm]

end Linear

/-! ## The mean, the variance and the normalised channels -/

section Norm

/-- The sum over the (batch, point, neighbour) axes, read at a channel, is the sum over the triples. -/
theorem sumAll_apply (x : FVec Ideal S4x65536x16x16 .f32) (o : Fin 16) :
    sumAll x (ix1 o) = ∑ p : Fin 4 × Fin 65536 × Fin 16, x (ix4 p.1 p.2.1 p.2.2 o) := by
  unfold sumAll
  rw [hostReduceAdd_apply, Cert.LibSumTriples.reduceAdd_triples, constant_apply, Ideal.ofBits_zero_f32, zero_add]

/-- The mean of a channel: the sum over the triples over the count. -/
theorem meanv_apply (x : FVec Ideal S4x65536x16x16 .f32) (u0 u1 u2 : Fin 1) (o : Fin 16) :
    meanv x (ix4 u0 u1 u2 o) = Ideal.div (∑ p : Fin 4 × Fin 65536 × Fin 16, x (ix4 p.1 p.2.1 p.2.2 o)) Spec.cnt := by
  unfold meanv
  rw [hostDivf_apply, chan_apply, sumAll_apply, row_apply, constant_apply]

/-- The deviation from the mean. -/
theorem devv_apply (x : FVec Ideal S4x65536x16x16 .f32) (b : Fin 4) (n : Fin 65536) (k : Fin 16) (o : Fin 16) :
    devv x (ix4 b n k o)
      = x (ix4 b n k o) - Ideal.div (∑ p : Fin 4 × Fin 65536 × Fin 16, x (ix4 p.1 p.2.1 p.2.2 o)) Spec.cnt := by
  unfold devv
  rw [subf_apply, full_apply, meanv_apply]

/-- The variance's divisor is the count: the correction it subtracts is zero. -/
theorem divisor_apply (i : S_.Idx) : divisor i = Spec.cnt := by
  unfold divisor
  rw [subf_apply, constant_apply, sitofp_apply, constantI_apply]
  show Spec.cnt - (((0#32 : BitVec 32).toInt : ℝ) : EReal) = Spec.cnt
  simp

/-- The variance of a channel: the divisor is positive, so the select takes the mean squared deviation. -/
theorem varv_apply (x : FVec Ideal S4x65536x16x16 .f32) (u0 u1 u2 : Fin 1) (o : Fin 16) :
    varv x (ix4 u0 u1 u2 o)
      = Ideal.div (∑ p : Fin 4 × Fin 65536 × Fin 16, devv x (ix4 p.1 p.2.1 p.2.2 o) * devv x (ix4 p.1 p.2.1 p.2.2 o)) Spec.cnt := by
  unfold varv
  rw [select_apply, broadcastInDim_scalar_apply, cmpf_apply, divisor_apply, constant_apply, Ideal.ofBits_zero_f32]
  have hpos : FloatOps.cmpf (F := Ideal) (φ := .f32) CmpFPredicate.ogt Spec.cnt (0 : EReal) = 1#1 := by
    show Ideal.cmp CmpFPredicate.ogt Spec.cnt 0 = 1#1
    unfold Ideal.cmp
    simp [Cert.Consts.cnt_pos]
  rw [hpos, select_one, hostDivf_apply, chan_apply, sumAll_apply, row_apply, divisor_apply]
  refine congrArg (Ideal.div · Spec.cnt) (Finset.sum_congr rfl fun p _ => ?_)
  rw [mulf_apply]

/-- The normalised channel, scaled, shifted and cut below at zero. -/
theorem normv_apply (x : FVec Ideal S4x65536x16x16 .f32) (a5 a6 : FVec Ideal S16 .f32) (b : Fin 4) (n : Fin 65536) (k : Fin 16) (o : Fin 16) :
    normv x a5 a6 (ix4 b n k o)
      = max (devv x (ix4 b n k o) * Ideal.rsqrt (varv x (ix4 (0 : Fin 1) (0 : Fin 1) (0 : Fin 1) o) + Spec.eps) * a5 (ix1 o) + a6 (ix1 o)) 0 := by
  unfold normv
  rw [maximumf_apply, addf_apply, mulf_apply, mulf_apply, full_apply, hostRsqrt_apply, addf_apply, row_apply, constant_apply,
    full_chan_apply, full_chan_apply, broadcastInDim_scalar_apply, constant_apply, Ideal.ofBits_zero_f32]

end Norm

/-! ## The result -/

/-- The reference's result at (batch, channel, point, neighbour) is the specification's, with the
    variance read as the mean squared deviation. -/
theorem refOut_apply (a0 : FVec Ideal S4x65536x3 .f32) (a1 : FVec Ideal S4x16x65536x1 .f32) (a2 : IVec S4x65536x16 32)
    (a3 : FVec Ideal S16x10 .f32) (a4 a5 a6 : FVec Ideal S16 .f32) (b : Fin 4) (ch : Fin 32) (n : Fin 65536) (k : Fin 16) :
    refOut a0 a1 a2 a3 a4 a5 a6 (ix4 b ch n k)
      = Spec.out (fun b n d => a0 (ix3 b n d)) (fun b o n => a1 (ix4 b o n 0)) (nbOf a2) (fun o c => a3 (ix2 o c))
          (fun o => a4 (ix1 o)) (fun o => a5 (ix1 o)) (fun o => a6 (ix1 o))
          (Spec.varDev (fun b n d => a0 (ix3 b n d)) (nbOf a2) (fun o c => a3 (ix2 o c)) (fun o => a4 (ix1 o))) b ch n k := by
  unfold refOut Spec.out
  rw [transpose_apply _ _ _ _ (ix4 b n k ch) (fun e => by
    match e with
    | ⟨0, _⟩ => rfl
    | ⟨1, _⟩ => rfl
    | ⟨2, _⟩ => rfl
    | ⟨3, _⟩ => rfl)]
  by_cases h : ch.val < 16
  · rw [dif_pos h]
    refine Eq.trans (concatenate_pair_apply_left (s₁ := S4x65536x16x16) (s₂ := S4x65536x16x16) (t := S4x65536x16x32) 3 _ _ _ (ix4 b n k ch) rfl (ix4 b n k ⟨ch.val, h⟩) (fun e => by
      match e with
      | ⟨0, _⟩ => rfl
      | ⟨1, _⟩ => rfl
      | ⟨2, _⟩ => rfl
      | ⟨3, _⟩ => rfl)) (gath_apply a1 a2 b n k _)
  · rw [dif_neg h]
    have hch := ch.isLt
    refine Eq.trans (concatenate_pair_apply_right (s₁ := S4x65536x16x16) (s₂ := S4x65536x16x16) (t := S4x65536x16x32) 3 _ _ _ (ix4 b n k ch) rfl rfl (ix4 b n k ⟨ch.val - 16, by omega⟩) (fun e he => by
      match e with
      | ⟨0, _⟩ => rfl
      | ⟨1, _⟩ => rfl
      | ⟨2, _⟩ => rfl
      | ⟨3, _⟩ => exact absurd rfl he) (by show (ch.val - 16) + 16 = ch.val; omega)) ?_
    rw [normv_apply]
    unfold Spec.norm
    have hx : ∀ (b : Fin 4) (n : Fin 65536) (k : Fin 16) (o : Fin 16), xv a0 a2 a3 a4 (ix4 b n k o)
        = Spec.x (fun b n d => a0 (ix3 b n d)) (nbOf a2) (fun o c => a3 (ix2 o c)) (fun o => a4 (ix1 o)) b n k o :=
      xv_apply a0 a2 a3 a4
    have hmean : ∀ o : Fin 16, Ideal.div (∑ p : Fin 4 × Fin 65536 × Fin 16, xv a0 a2 a3 a4 (ix4 p.1 p.2.1 p.2.2 o)) Spec.cnt
        = Spec.mean (fun b n d => a0 (ix3 b n d)) (nbOf a2) (fun o c => a3 (ix2 o c)) (fun o => a4 (ix1 o)) o := by
      intro o; unfold Spec.mean
      exact congrArg (Ideal.div · Spec.cnt) (Finset.sum_congr rfl fun p _ => hx _ _ _ _)
    have hdev : ∀ (b : Fin 4) (n : Fin 65536) (k : Fin 16) (o : Fin 16), devv (xv a0 a2 a3 a4) (ix4 b n k o)
        = Spec.x (fun b n d => a0 (ix3 b n d)) (nbOf a2) (fun o c => a3 (ix2 o c)) (fun o => a4 (ix1 o)) b n k o
          - Spec.mean (fun b n d => a0 (ix3 b n d)) (nbOf a2) (fun o c => a3 (ix2 o c)) (fun o => a4 (ix1 o)) o := by
      intro b n k o; rw [devv_apply, hx, hmean]
    have hvar : ∀ o : Fin 16, varv (xv a0 a2 a3 a4) (ix4 (0 : Fin 1) (0 : Fin 1) (0 : Fin 1) o)
        = Spec.varDev (fun b n d => a0 (ix3 b n d)) (nbOf a2) (fun o c => a3 (ix2 o c)) (fun o => a4 (ix1 o)) o := by
      intro o; rw [varv_apply]; unfold Spec.varDev
      exact congrArg (Ideal.div · Spec.cnt) (Finset.sum_congr rfl fun p _ => by rw [hdev])
    rw [hdev, hvar]

end Cert.ReferenceIdeal.RefRead

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.LibFinite.lean ====
import Idealize.ShloMosaic.PureOps.Ideal
import proofs.«162062_j44212393345653_2_alg».proof.Proof.LibERealCoe

/-!
# Extended reals that are real numbers

`IsReal x` says that the extended real `x` is (the coercion of) a real number, and `IsPosReal x`
that it is a positive real number.  The file proves that the two predicates are closed under the
operations of the ideal float instance that keep a finite computation finite: sums, differences,
products, negation, maxima and minima, finite sums, the quotient by a nonzero real, the exponential,
and the reciprocal square root of a positive real; and that the exponential of a value clamped between
two real bounds is a positive real whatever the clamped value is, the infinities included.
-/

namespace ERealFinite

open Idealize.ShloMosaic

/-- The extended real `x` is a real number. -/
def IsReal (x : EReal) : Prop := ∃ r : ℝ, x = (r : EReal)

/-- The extended real `x` is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

theorem IsPosReal.isReal {x : EReal} (h : IsPosReal x) : IsReal x := by
  obtain ⟨r, _, rfl⟩ := h; exact ⟨r, rfl⟩

theorem IsPosReal.ne_zero {x : EReal} (h : IsPosReal x) : x ≠ 0 := by
  obtain ⟨r, hr, rfl⟩ := h
  exact fun h0 => hr.ne' (by exact_mod_cast h0)

theorem IsPosReal.pos {x : EReal} (h : IsPosReal x) : 0 < x := by
  obtain ⟨r, hr, rfl⟩ := h
  exact_mod_cast hr

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (ERealCoe.coe_max a b).symm⟩

theorem IsReal.min {x y : EReal} (hx : IsReal x) (hy : IsReal y) : IsReal (min x y) := by
  obtain ⟨a, rfl⟩ := hx; obtain ⟨b, rfl⟩ := hy
  exact ⟨Min.min a b, (ERealCoe.coe_min a b).symm⟩

/-- A finite sum of real numbers is a real number. -/
theorem isReal_sum {ι : Type*} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

theorem isReal_sum_univ {ι : Type*} [Fintype ι] (f : ι → EReal) (h : ∀ i, IsReal (f i)) :
    IsReal (∑ i, f i) :=
  isReal_sum Finset.univ f fun i _ => h i

/-- The ideal quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a hb⟩

theorem IsReal.div_pos {x y : EReal} (hx : IsReal x) (hy : IsPosReal y) : IsReal (Ideal.div x y) :=
  hx.div hy.isReal hy.ne_zero

theorem IsReal.exp {x : EReal} (hx : IsReal x) : IsReal (Ideal.exp x) := by
  obtain ⟨a, rfl⟩ := hx
  exact ⟨Real.exp a, Ideal.exp_coe a⟩

theorem IsReal.exp_pos {x : EReal} (hx : IsReal x) : IsPosReal (Ideal.exp x) := by
  obtain ⟨a, rfl⟩ := hx
  exact ⟨Real.exp a, Real.exp_pos a, Ideal.exp_coe a⟩

/-- The reciprocal square root of a positive real is a positive real. -/
theorem IsPosReal.rsqrt {x : EReal} (hx : IsPosReal x) : IsPosReal (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- A value clamped between two real bounds is a real number, the infinities included. -/
theorem isReal_clamp (lo hi : ℝ) (s : EReal) : IsReal (Min.min (hi : EReal) (Max.max (lo : EReal) s)) := by
  induction s using EReal.rec with
  | bot => rw [max_eq_left bot_le]; exact (isReal_coe hi).min (isReal_coe lo)
  | top => rw [max_eq_right le_top, min_eq_left le_top]; exact isReal_coe hi
  | coe r => exact (isReal_coe hi).min ((isReal_coe lo).max (isReal_coe r))

/-- The exponential of a clamped value is a positive real, whatever the clamped value is. -/
theorem isPosReal_exp_clamp (lo hi : ℝ) (s : EReal) :
    IsPosReal (Ideal.exp (Min.min (hi : EReal) (Max.max (lo : EReal) s))) :=
  (isReal_clamp lo hi s).exp_pos

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonnegative real plus a positive real is a positive real. -/
theorem isPosReal_add_of_nonneg {a : ℝ} (ha : 0 ≤ a) {y : EReal} (hy : IsPosReal y) :
    IsPosReal ((a : EReal) + y) := by
  obtain ⟨b, hb, rfl⟩ := hy
  exact ⟨a + b, add_pos_of_nonneg_of_pos ha hb, (EReal.coe_add a b).symm⟩

/-- A sum of positive reals over a nonempty finite set is a positive real. -/
theorem isPosReal_sum {ι : Type*} (S : Finset ι) (hS : S.Nonempty) (f : ι → EReal)
    (h : ∀ i ∈ S, IsPosReal (f i)) : IsPosReal (∑ i ∈ S, f i) := by
  classical
  induction hS using Finset.Nonempty.cons_induction with
  | singleton a => rw [Finset.sum_singleton]; exact h a (Finset.mem_singleton_self a)
  | cons a S ha hS ih =>
    rw [Finset.sum_cons]
    exact (h a (Finset.mem_cons_self a S)).add (ih fun i hi => h i (Finset.mem_cons_of_mem hi))

end ERealFinite
-- ==== Proof.LibVariance.lean ====
import Idealize.ShloMosaic.PureOps.Ideal
import proofs.«162062_j44212393345653_2_alg».proof.Proof.LibERealCoe
import proofs.«162062_j44212393345653_2_alg».proof.Proof.LibFinite

/-!
# The two spellings of a variance agree on real entries

For a finite family `X` of extended reals that are all real numbers, indexed by a type with `N`
elements (`N` a nonzero real), write `μ = (∑ X) / N`.  Then, with the ideal float instance's quotient,

  (∑ X·X) / N − μ·μ = (∑ (X − μ)·(X − μ)) / N,

and the common value is a real number that is not negative.  (With an infinite entry the identity
fails: the left side is `⊤ − ⊤`.)  The real-number identity is `real_var`; `var_eq` is the statement
over the extended reals, `var_nonneg` the sign, and `var_add_pos` says that the variance plus a
positive real is a positive real, which is what a reciprocal square root asks.
-/

namespace ERealVariance

open Idealize.ShloMosaic ERealFinite

variable {ι : Type*} [Fintype ι]

/-- Mean of squares minus squared mean is the mean squared deviation, over the reals. -/
theorem real_var (x : ι → ℝ) (N : ℝ) (hN : N ≠ 0) (hcard : (Fintype.card ι : ℝ) = N) :
    (∑ i, x i * x i) / N - (∑ i, x i) / N * ((∑ i, x i) / N)
      = (∑ i, (x i - (∑ i, x i) / N) * (x i - (∑ i, x i) / N)) / N := by
  set S := ∑ i, x i with hS
  have h1 : ∀ i, (x i - S / N) * (x i - S / N) = x i * x i - 2 * (S / N) * x i + S / N * (S / N) :=
    fun i => by ring
  simp only [h1]
  rw [Finset.sum_add_distrib, Finset.sum_sub_distrib, ← Finset.mul_sum, Finset.sum_const,
    Finset.card_univ, nsmul_eq_mul, hcard, ← hS]
  field_simp
  ring

/-- The mean squared deviation of reals is not negative when `N` is positive. -/
theorem real_var_nonneg (x : ι → ℝ) (N : ℝ) (hN : 0 < N) (m : ℝ) :
    0 ≤ (∑ i, (x i - m) * (x i - m)) / N :=
  div_nonneg (Finset.sum_nonneg fun i _ => mul_self_nonneg _) hN.le

/-- The sum of the coercions is the coercion of the sum. -/
theorem sum_coe (x : ι → ℝ) : (∑ i, (x i : EReal)) = ((∑ i, x i : ℝ) : EReal) :=
  (ERealCoe.coe_sum x).symm

/-- Both spellings of the variance of real entries, computed: each is the coercion of the real
    mean squared deviation. -/
theorem var_forms (x : ι → ℝ) (N : ℝ) (hN : N ≠ 0) (hcard : (Fintype.card ι : ℝ) = N) :
    Ideal.div (∑ i, (x i : EReal) * (x i : EReal)) (N : EReal)
        - Ideal.div (∑ i, (x i : EReal)) (N : EReal) * Ideal.div (∑ i, (x i : EReal)) (N : EReal)
      = (((∑ i, (x i - (∑ i, x i) / N) * (x i - (∑ i, x i) / N)) / N : ℝ) : EReal)
    ∧ Ideal.div (∑ i, ((x i : EReal) - Ideal.div (∑ i, (x i : EReal)) (N : EReal))
          * ((x i : EReal) - Ideal.div (∑ i, (x i : EReal)) (N : EReal))) (N : EReal)
      = (((∑ i, (x i - (∑ i, x i) / N) * (x i - (∑ i, x i) / N)) / N : ℝ) : EReal) := by
  have hmu : Ideal.div (∑ i, (x i : EReal)) (N : EReal) = (((∑ i, x i) / N : ℝ) : EReal) := by
    rw [sum_coe, div_coe_coe _ hN]
  constructor
  · rw [hmu]
    simp only [← EReal.coe_mul]
    rw [sum_coe, div_coe_coe _ hN, ← EReal.coe_sub, real_var x N hN hcard]
  · rw [hmu]
    simp only [← EReal.coe_sub, ← EReal.coe_mul]
    rw [sum_coe, div_coe_coe _ hN]

/-- The two spellings of the variance agree when every entry is a real number. -/
theorem var_eq (X : ι → EReal) (hX : ∀ i, IsReal (X i)) (Nn : EReal) (N : ℝ) (hNn : Nn = (N : EReal))
    (hN : N ≠ 0) (hcard : (Fintype.card ι : ℝ) = N) :
    Ideal.div (∑ i, X i * X i) Nn - Ideal.div (∑ i, X i) Nn * Ideal.div (∑ i, X i) Nn
      = Ideal.div (∑ i, (X i - Ideal.div (∑ i, X i) Nn) * (X i - Ideal.div (∑ i, X i) Nn)) Nn := by
  choose x hx using hX
  obtain rfl : X = fun i => (x i : EReal) := funext hx
  subst hNn
  obtain ⟨h1, h2⟩ := var_forms x N hN hcard
  exact h1.trans h2.symm

/-- The variance of real entries, in the mean-squared-deviation spelling, is a real that is not negative. -/
theorem var_nonneg (X : ι → EReal) (hX : ∀ i, IsReal (X i)) (Nn : EReal) (N : ℝ) (hNn : Nn = (N : EReal))
    (hN : 0 < N) (hcard : (Fintype.card ι : ℝ) = N) :
    ∃ v : ℝ, 0 ≤ v ∧
      Ideal.div (∑ i, (X i - Ideal.div (∑ i, X i) Nn) * (X i - Ideal.div (∑ i, X i) Nn)) Nn = (v : EReal) := by
  choose x hx using hX
  obtain rfl : X = fun i => (x i : EReal) := funext hx
  subst hNn
  exact ⟨_, real_var_nonneg x N hN _, (var_forms x N hN.ne' hcard).2⟩

/-- The mean of real entries is a real number. -/
theorem mean_isReal (X : ι → EReal) (hX : ∀ i, IsReal (X i)) (Nn : EReal) (N : ℝ) (hNn : Nn = (N : EReal))
    (hN : N ≠ 0) : IsReal (Ideal.div (∑ i, X i) Nn) := by
  subst hNn
  exact (isReal_sum_univ X hX).div (isReal_coe N) (fun h => hN (by exact_mod_cast h))

/-- The variance of real entries plus a positive real is a positive real (so that its reciprocal
    square root is a positive real). -/
theorem var_add_pos (X : ι → EReal) (hX : ∀ i, IsReal (X i)) (Nn : EReal) (N : ℝ) (hNn : Nn = (N : EReal))
    (hN : 0 < N) (hcard : (Fintype.card ι : ℝ) = N) {e : EReal} (he : IsPosReal e) :
    IsPosReal (Ideal.div (∑ i, (X i - Ideal.div (∑ i, X i) Nn) * (X i - Ideal.div (∑ i, X i) Nn)) Nn + e) := by
  obtain ⟨v, hv, hv'⟩ := var_nonneg X hX Nn N hNn hN hcard
  rw [hv']
  exact isPosReal_add_of_nonneg hv he

end ERealVariance
-- ==== Proof.Bridge.lean ====
import proofs.«162062_j44212393345653_2_alg».proof.Proof.Spec
import proofs.«162062_j44212393345653_2_alg».proof.Proof.Consts
import proofs.«162062_j44212393345653_2_alg».proof.Proof.LibVariance

/-!
# On real inputs the two readings of the variance are one

When every point coordinate, every weight and every bias is a real number, so is every entry of
the linear image `x`: a difference, a product and a finite sum of reals are real, and the distance
is the square root of a sum of squares, which is a real that is not negative.  Then the mean of the
squares less the squared mean IS the mean squared deviation, a real that is not negative, so
cutting it below at zero changes nothing: `varSq = varDev`, and the specification read with either
is the same function.  (With an infinite entry the first spelling is `⊤ − ⊤`.)
-/

namespace Cert.Bridge

open Idealize.ShloMosaic Cert.Spec ERealFinite ERealVariance

variable (co : Fin 4 → Fin 65536 → Fin 3 → EReal) (nb : Fin 4 → Fin 65536 → Fin 16 → Fin 65536)
  (w : Fin 16 → Fin 10 → EReal) (bi : Fin 16 → EReal)

/-- The square root of a sum of squares of reals is a real. -/
theorem isReal_sqrt_sum_sq {ι : Type*} [Fintype ι] (f : ι → EReal) (hf : ∀ i, IsReal (f i)) :
    IsReal (Ideal.sqrt (∑ i, f i * f i)) := by
  choose r hr using hf
  obtain rfl : f = fun i => (r i : EReal) := funext hr
  have h : (∑ i, (r i : EReal) * (r i : EReal)) = ((∑ i, r i * r i : ℝ) : EReal) := by
    simp only [← EReal.coe_mul]; exact (ERealCoe.coe_sum _).symm
  rw [h, Ideal.sqrt_coe, if_neg (not_lt.mpr (Finset.sum_nonneg fun i _ => mul_self_nonneg (r i)))]
  exact ⟨_, rfl⟩

variable (hco : ∀ b n d, IsReal (co b n d)) (hw : ∀ o c, IsReal (w o c)) (hbi : ∀ o, IsReal (bi o))

include hco in
theorem rel_isReal (b : Fin 4) (n : Fin 65536) (k : Fin 16) (d : Fin 3) : IsReal (rel co nb b n k d) :=
  (hco b n d).sub (hco b (nb b n k) d)

include hco in
theorem feat_isReal (b : Fin 4) (n : Fin 65536) (k : Fin 16) (c : Fin 10) : IsReal (feat co nb b n k c) := by
  unfold feat
  split_ifs
  · exact isReal_sqrt_sum_sq _ fun d => rel_isReal co nb hco b n k d
  · exact rel_isReal co nb hco b n k _
  · exact hco b n _
  · exact hco b (nb b n k) _

include hco hw hbi in
/-- Every entry of the linear image is a real number. -/
theorem x_isReal (b : Fin 4) (n : Fin 65536) (k : Fin 16) (o : Fin 16) : IsReal (x co nb w bi b n k o) :=
  (isReal_sum_univ _ fun c => (hw o c).mul (feat_isReal co nb hco b n k c)).add (hbi o)

theorem card_triples : (Fintype.card (Fin 4 × Fin 65536 × Fin 16) : ℝ) = 4194304 := by
  simp only [Fintype.card_prod, Fintype.card_fin]; norm_num

include hco hw hbi in
/-- The two spellings of the variance agree. -/
theorem varSq_eq_varDev (o : Fin 16) : varSq co nb w bi o = varDev co nb w bi o := by
  have hX : ∀ p : Fin 4 × Fin 65536 × Fin 16, IsReal (x co nb w bi p.1 p.2.1 p.2.2 o) :=
    fun p => x_isReal co nb w bi hco hw hbi p.1 p.2.1 p.2.2 o
  have heq := var_eq (fun p : Fin 4 × Fin 65536 × Fin 16 => x co nb w bi p.1 p.2.1 p.2.2 o) hX cnt 4194304
    Cert.Consts.ofBits_cnt (by norm_num) card_triples
  obtain ⟨v, hv, hv'⟩ := var_nonneg (fun p : Fin 4 × Fin 65536 × Fin 16 => x co nb w bi p.1 p.2.1 p.2.2 o) hX cnt 4194304
    Cert.Consts.ofBits_cnt (by norm_num) card_triples
  unfold varSq varDev mean
  rw [heq, hv']
  exact max_eq_left (by exact_mod_cast hv)

include hco hw hbi in
/-- The specification is one function whichever way the variance is read. -/
theorem out_varSq_eq (fe : Fin 4 → Fin 16 → Fin 65536 → EReal) (ga be : Fin 16 → EReal) :
    out co fe nb w bi ga be (varSq co nb w bi) = out co fe nb w bi ga be (varDev co nb w bi) := by
  rw [show varSq co nb w bi = varDev co nb w bi from funext (varSq_eq_varDev co nb w bi hco hw hbi)]

end Cert.Bridge
-- ==== Proof.Finite.lean ====
import proofs.«162062_j44212393345653_2_alg».proof.Pre_finite_inputs
import proofs.«162062_j44212393345653_2_alg».proof.Proof.LibFinite
import Idealize.ShloMosaic.Lib.ReduceAll
import Idealize.ShloMosaic.Lib.Affine
import Idealize.ShloMosaic.Lib.ValueIdx

/-!
# The precondition says the float inputs are real numbers

The precondition is the conjunction, over the six float inputs, of "every entry's absolute value is
below +∞".  On the extended reals `max x (−x) < ⊤` excludes both infinities, so every entry of every
float input is a real number.  The conjunction is a chain of `and`s of one-bit words, each conjunct a
reduction by `and` of a one-bit array: it is 1 exactly when every element is.
-/

namespace Cert.Finite

open Idealize.ShloMosaic ERealFinite Cert.Pre_finite_inputs

instance : Subsingleton S_.Idx := ⟨fun a b => funext fun d => d.elim0⟩

/-- An extended real whose absolute value is below the pattern of +∞ is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    unfold Ideal.cmp at h
    by_contra hn
    simp [hn] at h
  rw [isReal_iff]
  constructor
  · rintro rfl; simp at hlt
  · rintro rfl; simp at hlt

/-- One conjunct of the precondition: the reduction by `and` is 1, so every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
        (constantI S_ 1 1#1) hr hu ValueIdx.ix0 = 1#1) (i : s.Idx) : IsReal (a i) :=
  isReal_of_abs_lt (a i) (Host.reduce_andi_all _ _ hr hu ValueIdx.ix0 e i)

variable [Cert.Pre_finite_inputs.Facts]

/-- The precondition gives: every entry of the coordinates, of the weights and of the bias is real. -/
theorem reals_of_pre (a0 : FVec Ideal S4x65536x3 .f32) (a1 : FVec Ideal S4x16x65536x1 .f32) (a2 : IVec S4x65536x16 32)
    (a3 : FVec Ideal S16x10 .f32) (a4 a5 a6 : FVec Ideal S16 .f32)
    (h : Cert.Pre_finite_inputs.fn (F := Ideal) a0 a1 a2 a3 a4 a5 a6 = fun _ => 1#1) :
    (∀ i, IsReal (a0 i)) ∧ (∀ i, IsReal (a3 i)) ∧ (∀ i, IsReal (a4 i)) := by
  have h0 := congrFun h ValueIdx.ix0
  dsimp only [Cert.Pre_finite_inputs.fn, Cert.Pre_finite_inputs.fn_part1] at h0
  obtain ⟨h5, -⟩ := IntOp.andi_eq_one.1 h0
  obtain ⟨h4, -⟩ := IntOp.andi_eq_one.1 h5
  obtain ⟨h3, e4⟩ := IntOp.andi_eq_one.1 h4
  obtain ⟨h2, e3⟩ := IntOp.andi_eq_one.1 h3
  obtain ⟨e0, -⟩ := IntOp.andi_eq_one.1 h2
  exact ⟨all_real a0 _ _ _ e0, all_real a3 _ _ _ e3, all_real a4 _ _ _ e4⟩

end Cert.Finite
-- ==== Proof.lean ====
/-
  The accumulating-and-normalising kernel program against its plain reference.

  Both programs take a point cloud (4 batches of 65536 points with 3 coordinates), 16 features per
  point, 16 neighbour indices per point, a 16 × 10 linear map with a bias, and a scale and a shift per
  channel.  For every (point, neighbour) pair they form ten relative features, map them linearly to
  16 channels, normalise each channel with its mean and variance over all 2²² pairs, scale, shift,
  cut below at zero, and put the neighbour's own 16 features in front (Proof/Spec.lean).

  The reference does this on whole arrays; its variance is the mean of the squared deviations.  The
  kernel program lays the inputs out flat (channel before position), accumulates per batch and channel
  the sum of the linear image and of its square over 16 tiles of 65536 positions in a first pass,
  forms the mean, and the variance as the mean of the squares less the squared mean cut below at
  zero, and normalises in a second pass over the same tiles.

  * The three frame claims: each program runs to the end, faults nowhere, and leaves its argument
    arrays unchanged.  For the kernel program (at the word-level instance and at the ideal one, the
    same text) this is the run of its five stretches (Proof/Kernel/, Proof/KernelIdeal/: Run, Frame,
    Region0, Region1, Passes); for the reference, its operations one after the other (Proof/RefRun.lean).
  * The ideal pass rewrote nothing, so the kernel program's idealization claim is `True`.
  * The value claim: at the ideal instance both results are the specification's `out` at every
    (batch, channel, point, neighbour) — the reference's with `varDev` (Proof/RefRead.lean), the
    kernel program's with `varSq` (Proof/KernelIdeal/Value.lean, Result.lean) —, and the two readings
    of the variance agree when every coordinate, weight and bias is a real number
    (Proof/Bridge.lean), which the precondition says (Proof/Finite.lean).  With an infinite input the
    mean of the squares less the squared mean is `⊤ − ⊤`: the precondition is used exactly there.
-/
import proofs.«162062_j44212393345653_2_alg».proof.Defs
import proofs.«162062_j44212393345653_2_alg».proof.Proof.Gen.Kernel
import proofs.«162062_j44212393345653_2_alg».proof.Proof.Gen.KernelIdeal
import proofs.«162062_j44212393345653_2_alg».proof.Proof.Gen.ReferenceIdeal
import proofs.«162062_j44212393345653_2_alg».proof.Proof.Gen.Pre_finite_inputs
import proofs.«162062_j44212393345653_2_alg».proof.Proof.Kernel.Passes
import proofs.«162062_j44212393345653_2_alg».proof.Proof.KernelIdeal.Result
import proofs.«162062_j44212393345653_2_alg».proof.Proof.RefRead
import proofs.«162062_j44212393345653_2_alg».proof.Proof.Bridge
import proofs.«162062_j44212393345653_2_alg».proof.Proof.Finite

set_option maxRecDepth 16384

noncomputable section

namespace Cert.Proof

open Idealize.ShloMosaic Idealize.ShloMosaic.TcCoe Idealize.ShloMosaic.ValueIdx Idealize.SL.Sem

/-- The kernel program, read at the word level, runs to the end and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The kernel program, read over the extended reals, runs to the end and leaves its arguments unchanged. -/
theorem frame_ki : Cert.frame_KernelIdeal (hKernelIdeal := Cert.KernelIdeal.Gen.facts)
    (hPre_finite_inputs := Cert.Pre_finite_inputs.Gen.facts) :=
  fun m ρ _ => Cert.KernelIdeal.Hand.frame (F := Ideal) m ρ

/-- The ideal pass rewrote no operation. -/
theorem preserves : Cert.preserves_Kernel_KernelIdeal := trivial

open Cert.KernelIdeal.Hand Cert.KernelIdeal.Val in
/-- From memories that agree on the arguments, whose float entries are real numbers, both programs
    run to the end with the same result: at every (batch, channel, point, neighbour) it is the
    specification's value, the two readings of the variance being one on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W5 (leaves0 (F := Ideal)) keeps0 leaves1 keeps1 m c (Proc.devRef .tc Cert.KernelIdeal.main_v34),
    run_named (leaves0 (F := Ideal)) keeps0 leaves1 keeps1 m passes ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1,
    (hagree c).2.2.2.2.2.1, (hagree c).2.2.2.2.2.2]
  obtain ⟨hco, hw, hbi⟩ := Cert.Finite.reals_of_pre _ _ _ _ _ _ _ (hpre c)
  funext j
  obtain ⟨b, ch, n, k, rfl⟩ : ∃ (b : Fin 4) (ch : Fin 32) (n : Fin 65536) (k : Fin 16), j = ix4 b ch n k :=
    ⟨j 0, j 1, j 2, j 3, eq_ix4 j⟩
  rw [Cert.ReferenceIdeal.RefRead.refOut_apply]
  refine Eq.trans ?_ (result m c b ch n k).symm
  exact (congrFun (congrFun (congrFun (congrFun
    (Cert.Bridge.out_varSq_eq (co m c) (nb m c) (wt m c) (bi m c)
      (fun b n d => hco (ix3 b n d)) (fun o k => hw (ix2 o k)) (fun o => hbi (ix1 o)) (fe m c) (ga m c) (be m c))
    b) ch) n) k).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, preserves, algebraic⟩

end Cert.Proof

end
